-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v230)) (v1 : (c : Dev Cert.KernelIdeal.nD) → Buf (Elt Ideal) ((c.tc : Thread Cert.KernelIdeal.nD Cert.KernelIdeal.τ).loc Cert.KernelIdeal.main_v117)) (v2 : (c : Dev Cert.KernelIdeal.nD) → Buf (Elt Ideal) ((c.tc : Thread Cert.KernelIdeal.nD Cert.KernelIdeal.τ).loc Cert.KernelIdeal.main_v222)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v230) = v0 c
          ∧ r.2.mem ((c.tc : Thread Cert.KernelIdeal.nD Cert.KernelIdeal.τ).loc Cert.KernelIdeal.main_v117) = v1 c
          ∧ r.2.mem ((c.tc : Thread Cert.KernelIdeal.nD Cert.KernelIdeal.τ).loc Cert.KernelIdeal.main_v222) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v278) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v262) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x160000 : Shape := ⟨2, ![64, 160000]⟩
abbrev S160000 : Shape := ⟨1, ![160000]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x160000 : S_.BroadcastsInDim S64x160000 (![] : Fin 0 → Fin S64x160000.rank)
  reducesTo_S64x160000_S_d0_1 : S64x160000.ReducesTo [0, 1] S_
  bcast_S_S160000 : S_.BroadcastsInDim S160000 (![] : Fin 0 → Fin S160000.rank)
  reducesTo_S160000_S_d0 : S160000.ReducesTo [0] S_
  bcast_S_S64x64 : S_.BroadcastsInDim S64x64 (![] : Fin 0 → Fin S64x64.rank)
  reducesTo_S64x64_S_d0_1 : S64x64.ReducesTo [0, 1] S_

variable [Facts]

def fn_part4 {F : FTy → Type} [FloatOps F] (main_arg16 : FVec F S160000 .f32) (main_arg17 : FVec F S64x64 .f32) (main_v63 : IVec S_ 1) (main_v67 : IVec S_ 1) : IVec S_ 1 :=
  let main_v68 : IVec S_ 1 := andi main_v63 main_v67
  let main_v69 : FVec F S160000 .f32 := Host.absf main_arg16
  let main_cst_26 : FVec F S_ .f32 := constant S_ .f32 0x7F800000#32
  let main_v70 : FVec F S160000 .f32 := broadcastInDim S160000 ![] bcast_S_S160000 main_cst_26
  let main_v71 : IVec S160000 1 := cmpf .olt main_v69 main_v70
  let main_c_27 : IVec S_ 1 := constantI S_ 1 1#1
  let main_v72 : IVec S_ 1 := (fun x v => Host.reduce IntOp.andi x v reducesTo_S160000_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  main_v78

def fn_part3 {F : FTy → Type} [FloatOps F] (main_arg13 : FVec F S32x64 .f32) (main_arg14 : FVec F S64 .f32) (main_arg15 : FVec F S64x160000 .f32) (main_arg16 : FVec F S160000 .f32) (main_arg17 : FVec F S64x64 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x64 .f32 := Host.absf main_arg13
  let main_cst_20 : FVec F S_ .f32 := constant S_ .f32 0x7F800000#32
  let main_v55 : FVec F S32x64 .f32 := broadcastInDim S32x64 ![] bcast_S_S32x64 main_cst_20
  let main_v56 : IVec S32x64 1 := cmpf .olt main_v54 main_v55
  let main_c_21 : IVec S_ 1 := constantI S_ 1 1#1
  let main_v57 : IVec S_ 1 := (fun x v => Host.reduce IntOp.andi x v reducesTo_S32x64_S_d0_1 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x160000 .f32 := Host.absf main_arg15
  let main_cst_24 : FVec F S_ .f32 := constant S_ .f32 0x7F800000#32
  let main_v65 : FVec F S64x160000 .f32 := broadcastInDim S64x160000 ![] bcast_S_S64x160000 main_cst_24
  let main_v66 : IVec S64x160000 1 := cmpf .olt main_v64 main_v65
  let main_c_25 : IVec S_ 1 := constantI S_ 1 1#1
  let main_v67 : IVec S_ 1 := (fun x v => Host.reduce IntOp.andi x v reducesTo_S64x160000_S_d0_1 h_S_) main_v66 main_c_25
  fn_part4 (F := F) main_arg16 main_arg17 main_v63 main_v67

def fn_part2 {F : FTy → Type} [FloatOps F] (main_arg9 : FVec F S64x16 .f32) (main_arg10 : FVec F S16 .f32) (main_arg11 : FVec F S16x32 .f32) (main_arg12 : FVec F S32 .f32) (main_arg13 : FVec F S32x64 .f32) (main_arg14 : FVec F S64 .f32) (main_arg15 : FVec F S64x160000 .f32) (main_arg16 : FVec F S160000 .f32) (main_arg17 : FVec F S64x64 .f32) (main_v33 : IVec S_ 1) : IVec S_ 1 :=
  let main_v34 : FVec F S64x16 .f32 := Host.absf main_arg9
  let main_cst_12 : FVec F S_ .f32 := constant S_ .f32 0x7F800000#32
  let main_v35 : FVec F S64x16 .f32 := broadcastInDim S64x16 ![] bcast_S_S64x16 main_cst_12
  let main_v36 : IVec S64x16 1 := cmpf .olt main_v34 main_v35
  let main_c_13 : IVec S_ 1 := constantI S_ 1 1#1
  let main_v37 : IVec S_ 1 := (fun x v => Host.reduce IntOp.andi x v reducesTo_S64x16_S_d0_1 h_S_) main_v36 main_c_13
  let main_v38 : IVec S_ 1 := andi main_v33 main_v37
  let main_v39 : FVec F S16 .f32 := Host.absf main_arg10
  let main_cst_14 : FVec F S_ .f32 := constant S_ .f32 0x7F800000#32
  let main_v40 : FVec F S16 .f32 := broadcastInDim S16 ![] bcast_S_S16 main_cst_14
  let main_v41 : IVec S16 1 := cmpf .olt main_v39 main_v40
  let main_c_15 : IVec S_ 1 := constantI S_ 1 1#1
  let main_v42 : IVec S_ 1 := (fun x v => Host.reduce IntOp.andi x v reducesTo_S16_S_d0 h_S_) main_v41 main_c_15
  let main_v43 : IVec S_ 1 := andi main_v38 main_v42
  let main_v44 : FVec F S16x32 .f32 := Host.absf main_arg11
  let main_cst_16 : FVec F S_ .f32 := constant S_ .f32 0x7F800000#32
  let main_v45 : FVec F S16x32 .f32 := broadcastInDim S16x32 ![] bcast_S_S16x32 main_cst_16
  let main_v46 : IVec S16x32 1 := cmpf .olt main_v44 main_v45
  let main_c_17 : IVec S_ 1 := constantI S_ 1 1#1
  let main_v47 : IVec S_ 1 := (fun x v => Host.reduce IntOp.andi x v reducesTo_S16x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_v48 main_v49 main_v50

def fn_part1 {F : FTy → Type} [FloatOps F] (main_arg6 : FVec F S32 .f32) (main_arg7 : FVec F S32x64 .f32) (main_arg8 : FVec F S64 .f32) (main_arg9 : FVec F S64x16 .f32) (main_arg10 : FVec F S16 .f32) (main_arg11 : FVec F S16x32 .f32) (main_arg12 : FVec F S32 .f32) (main_arg13 : FVec F S32x64 .f32) (main_arg14 : FVec F S64 .f32) (main_arg15 : FVec F S64x160000 .f32) (main_arg16 : FVec F S160000 .f32) (main_arg17 : FVec F S64x64 .f32) (main_v13 : IVec S_ 1) (main_v16 : IVec S16x32 1) : IVec S_ 1 :=
  let main_c_5 : IVec S_ 1 := constantI S_ 1 1#1
  let main_v17 : IVec S_ 1 := (fun x v => Host.reduce IntOp.andi x v reducesTo_S16x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg7
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_v33

def fn {F : FTy → Type} [FloatOps F] (main_arg0 : FVec F S100000x64 .f32) (main_arg1 : IVec S2x3200000 32) (main_arg2 : IVec S100000 32) (main_arg3 : FVec F S64x16 .f32) (main_arg4 : FVec F S16 .f32) (main_arg5 : FVec F S16x32 .f32) (main_arg6 : FVec F S32 .f32) (main_arg7 : FVec F S32x64 .f32) (main_arg8 : FVec F S64 .f32) (main_arg9 : FVec F S64x16 .f32) (main_arg10 : FVec F S16 .f32) (main_arg11 : FVec F S16x32 .f32) (main_arg12 : FVec F S32 .f32) (main_arg13 : FVec F S32x64 .f32) (main_arg14 : FVec F S64 .f32) (main_arg15 : FVec F S64x160000 .f32) (main_arg16 : FVec F S160000 .f32) (main_arg17 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x16 .f32 := Host.absf main_arg3
  let main_cst_0 : FVec F S_ .f32 := constant S_ .f32 0x7F800000#32
  let main_v5 : FVec F S64x16 .f32 := broadcastInDim S64x16 ![] bcast_S_S64x16 main_cst_0
  let main_v6 : IVec S64x16 1 := cmpf .olt main_v4 main_v5
  let main_c_1 : IVec S_ 1 := constantI S_ 1 1#1
  let main_v7 : IVec S_ 1 := (fun x v => Host.reduce IntOp.andi x v reducesTo_S64x16_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x32 .f32 := Host.absf main_arg5
  let main_cst_4 : FVec F S_ .f32 := constant S_ .f32 0x7F800000#32
  let main_v15 : FVec F S16x32 .f32 := broadcastInDim S16x32 ![] bcast_S_S16x32 main_cst_4
  let main_v16 : IVec S16x32 1 := cmpf .olt main_v14 main_v15
  fn_part1 (F := F) main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x160000 : Shape := ⟨2, ![64, 160000]⟩
abbrev S160000 : Shape := ⟨1, ![160000]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S100000x16 : Shape := ⟨2, ![100000, 16]⟩
abbrev S5000x64 : Shape := ⟨2, ![5000, 64]⟩
abbrev S5000x1 : Shape := ⟨2, ![5000, 1]⟩
abbrev S5000x16 : Shape := ⟨2, ![5000, 16]⟩
abbrev S3200000x16 : Shape := ⟨2, ![3200000, 16]⟩
abbrev S1x16 : Shape := ⟨2, ![1, 16]⟩
abbrev S100000x32 : Shape := ⟨2, ![100000, 32]⟩
abbrev S5000x32 : Shape := ⟨2, ![5000, 32]⟩
abbrev S3200000x32 : Shape := ⟨2, ![3200000, 32]⟩
abbrev S1x32 : Shape := ⟨2, ![1, 32]⟩
abbrev S3200000x64 : Shape := ⟨2, ![3200000, 64]⟩
abbrev S1x64 : Shape := ⟨2, ![1, 64]⟩
abbrev S64x1 : Shape := ⟨2, ![64, 1]⟩
abbrev S1x160000 : Shape := ⟨2, ![1, 160000]⟩
abbrev S64x16000 : Shape := ⟨2, ![64, 16000]⟩
abbrev S1x16000 : Shape := ⟨2, ![1, 16000]⟩
abbrev S64x400x400 : Shape := ⟨3, ![64, 400, 400]⟩

abbrev nBuf : Space → Nat
  | .hbm => 309
  | .vmem => 103
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S64x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S64x16, .f32⟩
  | 10 => ⟨S16, .f32⟩
  | 11 => ⟨S16x32, .f32⟩
  | 12 => ⟨S32, .f32⟩
  | 13 => ⟨S32x64, .f32⟩
  | 14 => ⟨S64, .f32⟩
  | 15 => ⟨S64x160000, .f32⟩
  | 16 => ⟨S160000, .f32⟩
  | 17 => ⟨S64x64, .f32⟩
  | 18 => ⟨S1x3200000, .i32⟩
  | 19 => ⟨S3200000, .i32⟩
  | 20 => ⟨S1x3200000, .i32⟩
  | 21 => ⟨S3200000, .i32⟩
  | 22 => ⟨S_, .f32⟩
  | 23 => ⟨S3200000, .f32⟩
  | 24 => ⟨S_, .f32⟩
  | 25 => ⟨S100000, .f32⟩
  | 26 => ⟨S3200000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000, .f32⟩
  | 33 => ⟨S100000x1, .f32⟩
  | 34 => ⟨S100000x16, .f32⟩
  | 35 => ⟨S100000x16, .f32⟩
  | 36 => ⟨S_, .i32⟩
  | 37 => ⟨S3200000, .i32⟩
  | 38 => ⟨S3200000, .i1⟩
  | 39 => ⟨S_, .i32⟩
  | 40 => ⟨S3200000, .i32⟩
  | 41 => ⟨S3200000, .i32⟩
  | 42 => ⟨S3200000, .i32⟩
  | 43 => ⟨S3200000x1, .i32⟩
  | 44 => ⟨S3200000, .f32⟩
  | 45 => ⟨S_, .i32⟩
  | 46 => ⟨S3200000, .i32⟩
  | 47 => ⟨S3200000, .i1⟩
  | 48 => ⟨S_, .i32⟩
  | 49 => ⟨S3200000, .i32⟩
  | 50 => ⟨S3200000, .i32⟩
  | 51 => ⟨S3200000, .i32⟩
  | 52 => ⟨S3200000x1, .i32⟩
  | 53 => ⟨S3200000, .f32⟩
  | 54 => ⟨S3200000, .f32⟩
  | 55 => ⟨S_, .i32⟩
  | 56 => ⟨S3200000, .i32⟩
  | 57 => ⟨S3200000, .i1⟩
  | 58 => ⟨S_, .i32⟩
  | 59 => ⟨S3200000, .i32⟩
  | 60 => ⟨S3200000, .i32⟩
  | 61 => ⟨S3200000, .i32⟩
  | 62 => ⟨S3200000x1, .i32⟩
  | 63 => ⟨S3200000x16, .f32⟩
  | 64 => ⟨S3200000x1, .f32⟩
  | 65 => ⟨S3200000x16, .f32⟩
  | 66 => ⟨S3200000x16, .f32⟩
  | 67 => ⟨S_, .f32⟩
  | 68 => ⟨S100000x16, .f32⟩
  | 69 => ⟨S3200000x1, .i32⟩
  | 70 => ⟨S100000x16, .f32⟩
  | 71 => ⟨S1x16, .f32⟩
  | 72 => ⟨S100000x16, .f32⟩
  | 73 => ⟨S100000x32, .f32⟩
  | 74 => ⟨S100000x32, .f32⟩
  | 75 => ⟨S_, .i32⟩
  | 76 => ⟨S3200000, .i32⟩
  | 77 => ⟨S3200000, .i1⟩
  | 78 => ⟨S_, .i32⟩
  | 79 => ⟨S3200000, .i32⟩
  | 80 => ⟨S3200000, .i32⟩
  | 81 => ⟨S3200000, .i32⟩
  | 82 => ⟨S3200000x1, .i32⟩
  | 83 => ⟨S3200000, .f32⟩
  | 84 => ⟨S_, .i32⟩
  | 85 => ⟨S3200000, .i32⟩
  | 86 => ⟨S3200000, .i1⟩
  | 87 => ⟨S_, .i32⟩
  | 88 => ⟨S3200000, .i32⟩
  | 89 => ⟨S3200000, .i32⟩
  | 90 => ⟨S3200000, .i32⟩
  | 91 => ⟨S3200000x1, .i32⟩
  | 92 => ⟨S3200000, .f32⟩
  | 93 => ⟨S3200000, .f32⟩
  | 94 => ⟨S_, .i32⟩
  | 95 => ⟨S3200000, .i32⟩
  | 96 => ⟨S3200000, .i1⟩
  | 97 => ⟨S_, .i32⟩
  | 98 => ⟨S3200000, .i32⟩
  | 99 => ⟨S3200000, .i32⟩
  | 100 => ⟨S3200000, .i32⟩
  | 101 => ⟨S3200000x1, .i32⟩
  | 102 => ⟨S3200000x32, .f32⟩
  | 103 => ⟨S3200000x1, .f32⟩
  | 104 => ⟨S3200000x32, .f32⟩
  | 105 => ⟨S3200000x32, .f32⟩
  | 106 => ⟨S_, .f32⟩
  | 107 => ⟨S100000x32, .f32⟩
  | 108 => ⟨S3200000x1, .i32⟩
  | 109 => ⟨S100000x32, .f32⟩
  | 110 => ⟨S1x32, .f32⟩
  | 111 => ⟨S100000x32, .f32⟩
  | 112 => ⟨S100000x64, .f32⟩
  | 113 => ⟨S100000x64, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S3200000, .f32⟩
  | 123 => ⟨S_, .i32⟩
  | 124 => ⟨S3200000, .i32⟩
  | 125 => ⟨S3200000, .i1⟩
  | 126 => ⟨S_, .i32⟩
  | 127 => ⟨S3200000, .i32⟩
  | _ => ⟨S100000x64, .f32⟩

abbrev hbmTy0_1 (i : Nat) : BufTy := match i % 128 with
  | 0 => ⟨S3200000, .i32⟩
  | 1 => ⟨S3200000, .i32⟩
  | 2 => ⟨S3200000x1, .i32⟩
  | 3 => ⟨S3200000, .f32⟩
  | 4 => ⟨S3200000, .f32⟩
  | 5 => ⟨S_, .i32⟩
  | 6 => ⟨S3200000, .i32⟩
  | 7 => ⟨S3200000, .i1⟩
  | 8 => ⟨S_, .i32⟩
  | 9 => ⟨S3200000, .i32⟩
  | 10 => ⟨S3200000, .i32⟩
  | 11 => ⟨S3200000, .i32⟩
  | 12 => ⟨S3200000x1, .i32⟩
  | 13 => ⟨S3200000x64, .f32⟩
  | 14 => ⟨S3200000x1, .f32⟩
  | 15 => ⟨S3200000x64, .f32⟩
  | 16 => ⟨S3200000x64, .f32⟩
  | 17 => ⟨S_, .f32⟩
  | 18 => ⟨S100000x64, .f32⟩
  | 19 => ⟨S3200000x1, .i32⟩
  | 20 => ⟨S100000x64, .f32⟩
  | 21 => ⟨S1x64, .f32⟩
  | 22 => ⟨S100000x64, .f32⟩
  | 23 => ⟨S_, .f32⟩
  | 24 => ⟨S64x64, .f32⟩
  | 25 => ⟨S100000x1, .i32⟩
  | 26 => ⟨S64x64, .f32⟩
  | 27 => ⟨S_, .f32⟩
  | 28 => ⟨S100000, .f32⟩
  | 29 => ⟨S_, .f32⟩
  | 30 => ⟨S64, .f32⟩
  | 31 => ⟨S100000x1, .i32⟩
  | 32 => ⟨S64, .f32⟩
  | 33 => ⟨S_, .f32⟩
  | 34 => ⟨S64, .f32⟩
  | 35 => ⟨S64, .f32⟩
  | 36 => ⟨S64x1, .f32⟩
  | 37 => ⟨S64x64, .f32⟩
  | 38 => ⟨S64x64, .f32⟩
  | 39 => ⟨S100000x16, .f32⟩
  | 40 => ⟨S100000x16, .f32⟩
  | 41 => ⟨S_, .i32⟩
  | 42 => ⟨S3200000, .i32⟩
  | 43 => ⟨S3200000, .i1⟩
  | 44 => ⟨S_, .i32⟩
  | 45 => ⟨S3200000, .i32⟩
  | 46 => ⟨S3200000, .i32⟩
  | 47 => ⟨S3200000, .i32⟩
  | 48 => ⟨S3200000x1, .i32⟩
  | 49 => ⟨S3200000, .f32⟩
  | 50 => ⟨S_, .i32⟩
  | 51 => ⟨S3200000, .i32⟩
  | 52 => ⟨S3200000, .i1⟩
  | 53 => ⟨S_, .i32⟩
  | 54 => ⟨S3200000, .i32⟩
  | 55 => ⟨S3200000, .i32⟩
  | 56 => ⟨S3200000, .i32⟩
  | 57 => ⟨S3200000x1, .i32⟩
  | 58 => ⟨S3200000, .f32⟩
  | 59 => ⟨S3200000, .f32⟩
  | 60 => ⟨S_, .i32⟩
  | 61 => ⟨S3200000, .i32⟩
  | 62 => ⟨S3200000, .i1⟩
  | 63 => ⟨S_, .i32⟩
  | 64 => ⟨S3200000, .i32⟩
  | 65 => ⟨S3200000, .i32⟩
  | 66 => ⟨S3200000, .i32⟩
  | 67 => ⟨S3200000x1, .i32⟩
  | 68 => ⟨S3200000x16, .f32⟩
  | 69 => ⟨S3200000x1, .f32⟩
  | 70 => ⟨S3200000x16, .f32⟩
  | 71 => ⟨S3200000x16, .f32⟩
  | 72 => ⟨S_, .f32⟩
  | 73 => ⟨S100000x16, .f32⟩
  | 74 => ⟨S3200000x1, .i32⟩
  | 75 => ⟨S100000x16, .f32⟩
  | 76 => ⟨S1x16, .f32⟩
  | 77 => ⟨S100000x16, .f32⟩
  | 78 => ⟨S100000x32, .f32⟩
  | 79 => ⟨S100000x32, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S3200000x1, .f32⟩
  | 109 => ⟨S3200000x32, .f32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S1x32, .f32⟩
  | 116 => ⟨S100000x32, .f32⟩
  | 117 => ⟨S100000x64, .f32⟩
  | 118 => ⟨S100000x64, .f32⟩
  | 119 => ⟨S_, .i32⟩
  | 120 => ⟨S3200000, .i32⟩
  | 121 => ⟨S3200000, .i1⟩
  | 122 => ⟨S_, .i32⟩
  | 123 => ⟨S3200000, .i32⟩
  | 124 => ⟨S3200000, .i32⟩
  | 125 => ⟨S3200000, .i32⟩
  | 126 => ⟨S3200000x1, .i32⟩
  | 127 => ⟨S3200000, .f32⟩
  | _ => ⟨S100000x64, .f32⟩

abbrev hbmTy0_2 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000, .f32⟩
  | 9 => ⟨S3200000, .f32⟩
  | 10 => ⟨S_, .i32⟩
  | 11 => ⟨S3200000, .i32⟩
  | 12 => ⟨S3200000, .i1⟩
  | 13 => ⟨S_, .i32⟩
  | 14 => ⟨S3200000, .i32⟩
  | 15 => ⟨S3200000, .i32⟩
  | 16 => ⟨S3200000, .i32⟩
  | 17 => ⟨S3200000x1, .i32⟩
  | 18 => ⟨S3200000x64, .f32⟩
  | 19 => ⟨S3200000x1, .f32⟩
  | 20 => ⟨S3200000x64, .f32⟩
  | 21 => ⟨S3200000x64, .f32⟩
  | 22 => ⟨S_, .f32⟩
  | 23 => ⟨S100000x64, .f32⟩
  | 24 => ⟨S3200000x1, .i32⟩
  | 25 => ⟨S100000x64, .f32⟩
  | 26 => ⟨S1x64, .f32⟩
  | 27 => ⟨S100000x64, .f32⟩
  | 28 => ⟨S_, .f32⟩
  | 29 => ⟨S64x64, .f32⟩
  | 30 => ⟨S100000x1, .i32⟩
  | 31 => ⟨S64x64, .f32⟩
  | 32 => ⟨S_, .f32⟩
  | 33 => ⟨S100000, .f32⟩
  | 34 => ⟨S_, .f32⟩
  | 35 => ⟨S64, .f32⟩
  | 36 => ⟨S100000x1, .i32⟩
  | 37 => ⟨S64, .f32⟩
  | 38 => ⟨S_, .f32⟩
  | 39 => ⟨S64, .f32⟩
  | 40 => ⟨S64, .f32⟩
  | 41 => ⟨S64x1, .f32⟩
  | 42 => ⟨S64x64, .f32⟩
  | 43 => ⟨S64x64, .f32⟩
  | 44 => ⟨S_, .f32⟩
  | 45 => ⟨S64x64, .f32⟩
  | 46 => ⟨S64x64, .f32⟩
  | 47 => ⟨S64x64, .f32⟩
  | 48 => ⟨S64x64, .f32⟩
  | 49 => ⟨S64x64, .f32⟩
  | 50 => ⟨S1x160000, .f32⟩
  | 51 => ⟨S64x160000, .f32⟩
  | 52 => ⟨S64x400x400, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x16, .f32⟩
  | .local _ .vmem, ⟨3, _⟩ => ⟨S5000x1, .f32⟩
  | .local _ .vmem, ⟨4, _⟩ => ⟨S5000x1, .f32⟩
  | .local _ .vmem, ⟨5, _⟩ => ⟨S5000x16, .f32⟩
  | .local _ .vmem, ⟨6, _⟩ => ⟨S5000x16, .f32⟩
  | .local _ .vmem, ⟨7, _⟩ => ⟨S5000x16, .f32⟩
  | .local _ .vmem, ⟨8, _⟩ => ⟨S5000x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x32, .f32⟩
  | .local _ .vmem, ⟨19, _⟩ => ⟨S5000x1, .f32⟩
  | .local _ .vmem, ⟨20, _⟩ => ⟨S5000x1, .f32⟩
  | .local _ .vmem, ⟨21, _⟩ => ⟨S5000x32, .f32⟩
  | .local _ .vmem, ⟨22, _⟩ => ⟨S5000x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S1x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x32, .f32⟩
  | .local _ .vmem, ⟨34, _⟩ => ⟨S32x64, .f32⟩
  | .local _ .vmem, ⟨35, _⟩ => ⟨S5000x1, .f32⟩
  | .local _ .vmem, ⟨36, _⟩ => ⟨S5000x1, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x16, .f32⟩
  | .local _ .vmem, ⟨51, _⟩ => ⟨S5000x1, .f32⟩
  | .local _ .vmem, ⟨52, _⟩ => ⟨S5000x1, .f32⟩
  | .local _ .vmem, ⟨53, _⟩ => ⟨S5000x16, .f32⟩
  | .local _ .vmem, ⟨54, _⟩ => ⟨S5000x16, .f32⟩
  | .local _ .vmem, ⟨55, _⟩ => ⟨S5000x16, .f32⟩
  | .local _ .vmem, ⟨56, _⟩ => ⟨S5000x16, .f32⟩
  | .local _ .vmem, ⟨57, _⟩ => ⟨S5000x16, .f32⟩
  | .local _ .vmem, ⟨58, _⟩ => ⟨S5000x16, .f32⟩
  | .local _ .vmem, ⟨59, _⟩ => ⟨S5000x16, .f32⟩
  | .local _ .vmem, ⟨60, _⟩ => ⟨S5000x16, .f32⟩
  | .local _ .vmem, ⟨61, _⟩ => ⟨S1x16, .f32⟩
  | .local _ .vmem, ⟨62, _⟩ => ⟨S5000x16, .f32⟩
  | .local _ .vmem, ⟨63, _⟩ => ⟨S5000x16, .f32⟩
  | .local _ .vmem, ⟨64, _⟩ => ⟨S5000x16, .f32⟩
  | .local _ .vmem, ⟨65, _⟩ => ⟨S5000x16, .f32⟩
  | .local _ .vmem, ⟨66, _⟩ => ⟨S16x32, .f32⟩
  | .local _ .vmem, ⟨67, _⟩ => ⟨S5000x1, .f32⟩
  | .local _ .vmem, ⟨68, _⟩ => ⟨S5000x1, .f32⟩
  | .local _ .vmem, ⟨69, _⟩ => ⟨S5000x32, .f32⟩
  | .local _ .vmem, ⟨70, _⟩ => ⟨S5000x32, .f32⟩
  | .local _ .vmem, ⟨71, _⟩ => ⟨S5000x32, .f32⟩
  | .local _ .vmem, ⟨72, _⟩ => ⟨S5000x32, .f32⟩
  | .local _ .vmem, ⟨73, _⟩ => ⟨S5000x32, .f32⟩
  | .local _ .vmem, ⟨74, _⟩ => ⟨S5000x32, .f32⟩
  | .local _ .vmem, ⟨75, _⟩ => ⟨S5000x32, .f32⟩
  | .local _ .vmem, ⟨76, _⟩ => ⟨S5000x32, .f32⟩
  | .local _ .vmem, ⟨77, _⟩ => ⟨S1x32, .f32⟩
  | .local _ .vmem, ⟨78, _⟩ => ⟨S5000x32, .f32⟩
  | .local _ .vmem, ⟨79, _⟩ => ⟨S5000x32, .f32⟩
  | .local _ .vmem, ⟨80, _⟩ => ⟨S5000x32, .f32⟩
  | .local _ .vmem, ⟨81, _⟩ => ⟨S5000x32, .f32⟩
  | .local _ .vmem, ⟨82, _⟩ => ⟨S32x64, .f32⟩
  | .local _ .vmem, ⟨83, _⟩ => ⟨S5000x1, .f32⟩
  | .local _ .vmem, ⟨84, _⟩ => ⟨S5000x1, .f32⟩
  | .local _ .vmem, ⟨85, _⟩ => ⟨S5000x64, .f32⟩
  | .local _ .vmem, ⟨86, _⟩ => ⟨S5000x64, .f32⟩
  | .local _ .vmem, ⟨87, _⟩ => ⟨S5000x64, .f32⟩
  | .local _ .vmem, ⟨88, _⟩ => ⟨S5000x64, .f32⟩
  | .local _ .vmem, ⟨89, _⟩ => ⟨S5000x64, .f32⟩
  | .local _ .vmem, ⟨90, _⟩ => ⟨S5000x64, .f32⟩
  | .local _ .vmem, ⟨91, _⟩ => ⟨S5000x64, .f32⟩
  | .local _ .vmem, ⟨92, _⟩ => ⟨S5000x64, .f32⟩
  | .local _ .vmem, ⟨93, _⟩ => ⟨S1x64, .f32⟩
  | .local _ .vmem, ⟨94, _⟩ => ⟨S5000x64, .f32⟩
  | .local _ .vmem, ⟨95, _⟩ => ⟨S5000x64, .f32⟩
  | .local _ .vmem, ⟨96, _⟩ => ⟨S64x64, .f32⟩
  | .local _ .vmem, ⟨97, _⟩ => ⟨S64x16000, .f32⟩
  | .local _ .vmem, ⟨98, _⟩ => ⟨S64x16000, .f32⟩
  | .local _ .vmem, ⟨99, _⟩ => ⟨S1x16000, .f32⟩
  | .local _ .vmem, ⟨100, _⟩ => ⟨S1x16000, .f32⟩
  | .local _ .vmem, ⟨101, _⟩ => ⟨S64x16000, .f32⟩
  | .local _ .vmem, ⟨102, _⟩ => ⟨S64x16000, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | _, _ => false

abbrev semScoped : Fin 0 → Bool
  | ⟨_, h⟩ => absurd h (Nat.not_lt_zero _)

abbrev dmaSemScoped : Fin 103 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | _ => false

abbrev sig : RefSig :=
  ofTc nBuf bufTy 0 103 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13_0 : Ref sig .tc := ⟨.hbm, 34, rfl⟩
abbrev main_v13_1 : Ref sig .tc := ⟨.hbm, 35, rfl⟩
abbrev main_c : Ref sig .tc := ⟨.hbm, 36, rfl⟩
abbrev main_v14 : Ref sig .tc := ⟨.hbm, 37, rfl⟩
abbrev main_v15 : Ref sig .tc := ⟨.hbm, 38, rfl⟩
abbrev main_c_2 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_c_3 : Ref sig .tc := ⟨.hbm, 45, rfl⟩
abbrev main_v21 : Ref sig .tc := ⟨.hbm, 46, rfl⟩
abbrev main_v22 : Ref sig .tc := ⟨.hbm, 47, rfl⟩
abbrev main_c_4 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_5 : Ref sig .tc := ⟨.hbm, 55, rfl⟩
abbrev main_v29 : Ref sig .tc := ⟨.hbm, 56, rfl⟩
abbrev main_v30 : Ref sig .tc := ⟨.hbm, 57, rfl⟩
abbrev main_c_6 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44_0 : Ref sig .tc := ⟨.hbm, 73, rfl⟩
abbrev main_v44_1 : Ref sig .tc := ⟨.hbm, 74, rfl⟩
abbrev main_c_8 : Ref sig .tc := ⟨.hbm, 75, rfl⟩
abbrev main_v45 : Ref sig .tc := ⟨.hbm, 76, rfl⟩
abbrev main_v46 : Ref sig .tc := ⟨.hbm, 77, rfl⟩
abbrev main_c_9 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_c_12 : Ref sig .tc := ⟨.hbm, 94, rfl⟩
abbrev main_v60 : Ref sig .tc := ⟨.hbm, 95, rfl⟩
abbrev main_v61 : Ref sig .tc := ⟨.hbm, 96, rfl⟩
abbrev main_c_13 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_cst_14 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75_0 : Ref sig .tc := ⟨.hbm, 112, rfl⟩
abbrev main_v75_1 : Ref sig .tc := ⟨.hbm, 113, rfl⟩
abbrev main_c_15 : Ref sig .tc := ⟨.hbm, 114, rfl⟩
abbrev main_v76 : Ref sig .tc := ⟨.hbm, 115, rfl⟩
abbrev main_v77 : Ref sig .tc := ⟨.hbm, 116, rfl⟩
abbrev main_c_16 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_c_17 : Ref sig .tc := ⟨.hbm, 123, rfl⟩
abbrev main_v83 : Ref sig .tc := ⟨.hbm, 124, rfl⟩
abbrev main_v84 : Ref sig .tc := ⟨.hbm, 125, rfl⟩
abbrev main_c_18 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_c_20 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_cst_21 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_cst_22 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_cst_23 : Ref sig .tc := ⟨.hbm, 155, rfl⟩
abbrev main_v109 : Ref sig .tc := ⟨.hbm, 156, rfl⟩
abbrev main_cst_24 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118_0 : Ref sig .tc := ⟨.hbm, 167, rfl⟩
abbrev main_v118_1 : Ref sig .tc := ⟨.hbm, 168, rfl⟩
abbrev main_c_26 : Ref sig .tc := ⟨.hbm, 169, rfl⟩
abbrev main_v119 : Ref sig .tc := ⟨.hbm, 170, rfl⟩
abbrev main_v120 : Ref sig .tc := ⟨.hbm, 171, rfl⟩
abbrev main_c_27 : Ref sig .tc := ⟨.hbm, 172, rfl⟩
abbrev main_v121 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_c_28 : Ref sig .tc := ⟨.hbm, 178, rfl⟩
abbrev main_v126 : Ref sig .tc := ⟨.hbm, 179, rfl⟩
abbrev main_v127 : Ref sig .tc := ⟨.hbm, 180, rfl⟩
abbrev main_c_29 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_c_30 : Ref sig .tc := ⟨.hbm, 188, rfl⟩
abbrev main_v134 : Ref sig .tc := ⟨.hbm, 189, rfl⟩
abbrev main_v135 : Ref sig .tc := ⟨.hbm, 190, rfl⟩
abbrev main_c_31 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_v142 : Ref sig .tc := ⟨.hbm, 198, rfl⟩
abbrev main_v143 : Ref sig .tc := ⟨.hbm, 199, rfl⟩
abbrev main_cst_32 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_v147 : Ref sig .tc := ⟨.hbm, 204, rfl⟩
abbrev main_v148 : Ref sig .tc := ⟨.hbm, 205, rfl⟩
abbrev main_v149_0 : Ref sig .tc := ⟨.hbm, 206, rfl⟩
abbrev main_v149_1 : Ref sig .tc := ⟨.hbm, 207, rfl⟩
abbrev main_c_33 : Ref sig .tc := ⟨.hbm, 208, rfl⟩
abbrev main_v150 : Ref sig .tc := ⟨.hbm, 209, rfl⟩
abbrev main_v151 : Ref sig .tc := ⟨.hbm, 210, rfl⟩
abbrev main_c_34 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_c_35 : Ref sig .tc := ⟨.hbm, 217, rfl⟩
abbrev main_v157 : Ref sig .tc := ⟨.hbm, 218, rfl⟩
abbrev main_v158 : Ref sig .tc := ⟨.hbm, 219, rfl⟩
abbrev main_c_36 : Ref sig .tc := ⟨.hbm, 220, rfl⟩
abbrev main_v159 : Ref sig .tc := ⟨.hbm, 221, rfl⟩
abbrev main_v160 : Ref sig .tc := ⟨.hbm, 222, rfl⟩
abbrev main_v161 : Ref sig .tc := ⟨.hbm, 223, rfl⟩
abbrev main_v162 : Ref sig .tc := ⟨.hbm, 224, rfl⟩
abbrev main_v163 : Ref sig .tc := ⟨.hbm, 225, rfl⟩
abbrev main_v164 : Ref sig .tc := ⟨.hbm, 226, rfl⟩
abbrev main_c_37 : Ref sig .tc := ⟨.hbm, 227, rfl⟩
abbrev main_v165 : Ref sig .tc := ⟨.hbm, 228, rfl⟩
abbrev main_v166 : Ref sig .tc := ⟨.hbm, 229, rfl⟩
abbrev main_c_38 : Ref sig .tc := ⟨.hbm, 230, rfl⟩
abbrev main_v167 : Ref sig .tc := ⟨.hbm, 231, rfl⟩
abbrev main_v168 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_39 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180_0 : Ref sig .tc := ⟨.hbm, 245, rfl⟩
abbrev main_v180_1 : Ref sig .tc := ⟨.hbm, 246, rfl⟩
abbrev main_c_40 : Ref sig .tc := ⟨.hbm, 247, rfl⟩
abbrev main_v181 : Ref sig .tc := ⟨.hbm, 248, rfl⟩
abbrev main_v182 : Ref sig .tc := ⟨.hbm, 249, rfl⟩
abbrev main_c_41 : Ref sig .tc := ⟨.hbm, 250, rfl⟩
abbrev main_v183 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_v187 : Ref sig .tc := ⟨.hbm, 255, rfl⟩
abbrev main_c_42 : Ref sig .tc := ⟨.hbm, 256, rfl⟩
abbrev main_v188 : Ref sig .tc := ⟨.hbm, 257, rfl⟩
abbrev main_v189 : Ref sig .tc := ⟨.hbm, 258, rfl⟩
abbrev main_c_43 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_c_44 : Ref sig .tc := ⟨.hbm, 266, rfl⟩
abbrev main_v196 : Ref sig .tc := ⟨.hbm, 267, rfl⟩
abbrev main_v197 : Ref sig .tc := ⟨.hbm, 268, rfl⟩
abbrev main_c_45 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_v202 : Ref sig .tc := ⟨.hbm, 274, rfl⟩
abbrev main_v203 : Ref sig .tc := ⟨.hbm, 275, rfl⟩
abbrev main_v204 : Ref sig .tc := ⟨.hbm, 276, rfl⟩
abbrev main_v205 : Ref sig .tc := ⟨.hbm, 277, rfl⟩
abbrev main_cst_46 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_cst_47 : Ref sig .tc := ⟨.hbm, 284, rfl⟩
abbrev main_v211 : Ref sig .tc := ⟨.hbm, 285, rfl⟩
abbrev main_v212 : Ref sig .tc := ⟨.hbm, 286, rfl⟩
abbrev main_v213 : Ref sig .tc := ⟨.hbm, 287, rfl⟩
abbrev main_cst_48 : Ref sig .tc := ⟨.hbm, 288, rfl⟩
abbrev main_v214 : Ref sig .tc := ⟨.hbm, 289, rfl⟩
abbrev main_cst_49 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_cst_50 : Ref sig .tc := ⟨.hbm, 294, rfl⟩
abbrev main_v218 : Ref sig .tc := ⟨.hbm, 295, rfl⟩
abbrev main_v219 : Ref sig .tc := ⟨.hbm, 296, rfl⟩
abbrev main_v220 : Ref sig .tc := ⟨.hbm, 297, rfl⟩
abbrev main_v221 : Ref sig .tc := ⟨.hbm, 298, rfl⟩
abbrev main_v222 : Ref sig .tc := ⟨.hbm, 299, rfl⟩
abbrev main_cst_51 : Ref sig .tc := ⟨.hbm, 300, rfl⟩
abbrev main_v223 : Ref sig .tc := ⟨.hbm, 301, rfl⟩
abbrev main_v224 : Ref sig .tc := ⟨.hbm, 302, rfl⟩
abbrev main_v225 : Ref sig .tc := ⟨.hbm, 303, rfl⟩
abbrev main_v226 : Ref sig .tc := ⟨.hbm, 304, rfl⟩
abbrev main_v227 : Ref sig .tc := ⟨.hbm, 305, rfl⟩
abbrev main_v228 : Ref sig .tc := ⟨.hbm, 306, rfl⟩
abbrev main_v229 : Ref sig .tc := ⟨.hbm, 307, rfl⟩
abbrev main_v230 : Ref sig .tc := ⟨.hbm, 308, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc5_stg0_0 : Ref sig .tc := ⟨.vmem, 41, rfl⟩
abbrev cc5_stg0_1 : Ref sig .tc := ⟨.vmem, 42, rfl⟩
abbrev cc5_stg1_0 : Ref sig .tc := ⟨.vmem, 43, rfl⟩
abbrev cc5_stg1_1 : Ref sig .tc := ⟨.vmem, 44, rfl⟩
abbrev cc5_stg2_0 : Ref sig .tc := ⟨.vmem, 45, rfl⟩
abbrev cc5_stg3_0 : Ref sig .tc := ⟨.vmem, 46, rfl⟩
abbrev cc5_stg3_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc6_stg4_0 : Ref sig .tc := ⟨.vmem, 55, rfl⟩
abbrev cc6_stg4_1 : Ref sig .tc := ⟨.vmem, 56, rfl⟩
abbrev cc7_stg0_0 : Ref sig .tc := ⟨.vmem, 57, rfl⟩
abbrev cc7_stg0_1 : Ref sig .tc := ⟨.vmem, 58, rfl⟩
abbrev cc7_stg1_0 : Ref sig .tc := ⟨.vmem, 59, rfl⟩
abbrev cc7_stg1_1 : Ref sig .tc := ⟨.vmem, 60, rfl⟩
abbrev cc7_stg2_0 : Ref sig .tc := ⟨.vmem, 61, rfl⟩
abbrev cc7_stg3_0 : Ref sig .tc := ⟨.vmem, 62, rfl⟩
abbrev cc7_stg3_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg2_1 : Ref sig .tc := ⟨.vmem, 68, rfl⟩
abbrev cc8_stg3_0 : Ref sig .tc := ⟨.vmem, 69, rfl⟩
abbrev cc8_stg3_1 : Ref sig .tc := ⟨.vmem, 70, rfl⟩
abbrev cc8_stg4_0 : Ref sig .tc := ⟨.vmem, 71, rfl⟩
abbrev cc8_stg4_1 : Ref sig .tc := ⟨.vmem, 72, rfl⟩
abbrev cc9_stg0_0 : Ref sig .tc := ⟨.vmem, 73, rfl⟩
abbrev cc9_stg0_1 : Ref sig .tc := ⟨.vmem, 74, rfl⟩
abbrev cc9_stg1_0 : Ref sig .tc := ⟨.vmem, 75, rfl⟩
abbrev cc9_stg1_1 : Ref sig .tc := ⟨.vmem, 76, rfl⟩
abbrev cc9_stg2_0 : Ref sig .tc := ⟨.vmem, 77, rfl⟩
abbrev cc9_stg3_0 : Ref sig .tc := ⟨.vmem, 78, rfl⟩
abbrev cc9_stg3_1 : Ref sig .tc := ⟨.vmem, 79, rfl⟩
abbrev cc10_stg0_0 : Ref sig .tc := ⟨.vmem, 80, rfl⟩
abbrev cc10_stg0_1 : Ref sig .tc := ⟨.vmem, 81, rfl⟩
abbrev cc10_stg1_0 : Ref sig .tc := ⟨.vmem, 82, rfl⟩
abbrev cc10_stg2_0 : Ref sig .tc := ⟨.vmem, 83, rfl⟩
abbrev cc10_stg2_1 : Ref sig .tc := ⟨.vmem, 84, rfl⟩
abbrev cc10_stg3_0 : Ref sig .tc := ⟨.vmem, 85, rfl⟩
abbrev cc10_stg3_1 : Ref sig .tc := ⟨.vmem, 86, rfl⟩
abbrev cc10_stg4_0 : Ref sig .tc := ⟨.vmem, 87, rfl⟩
abbrev cc10_stg4_1 : Ref sig .tc := ⟨.vmem, 88, rfl⟩
abbrev cc11_stg0_0 : Ref sig .tc := ⟨.vmem, 89, rfl⟩
abbrev cc11_stg0_1 : Ref sig .tc := ⟨.vmem, 90, rfl⟩
abbrev cc11_stg1_0 : Ref sig .tc := ⟨.vmem, 91, rfl⟩
abbrev cc11_stg1_1 : Ref sig .tc := ⟨.vmem, 92, rfl⟩
abbrev cc11_stg2_0 : Ref sig .tc := ⟨.vmem, 93, rfl⟩
abbrev cc11_stg3_0 : Ref sig .tc := ⟨.vmem, 94, rfl⟩
abbrev cc11_stg3_1 : Ref sig .tc := ⟨.vmem, 95, rfl⟩
abbrev cc12_stg0_0 : Ref sig .tc := ⟨.vmem, 96, rfl⟩
abbrev cc12_stg1_0 : Ref sig .tc := ⟨.vmem, 97, rfl⟩
abbrev cc12_stg1_1 : Ref sig .tc := ⟨.vmem, 98, rfl⟩
abbrev cc12_stg2_0 : Ref sig .tc := ⟨.vmem, 99, rfl⟩
abbrev cc12_stg2_1 : Ref sig .tc := ⟨.vmem, 100, rfl⟩
abbrev cc12_stg3_0 : Ref sig .tc := ⟨.vmem, 101, rfl⟩
abbrev cc12_stg3_1 : Ref sig .tc := ⟨.vmem, 102, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc4_sem4_0 : DmaSem sig := 39
abbrev cc4_sem4_1 : DmaSem sig := 40
abbrev cc5_sem0_0 : DmaSem sig := 41
abbrev cc5_sem0_1 : DmaSem sig := 42
abbrev cc5_sem1_0 : DmaSem sig := 43
abbrev cc5_sem1_1 : DmaSem sig := 44
abbrev cc5_sem2_0 : DmaSem sig := 45
abbrev cc5_sem3_0 : DmaSem sig := 46
abbrev cc5_sem3_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc6_sem4_0 : DmaSem sig := 55
abbrev cc6_sem4_1 : DmaSem sig := 56
abbrev cc7_sem0_0 : DmaSem sig := 57
abbrev cc7_sem0_1 : DmaSem sig := 58
abbrev cc7_sem1_0 : DmaSem sig := 59
abbrev cc7_sem1_1 : DmaSem sig := 60
abbrev cc7_sem2_0 : DmaSem sig := 61
abbrev cc7_sem3_0 : DmaSem sig := 62
abbrev cc7_sem3_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem2_1 : DmaSem sig := 68
abbrev cc8_sem3_0 : DmaSem sig := 69
abbrev cc8_sem3_1 : DmaSem sig := 70
abbrev cc8_sem4_0 : DmaSem sig := 71
abbrev cc8_sem4_1 : DmaSem sig := 72
abbrev cc9_sem0_0 : DmaSem sig := 73
abbrev cc9_sem0_1 : DmaSem sig := 74
abbrev cc9_sem1_0 : DmaSem sig := 75
abbrev cc9_sem1_1 : DmaSem sig := 76
abbrev cc9_sem2_0 : DmaSem sig := 77
abbrev cc9_sem3_0 : DmaSem sig := 78
abbrev cc9_sem3_1 : DmaSem sig := 79
abbrev cc10_sem0_0 : DmaSem sig := 80
abbrev cc10_sem0_1 : DmaSem sig := 81
abbrev cc10_sem1_0 : DmaSem sig := 82
abbrev cc10_sem2_0 : DmaSem sig := 83
abbrev cc10_sem2_1 : DmaSem sig := 84
abbrev cc10_sem3_0 : DmaSem sig := 85
abbrev cc10_sem3_1 : DmaSem sig := 86
abbrev cc10_sem4_0 : DmaSem sig := 87
abbrev cc10_sem4_1 : DmaSem sig := 88
abbrev cc11_sem0_0 : DmaSem sig := 89
abbrev cc11_sem0_1 : DmaSem sig := 90
abbrev cc11_sem1_0 : DmaSem sig := 91
abbrev cc11_sem1_1 : DmaSem sig := 92
abbrev cc11_sem2_0 : DmaSem sig := 93
abbrev cc11_sem3_0 : DmaSem sig := 94
abbrev cc11_sem3_1 : DmaSem sig := 95
abbrev cc12_sem0_0 : DmaSem sig := 96
abbrev cc12_sem1_0 : DmaSem sig := 97
abbrev cc12_sem1_1 : DmaSem sig := 98
abbrev cc12_sem2_0 : DmaSem sig := 99
abbrev cc12_sem2_1 : DmaSem sig := 100
abbrev cc12_sem3_0 : DmaSem sig := 101
abbrev cc12_sem3_1 : DmaSem sig := 102

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S5000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S5000x16 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x16 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x16 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S1x16 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x16 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S16x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S5000x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S5000x32 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S5000x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S5000x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 2 → Memref sig .tc .vmem S5000x64 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S5000x64 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x64 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

def cc12_transform_3 (i : grid12.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage12_0 : Fin 1 → Memref sig .tc .vmem S64x64 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 2 → Memref sig .tc .vmem S64x16000 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S1x16000 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S64x16000 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x16_S64x16_0_0 : ∀ a, (![0, 0] : Fin 2 → Nat) a + S64x16.size a ≤ S64x16.size a
  h_S64x16 : 0 < S64x16.numel
  inb_S5000x16_S5000x16_0_0 : ∀ a, (![0, 0] : Fin 2 → Nat) a + S5000x16.size a ≤ S5000x16.size a
  h_S5000x16 : 0 < S5000x16.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x16 : S5000x1.Broadcasts S5000x16
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x32_S16x32_0_0 : ∀ a, (![0, 0] : Fin 2 → Nat) a + S16x32.size a ≤ S16x32.size a
  h_S16x32 : 0 < S16x32.numel
  inb_S5000x32_S5000x32_0_0 : ∀ a, (![0, 0] : Fin 2 → Nat) a + S5000x32.size a ≤ S5000x32.size a
  h_S5000x32 : 0 < S5000x32.numel
  broadcasts_S5000x1_S5000x32 : S5000x1.Broadcasts S5000x32
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x64_S32x64_0_0 : ∀ a, (![0, 0] : Fin 2 → Nat) a + S32x64.size a ≤ S32x64.size a
  h_S32x64 : 0 < S32x64.numel
  broadcasts_S5000x1_S5000x64 : S5000x1.Broadcasts S5000x64
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  shapeCasts_S160000_S1x160000 : S160000.ShapeCasts S1x160000
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x16000_S64x16000_0_0 : ∀ a, (![0, 0] : Fin 2 → Nat) a + S64x16000.size a ≤ S64x16000.size a
  h_S64x16000 : 0 < S64x16000.numel
  inb_S1x16000_S1x16000_0_0 : ∀ a, (![0, 0] : Fin 2 → Nat) a + S1x16000.size a ≤ S1x16000.size a
  h_S1x16000 : 0 < S1x16000.numel
  shapeCasts_S1x16000_S1x16000 : S1x16000.ShapeCasts S1x16000
  broadcasts_S1x16000_S64x16000 : S1x16000.Broadcasts S64x16000
  shapeCasts_S64x160000_S64x400x400 : S64x160000.ShapeCasts S64x400x400
  scatter_S100000_S3200000x1_S3200000_n_0_0_1_wf : ScatterDims.WF S100000 S3200000x1 S3200000 [] [0] [0] 1
  dot_S5000x64_S64x16_S5000x16_1_0_0_1_n_n_wf : DotDims.WF S5000x64 S64x16 S5000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S5000x16_S16x32_S5000x32_1_0_0_1_n_n_wf : DotDims.WF S5000x16 S16x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x32_S32x64_S5000x64_1_0_0_1_n_n_wf : DotDims.WF S5000x32 S32x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x16000_S64x16000_1_0_0_1_n_n_wf : DotDims.WF S64x64 S64x16000 S64x16000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x16.size a ≤ S64x16.size a
  hwx0_1 : ∀ i : grid0.Coords, EltTy.bits .f32 = 32 ∨ (Rect.block (s := S64x16) S64x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x16.size a ≤ S100000x16.size a
  hwx0_3 : ∀ i : grid0.Coords, EltTy.bits .f32 = 32 ∨ (Rect.block (s := S100000x16) S5000x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x16.size a ≤ S100000x16.size a
  hwx0_4 : ∀ i : grid0.Coords, EltTy.bits .f32 = 32 ∨ (Rect.block (s := S100000x16) S5000x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x16.size a ≤ S100000x16.size a
  hwx1_1 : ∀ i : grid1.Coords, EltTy.bits .f32 = 32 ∨ (Rect.block (s := S100000x16) S5000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x32.size a ≤ S16x32.size a
  hwx2_1 : ∀ i : grid2.Coords, EltTy.bits .f32 = 32 ∨ (Rect.block (s := S16x32) S16x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x32.size a ≤ S100000x32.size a
  hwx3_3 : ∀ i : grid3.Coords, EltTy.bits .f32 = 32 ∨ (Rect.block (s := S100000x32) S5000x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x64.size a ≤ S32x64.size a
  hwx4_1 : ∀ i : grid4.Coords, EltTy.bits .f32 = 32 ∨ (Rect.block (s := S32x64) S32x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S100000x64.size a
  hwx4_3 : ∀ i : grid4.Coords, EltTy.bits .f32 = 32 ∨ (Rect.block (s := S100000x64) S5000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S100000x64.size a
  hwx4_4 : ∀ i : grid4.Coords, EltTy.bits .f32 = 32 ∨ (Rect.block (s := S100000x64) S5000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S100000x64.size a
  hwx5_1 : ∀ i : grid5.Coords, EltTy.bits .f32 = 32 ∨ (Rect.block (s := S100000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S100000x64.size a
  hwx5_3 : ∀ i : grid5.Coords, EltTy.bits .f32 = 32 ∨ (Rect.block (s := S100000x64) S5000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S5000x1.size a ≤ S100000x1.size a
  hwx6_2 : ∀ i : grid6.Coords, EltTy.bits .f32 = 32 ∨ (Rect.block (s := S100000x1) S5000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S5000x16.size a ≤ S100000x16.size a
  hwx6_4 : ∀ i : grid6.Coords, EltTy.bits .f32 = 32 ∨ (Rect.block (s := S100000x16) S5000x16.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x16.size a ≤ S100000x16.size a
  hwx7_0 : ∀ i : grid7.Coords, EltTy.bits .f32 = 32 ∨ (Rect.block (s := S100000x16) S5000x16.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x16.size a ≤ S100000x16.size a
  hwx7_1 : ∀ i : grid7.Coords, EltTy.bits .f32 = 32 ∨ (Rect.block (s := S100000x16) S5000x16.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x16.size a ≤ S1x16.size a
  hwx7_2 : ∀ i : grid7.Coords, EltTy.bits .f32 = 32 ∨ (Rect.block (s := S1x16) S1x16.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x16.size a ≤ S100000x16.size a
  hwx7_3 : ∀ i : grid7.Coords, EltTy.bits .f32 = 32 ∨ (Rect.block (s := S100000x16) S5000x16.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x16.size a ≤ S100000x16.size a
  hwx8_0 : ∀ i : grid8.Coords, EltTy.bits .f32 = 32 ∨ (Rect.block (s := S100000x16) S5000x16.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S16x32.size a ≤ S16x32.size a
  hwx8_1 : ∀ i : grid8.Coords, EltTy.bits .f32 = 32 ∨ (Rect.block (s := S16x32) S16x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x32.size a ≤ S100000x32.size a
  hwx8_3 : ∀ i : grid8.Coords, EltTy.bits .f32 = 32 ∨ (Rect.block (s := S100000x32) S5000x32.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x32.size a ≤ S100000x32.size a
  hwx8_4 : ∀ i : grid8.Coords, EltTy.bits .f32 = 32 ∨ (Rect.block (s := S100000x32) S5000x32.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x32.size a ≤ S100000x32.size a
  hwx9_0 : ∀ i : grid9.Coords, EltTy.bits .f32 = 32 ∨ (Rect.block (s := S100000x32) S5000x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x32.size a ≤ S100000x32.size a
  hwx9_1 : ∀ i : grid9.Coords, EltTy.bits .f32 = 32 ∨ (Rect.block (s := S100000x32) S5000x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x32.size a ≤ S100000x32.size a
  hwx9_3 : ∀ i : grid9.Coords, EltTy.bits .f32 = 32 ∨ (Rect.block (s := S100000x32) S5000x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x32.size a ≤ S100000x32.size a
  hwx10_0 : ∀ i : grid10.Coords, EltTy.bits .f32 = 32 ∨ (Rect.block (s := S100000x32) S5000x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x64.size a ≤ S32x64.size a
  hwx10_1 : ∀ i : grid10.Coords, EltTy.bits .f32 = 32 ∨ (Rect.block (s := S32x64) S32x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S5000x1.size a ≤ S100000x1.size a
  hwx10_2 : ∀ i : grid10.Coords, EltTy.bits .f32 = 32 ∨ (Rect.block (s := S100000x1) S5000x1.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x64.size a ≤ S100000x64.size a
  hwx10_3 : ∀ i : grid10.Coords, EltTy.bits .f32 = 32 ∨ (Rect.block (s := S100000x64) S5000x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S100000x64.size a
  hwx10_4 : ∀ i : grid10.Coords, EltTy.bits .f32 = 32 ∨ (Rect.block (s := S100000x64) S5000x64.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S100000x64.size a
  hwx11_0 : ∀ i : grid11.Coords, EltTy.bits .f32 = 32 ∨ (Rect.block (s := S100000x64) S5000x64.size (cc11_transform_0 i) (hinb11_0 i)).WholeWords (EltTy.packing .f32)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S5000x64.size a ≤ S100000x64.size a
  hwx11_1 : ∀ i : grid11.Coords, EltTy.bits .f32 = 32 ∨ (Rect.block (s := S100000x64) S5000x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x64.size a ≤ S100000x64.size a
  hwx11_3 : ∀ i : grid11.Coords, EltTy.bits .f32 = 32 ∨ (Rect.block (s := S100000x64) S5000x64.size (cc11_transform_3 i) (hinb11_3 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S64x64.size a ≤ S64x64.size a
  hwx12_0 : ∀ i : grid12.Coords, EltTy.bits .f32 = 32 ∨ (Rect.block (s := S64x64) S64x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S64x16000.size a ≤ S64x160000.size a
  hwx12_1 : ∀ i : grid12.Coords, EltTy.bits .f32 = 32 ∨ (Rect.block (s := S64x160000) S64x16000.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x16000.size a ≤ S1x160000.size a
  hwx12_2 : ∀ i : grid12.Coords, EltTy.bits .f32 = 32 ∨ (Rect.block (s := S1x160000) S1x16000.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S64x16000.size a ≤ S64x160000.size a
  hwx12_3 : ∀ i : grid12.Coords, EltTy.bits .f32 = 32 ∨ (Rect.block (s := S64x160000) S64x16000.size (cc12_transform_3 i) (hinb12_3 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S5000x16_S16x32_S5000x32_1_0_0_1_n_n : DotDims S5000x16 S16x32 S5000x32 where
  lhsContracting := [1]
  rhsContracting := [0]
  lhsNonContracting := [0]
  rhsNonContracting := [1]
  lhsBatch := []
  rhsBatch := []
  wf := dot_S5000x16_S16x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x16000_S64x16000_1_0_0_1_n_n : DotDims S64x64 S64x16000 S64x16000 where
  lhsContracting := [1]
  rhsContracting := [0]
  lhsNonContracting := [0]
  rhsNonContracting := [1]
  lhsBatch := []
  rhsBatch := []
  wf := dot_S64x64_S64x16000_S64x16000_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v13_0) S5000x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v13_1) S5000x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13_1) S5000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v43) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S16x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v12) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v44_0) S5000x32.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v44_1) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v72) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v44_1) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v73) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v74) S5000x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v74) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S32x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v75_0) S5000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v75_1) S5000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v103) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75_1) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S5000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_arg0) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v12) S5000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v118_0) S5000x16.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v118_1) S5000x16.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v146) S5000x16.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v118_1) S5000x16.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v147) S1x16.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v148) S5000x16.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v148) S5000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg11) S16x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v149_0) S5000x32.size cc8_transform_3 reads8_3 true false 2 stage8_3 sem8_3
    hrank8 hreads8_3 hinb8_3 nbuf8_3 (Memref.isWhole_whole _) hwx8_3 hstage8_3

abbrev win8_4 : Pipeline.Window sig grid8 :=
  Pipeline.Window.ofSpec (Memref.whole main_v149_1) S5000x32.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v177) S5000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v149_1) S5000x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v178) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v179) S5000x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v179) S5000x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_arg13) S32x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v12) S5000x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v180_0) S5000x64.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v180_1) S5000x64.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v208) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v180_1) S5000x64.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v209) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v210) S5000x64.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v227) S64x64.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_arg15) S64x16000.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v228) S1x16000.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v229) S64x16000.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S100000 : Shape := ⟨1, ![100000]⟩
abbrev S64x16 : Shape := ⟨2, ![64, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x160000 : Shape := ⟨2, ![64, 160000]⟩
abbrev S160000 : Shape := ⟨1, ![160000]⟩
abbrev S64x64 : Shape := ⟨2, ![64, 64]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x16 : Shape := ⟨2, ![100000, 16]⟩
abbrev S3200000x16 : Shape := ⟨2, ![3200000, 16]⟩
abbrev S100000x1 : Shape := ⟨2, ![100000, 1]⟩
abbrev S1x16 : Shape := ⟨2, ![1, 16]⟩
abbrev S100000x32 : Shape := ⟨2, ![100000, 32]⟩
abbrev S3200000x32 : Shape := ⟨2, ![3200000, 32]⟩
abbrev S1x32 : Shape := ⟨2, ![1, 32]⟩
abbrev S3200000x64 : Shape := ⟨2, ![3200000, 64]⟩
abbrev S1x64 : Shape := ⟨2, ![1, 64]⟩
abbrev S64x1 : Shape := ⟨2, ![64, 1]⟩
abbrev S1x160000 : Shape := ⟨2, ![1, 160000]⟩
abbrev S64x400x400 : Shape := ⟨3, ![64, 400, 400]⟩

abbrev nBuf : Space → Nat
  | .hbm => 365
  | .vmem => 0
  | .smem => 0
  | _ => 0

abbrev hbmTy0_0 (i : Nat) : BufTy := match i % 128 with
  | 0 => ⟨S100000x64, .f32⟩
  | 1 => ⟨S2x3200000, .i32⟩
  | 2 => ⟨S100000, .i32⟩
  | 3 => ⟨S64x16, .f32⟩
  | 4 => ⟨S16, .f32⟩
  | 5 => ⟨S16x32, .f32⟩
  | 6 => ⟨S32, .f32⟩
  | 7 => ⟨S32x64, .f32⟩
  | 8 => ⟨S64, .f32⟩
  | 9 => ⟨S64x16, .f32⟩
  | 10 => ⟨S16, .f32⟩
  | 11 => ⟨S16x32, .f32⟩
  | 12 => ⟨S32, .f32⟩
  | 13 => ⟨S32x64, .f32⟩
  | 14 => ⟨S64, .f32⟩
  | 15 => ⟨S64x160000, .f32⟩
  | 16 => ⟨S160000, .f32⟩
  | 17 => ⟨S64x64, .f32⟩
  | 18 => ⟨S1x3200000, .i32⟩
  | 19 => ⟨S3200000, .i32⟩
  | 20 => ⟨S1x3200000, .i32⟩
  | 21 => ⟨S3200000, .i32⟩
  | 22 => ⟨S_, .f32⟩
  | 23 => ⟨S3200000, .f32⟩
  | 24 => ⟨S_, .f32⟩
  | 25 => ⟨S100000, .f32⟩
  | 26 => ⟨S3200000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S100000x16, .f32⟩
  | 33 => ⟨S_, .i32⟩
  | 34 => ⟨S3200000, .i32⟩
  | 35 => ⟨S3200000, .i1⟩
  | 36 => ⟨S_, .i32⟩
  | 37 => ⟨S3200000, .i32⟩
  | 38 => ⟨S3200000, .i32⟩
  | 39 => ⟨S3200000, .i32⟩
  | 40 => ⟨S3200000x1, .i32⟩
  | 41 => ⟨S3200000, .f32⟩
  | 42 => ⟨S_, .i32⟩
  | 43 => ⟨S3200000, .i32⟩
  | 44 => ⟨S3200000, .i1⟩
  | 45 => ⟨S_, .i32⟩
  | 46 => ⟨S3200000, .i32⟩
  | 47 => ⟨S3200000, .i32⟩
  | 48 => ⟨S3200000, .i32⟩
  | 49 => ⟨S3200000x1, .i32⟩
  | 50 => ⟨S3200000, .f32⟩
  | 51 => ⟨S3200000, .f32⟩
  | 52 => ⟨S_, .i32⟩
  | 53 => ⟨S3200000, .i32⟩
  | 54 => ⟨S3200000, .i1⟩
  | 55 => ⟨S_, .i32⟩
  | 56 => ⟨S3200000, .i32⟩
  | 57 => ⟨S3200000, .i32⟩
  | 58 => ⟨S3200000, .i32⟩
  | 59 => ⟨S3200000x1, .i32⟩
  | 60 => ⟨S3200000x16, .f32⟩
  | 61 => ⟨S3200000x1, .f32⟩
  | 62 => ⟨S3200000x16, .f32⟩
  | 63 => ⟨S3200000x16, .f32⟩
  | 64 => ⟨S_, .f32⟩
  | 65 => ⟨S100000x16, .f32⟩
  | 66 => ⟨S3200000x1, .i32⟩
  | 67 => ⟨S100000x16, .f32⟩
  | 68 => ⟨S100000, .f32⟩
  | 69 => ⟨S100000x1, .f32⟩
  | 70 => ⟨S100000x16, .f32⟩
  | 71 => ⟨S100000x16, .f32⟩
  | 72 => ⟨S100000x16, .f32⟩
  | 73 => ⟨S1x16, .f32⟩
  | 74 => ⟨S100000x16, .f32⟩
  | 75 => ⟨S100000x16, .f32⟩
  | 76 => ⟨S_, .f32⟩
  | 77 => ⟨S100000x16, .f32⟩
  | 78 => ⟨S100000x16, .f32⟩
  | 79 => ⟨S100000x32, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S3200000, .f32⟩
  | 89 => ⟨S_, .i32⟩
  | 90 => ⟨S3200000, .i32⟩
  | 91 => ⟨S3200000, .i1⟩
  | 92 => ⟨S_, .i32⟩
  | 93 => ⟨S3200000, .i32⟩
  | 94 => ⟨S3200000, .i32⟩
  | 95 => ⟨S3200000, .i32⟩
  | 96 => ⟨S3200000x1, .i32⟩
  | 97 => ⟨S3200000, .f32⟩
  | 98 => ⟨S3200000, .f32⟩
  | 99 => ⟨S_, .i32⟩
  | 100 => ⟨S3200000, .i32⟩
  | 101 => ⟨S3200000, .i1⟩
  | 102 => ⟨S_, .i32⟩
  | 103 => ⟨S3200000, .i32⟩
  | 104 => ⟨S3200000, .i32⟩
  | 105 => ⟨S3200000, .i32⟩
  | 106 => ⟨S3200000x1, .i32⟩
  | 107 => ⟨S3200000x32, .f32⟩
  | 108 => ⟨S3200000x1, .f32⟩
  | 109 => ⟨S3200000x32, .f32⟩
  | 110 => ⟨S3200000x32, .f32⟩
  | 111 => ⟨S_, .f32⟩
  | 112 => ⟨S100000x32, .f32⟩
  | 113 => ⟨S3200000x1, .i32⟩
  | 114 => ⟨S100000x32, .f32⟩
  | 115 => ⟨S100000, .f32⟩
  | 116 => ⟨S100000x1, .f32⟩
  | 117 => ⟨S100000x32, .f32⟩
  | 118 => ⟨S100000x32, .f32⟩
  | 119 => ⟨S100000x32, .f32⟩
  | 120 => ⟨S1x32, .f32⟩
  | 121 => ⟨S100000x32, .f32⟩
  | 122 => ⟨S100000x32, .f32⟩
  | 123 => ⟨S_, .f32⟩
  | 124 => ⟨S100000x32, .f32⟩
  | 125 => ⟨S100000x32, .f32⟩
  | 126 => ⟨S100000x64, .f32⟩
  | 127 => ⟨S_, .i32⟩
  | _ => ⟨S100000x64, .f32⟩

abbrev hbmTy0_1 (i : Nat) : BufTy := match i % 128 with
  | 0 => ⟨S3200000, .i32⟩
  | 1 => ⟨S3200000, .i1⟩
  | 2 => ⟨S_, .i32⟩
  | 3 => ⟨S3200000, .i32⟩
  | 4 => ⟨S3200000, .i32⟩
  | 5 => ⟨S3200000, .i32⟩
  | 6 => ⟨S3200000x1, .i32⟩
  | 7 => ⟨S3200000, .f32⟩
  | 8 => ⟨S_, .i32⟩
  | 9 => ⟨S3200000, .i32⟩
  | 10 => ⟨S3200000, .i1⟩
  | 11 => ⟨S_, .i32⟩
  | 12 => ⟨S3200000, .i32⟩
  | 13 => ⟨S3200000, .i32⟩
  | 14 => ⟨S3200000, .i32⟩
  | 15 => ⟨S3200000x1, .i32⟩
  | 16 => ⟨S3200000, .f32⟩
  | 17 => ⟨S3200000, .f32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S3200000x64, .f32⟩
  | 27 => ⟨S3200000x1, .f32⟩
  | 28 => ⟨S3200000x64, .f32⟩
  | 29 => ⟨S3200000x64, .f32⟩
  | 30 => ⟨S_, .f32⟩
  | 31 => ⟨S100000x64, .f32⟩
  | 32 => ⟨S3200000x1, .i32⟩
  | 33 => ⟨S100000x64, .f32⟩
  | 34 => ⟨S100000, .f32⟩
  | 35 => ⟨S100000x1, .f32⟩
  | 36 => ⟨S100000x64, .f32⟩
  | 37 => ⟨S100000x64, .f32⟩
  | 38 => ⟨S100000x64, .f32⟩
  | 39 => ⟨S1x64, .f32⟩
  | 40 => ⟨S100000x64, .f32⟩
  | 41 => ⟨S100000x64, .f32⟩
  | 42 => ⟨S_, .f32⟩
  | 43 => ⟨S100000x64, .f32⟩
  | 44 => ⟨S100000x64, .f32⟩
  | 45 => ⟨S_, .f32⟩
  | 46 => ⟨S64x64, .f32⟩
  | 47 => ⟨S100000x1, .i32⟩
  | 48 => ⟨S64x64, .f32⟩
  | 49 => ⟨S_, .f32⟩
  | 50 => ⟨S100000, .f32⟩
  | 51 => ⟨S_, .f32⟩
  | 52 => ⟨S64, .f32⟩
  | 53 => ⟨S100000x1, .i32⟩
  | 54 => ⟨S64, .f32⟩
  | 55 => ⟨S_, .f32⟩
  | 56 => ⟨S64, .f32⟩
  | 57 => ⟨S64, .f32⟩
  | 58 => ⟨S64x1, .f32⟩
  | 59 => ⟨S64x64, .f32⟩
  | 60 => ⟨S64x64, .f32⟩
  | 61 => ⟨S100000x16, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000, .f32⟩
  | 71 => ⟨S_, .i32⟩
  | 72 => ⟨S3200000, .i32⟩
  | 73 => ⟨S3200000, .i1⟩
  | 74 => ⟨S_, .i32⟩
  | 75 => ⟨S3200000, .i32⟩
  | 76 => ⟨S3200000, .i32⟩
  | 77 => ⟨S3200000, .i32⟩
  | 78 => ⟨S3200000x1, .i32⟩
  | 79 => ⟨S3200000, .f32⟩
  | 80 => ⟨S3200000, .f32⟩
  | 81 => ⟨S_, .i32⟩
  | 82 => ⟨S3200000, .i32⟩
  | 83 => ⟨S3200000, .i1⟩
  | 84 => ⟨S_, .i32⟩
  | 85 => ⟨S3200000, .i32⟩
  | 86 => ⟨S3200000, .i32⟩
  | 87 => ⟨S3200000, .i32⟩
  | 88 => ⟨S3200000x1, .i32⟩
  | 89 => ⟨S3200000x16, .f32⟩
  | 90 => ⟨S3200000x1, .f32⟩
  | 91 => ⟨S3200000x16, .f32⟩
  | 92 => ⟨S3200000x16, .f32⟩
  | 93 => ⟨S_, .f32⟩
  | 94 => ⟨S100000x16, .f32⟩
  | 95 => ⟨S3200000x1, .i32⟩
  | 96 => ⟨S100000x16, .f32⟩
  | 97 => ⟨S100000, .f32⟩
  | 98 => ⟨S100000x1, .f32⟩
  | 99 => ⟨S100000x16, .f32⟩
  | 100 => ⟨S100000x16, .f32⟩
  | 101 => ⟨S100000x16, .f32⟩
  | 102 => ⟨S1x16, .f32⟩
  | 103 => ⟨S100000x16, .f32⟩
  | 104 => ⟨S100000x16, .f32⟩
  | 105 => ⟨S_, .f32⟩
  | 106 => ⟨S100000x16, .f32⟩
  | 107 => ⟨S100000x16, .f32⟩
  | 108 => ⟨S100000x32, .f32⟩
  | 109 => ⟨S_, .i32⟩
  | 110 => ⟨S3200000, .i32⟩
  | 111 => ⟨S3200000, .i1⟩
  | 112 => ⟨S_, .i32⟩
  | 113 => ⟨S3200000, .i32⟩
  | 114 => ⟨S3200000, .i32⟩
  | 115 => ⟨S3200000, .i32⟩
  | 116 => ⟨S3200000x1, .i32⟩
  | 117 => ⟨S3200000, .f32⟩
  | 118 => ⟨S_, .i32⟩
  | 119 => ⟨S3200000, .i32⟩
  | 120 => ⟨S3200000, .i1⟩
  | 121 => ⟨S_, .i32⟩
  | 122 => ⟨S3200000, .i32⟩
  | 123 => ⟨S3200000, .i32⟩
  | 124 => ⟨S3200000, .i32⟩
  | 125 => ⟨S3200000x1, .i32⟩
  | 126 => ⟨S3200000, .f32⟩
  | 127 => ⟨S3200000, .f32⟩
  | _ => ⟨S100000x64, .f32⟩

abbrev hbmTy0_2 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000x32, .f32⟩
  | 9 => ⟨S3200000x1, .f32⟩
  | 10 => ⟨S3200000x32, .f32⟩
  | 11 => ⟨S3200000x32, .f32⟩
  | 12 => ⟨S_, .f32⟩
  | 13 => ⟨S100000x32, .f32⟩
  | 14 => ⟨S3200000x1, .i32⟩
  | 15 => ⟨S100000x32, .f32⟩
  | 16 => ⟨S100000, .f32⟩
  | 17 => ⟨S100000x1, .f32⟩
  | 18 => ⟨S100000x32, .f32⟩
  | 19 => ⟨S100000x32, .f32⟩
  | 20 => ⟨S100000x32, .f32⟩
  | 21 => ⟨S1x32, .f32⟩
  | 22 => ⟨S100000x32, .f32⟩
  | 23 => ⟨S100000x32, .f32⟩
  | 24 => ⟨S_, .f32⟩
  | 25 => ⟨S100000x32, .f32⟩
  | 26 => ⟨S100000x32, .f32⟩
  | 27 => ⟨S100000x64, .f32⟩
  | 28 => ⟨S_, .i32⟩
  | 29 => ⟨S3200000, .i32⟩
  | 30 => ⟨S3200000, .i1⟩
  | 31 => ⟨S_, .i32⟩
  | 32 => ⟨S3200000, .i32⟩
  | 33 => ⟨S3200000, .i32⟩
  | 34 => ⟨S3200000, .i32⟩
  | 35 => ⟨S3200000x1, .i32⟩
  | 36 => ⟨S3200000, .f32⟩
  | 37 => ⟨S_, .i32⟩
  | 38 => ⟨S3200000, .i32⟩
  | 39 => ⟨S3200000, .i1⟩
  | 40 => ⟨S_, .i32⟩
  | 41 => ⟨S3200000, .i32⟩
  | 42 => ⟨S3200000, .i32⟩
  | 43 => ⟨S3200000, .i32⟩
  | 44 => ⟨S3200000x1, .i32⟩
  | 45 => ⟨S3200000, .f32⟩
  | 46 => ⟨S3200000, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S3200000x64, .f32⟩
  | 56 => ⟨S3200000x1, .f32⟩
  | 57 => ⟨S3200000x64, .f32⟩
  | 58 => ⟨S3200000x64, .f32⟩
  | 59 => ⟨S_, .f32⟩
  | 60 => ⟨S100000x64, .f32⟩
  | 61 => ⟨S3200000x1, .i32⟩
  | 62 => ⟨S100000x64, .f32⟩
  | 63 => ⟨S100000, .f32⟩
  | 64 => ⟨S100000x1, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S_, .f32⟩
  | 75 => ⟨S64x64, .f32⟩
  | 76 => ⟨S100000x1, .i32⟩
  | 77 => ⟨S64x64, .f32⟩
  | 78 => ⟨S_, .f32⟩
  | 79 => ⟨S100000, .f32⟩
  | 80 => ⟨S_, .f32⟩
  | 81 => ⟨S64, .f32⟩
  | 82 => ⟨S100000x1, .i32⟩
  | 83 => ⟨S64, .f32⟩
  | 84 => ⟨S_, .f32⟩
  | 85 => ⟨S64, .f32⟩
  | 86 => ⟨S64, .f32⟩
  | 87 => ⟨S64x1, .f32⟩
  | 88 => ⟨S64x64, .f32⟩
  | 89 => ⟨S64x64, .f32⟩
  | 90 => ⟨S_, .f32⟩
  | 91 => ⟨S64x64, .f32⟩
  | 92 => ⟨S64x64, .f32⟩
  | 93 => ⟨S64x64, .f32⟩
  | 94 => ⟨S64x64, .f32⟩
  | 95 => ⟨S64x64, .f32⟩
  | 96 => ⟨S64x160000, .f32⟩
  | 97 => ⟨S1x160000, .f32⟩
  | 98 => ⟨S64x160000, .f32⟩
  | 99 => ⟨S64x160000, .f32⟩
  | 100 => ⟨S64x160000, .f32⟩
  | 101 => ⟨S64x160000, .f32⟩
  | 102 => ⟨S_, .f32⟩
  | 103 => ⟨S64x160000, .f32⟩
  | 104 => ⟨S64x160000, .f32⟩
  | 105 => ⟨S_, .f32⟩
  | 106 => ⟨S64x160000, .f32⟩
  | 107 => ⟨S64x160000, .f32⟩
  | 108 => ⟨S64x400x400, .f32⟩
  | _ => ⟨S100000x64, .f32⟩

abbrev hbmTy (i : Nat) : BufTy := match i / 128 with
  | 0 => hbmTy0_0 i
  | 1 => hbmTy0_1 i
  | 2 => hbmTy0_2 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_c : Ref sig .tc := ⟨.hbm, 33, rfl⟩
abbrev main_v12 : Ref sig .tc := ⟨.hbm, 34, rfl⟩
abbrev main_v13 : Ref sig .tc := ⟨.hbm, 35, rfl⟩
abbrev main_c_2 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_c_3 : Ref sig .tc := ⟨.hbm, 42, rfl⟩
abbrev main_v19 : Ref sig .tc := ⟨.hbm, 43, rfl⟩
abbrev main_v20 : Ref sig .tc := ⟨.hbm, 44, rfl⟩
abbrev main_c_4 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_c_5 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call0_cst : Ref sig .tc := ⟨.hbm, 76, rfl⟩
abbrev main_call0_v0 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_c_9 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_10 : Ref sig .tc := ⟨.hbm, 89, rfl⟩
abbrev main_v57 : Ref sig .tc := ⟨.hbm, 90, rfl⟩
abbrev main_v58 : Ref sig .tc := ⟨.hbm, 91, rfl⟩
abbrev main_c_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_12 : Ref sig .tc := ⟨.hbm, 99, rfl⟩
abbrev main_v65 : Ref sig .tc := ⟨.hbm, 100, rfl⟩
abbrev main_v66 : Ref sig .tc := ⟨.hbm, 101, rfl⟩
abbrev main_c_13 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_14 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_call1_cst : Ref sig .tc := ⟨.hbm, 123, rfl⟩
abbrev main_call1_v0 : Ref sig .tc := ⟨.hbm, 124, rfl⟩
abbrev main_v86 : Ref sig .tc := ⟨.hbm, 125, rfl⟩
abbrev main_v87 : Ref sig .tc := ⟨.hbm, 126, rfl⟩
abbrev main_c_15 : Ref sig .tc := ⟨.hbm, 127, rfl⟩
abbrev main_v88 : Ref sig .tc := ⟨.hbm, 128, rfl⟩
abbrev main_v89 : Ref sig .tc := ⟨.hbm, 129, rfl⟩
abbrev main_c_16 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_17 : Ref sig .tc := ⟨.hbm, 136, rfl⟩
abbrev main_v95 : Ref sig .tc := ⟨.hbm, 137, rfl⟩
abbrev main_v96 : Ref sig .tc := ⟨.hbm, 138, rfl⟩
abbrev main_c_18 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_19 : Ref sig .tc := ⟨.hbm, 146, rfl⟩
abbrev main_v103 : Ref sig .tc := ⟨.hbm, 147, rfl⟩
abbrev main_v104 : Ref sig .tc := ⟨.hbm, 148, rfl⟩
abbrev main_c_20 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_21 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_call2_cst : Ref sig .tc := ⟨.hbm, 170, rfl⟩
abbrev main_call2_v0 : Ref sig .tc := ⟨.hbm, 171, rfl⟩
abbrev main_v124 : Ref sig .tc := ⟨.hbm, 172, rfl⟩
abbrev main_cst_22 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_23 : Ref sig .tc := ⟨.hbm, 177, rfl⟩
abbrev main_v128 : Ref sig .tc := ⟨.hbm, 178, rfl⟩
abbrev main_cst_24 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_cst_25 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_c_26 : Ref sig .tc := ⟨.hbm, 190, rfl⟩
abbrev main_v138 : Ref sig .tc := ⟨.hbm, 191, rfl⟩
abbrev main_v139 : Ref sig .tc := ⟨.hbm, 192, rfl⟩
abbrev main_c_27 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_c_28 : Ref sig .tc := ⟨.hbm, 199, rfl⟩
abbrev main_v145 : Ref sig .tc := ⟨.hbm, 200, rfl⟩
abbrev main_v146 : Ref sig .tc := ⟨.hbm, 201, rfl⟩
abbrev main_c_29 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_c_30 : Ref sig .tc := ⟨.hbm, 209, rfl⟩
abbrev main_v153 : Ref sig .tc := ⟨.hbm, 210, rfl⟩
abbrev main_v154 : Ref sig .tc := ⟨.hbm, 211, rfl⟩
abbrev main_c_31 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_cst_32 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_call3_cst : Ref sig .tc := ⟨.hbm, 233, rfl⟩
abbrev main_call3_v0 : Ref sig .tc := ⟨.hbm, 234, rfl⟩
abbrev main_v174 : Ref sig .tc := ⟨.hbm, 235, rfl⟩
abbrev main_v175 : Ref sig .tc := ⟨.hbm, 236, rfl⟩
abbrev main_c_33 : Ref sig .tc := ⟨.hbm, 237, rfl⟩
abbrev main_v176 : Ref sig .tc := ⟨.hbm, 238, rfl⟩
abbrev main_v177 : Ref sig .tc := ⟨.hbm, 239, rfl⟩
abbrev main_c_34 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_c_35 : Ref sig .tc := ⟨.hbm, 246, rfl⟩
abbrev main_v183 : Ref sig .tc := ⟨.hbm, 247, rfl⟩
abbrev main_v184 : Ref sig .tc := ⟨.hbm, 248, rfl⟩
abbrev main_c_36 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_c_37 : Ref sig .tc := ⟨.hbm, 256, rfl⟩
abbrev main_v191 : Ref sig .tc := ⟨.hbm, 257, rfl⟩
abbrev main_v192 : Ref sig .tc := ⟨.hbm, 258, rfl⟩
abbrev main_c_38 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_cst_39 : Ref sig .tc := ⟨.hbm, 268, rfl⟩
abbrev main_v201 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_call4_cst : Ref sig .tc := ⟨.hbm, 280, rfl⟩
abbrev main_call4_v0 : Ref sig .tc := ⟨.hbm, 281, rfl⟩
abbrev main_v212 : Ref sig .tc := ⟨.hbm, 282, rfl⟩
abbrev main_v213 : Ref sig .tc := ⟨.hbm, 283, rfl⟩
abbrev main_c_40 : Ref sig .tc := ⟨.hbm, 284, rfl⟩
abbrev main_v214 : Ref sig .tc := ⟨.hbm, 285, rfl⟩
abbrev main_v215 : Ref sig .tc := ⟨.hbm, 286, rfl⟩
abbrev main_c_41 : Ref sig .tc := ⟨.hbm, 287, rfl⟩
abbrev main_v216 : Ref sig .tc := ⟨.hbm, 288, rfl⟩
abbrev main_v217 : Ref sig .tc := ⟨.hbm, 289, rfl⟩
abbrev main_v218 : Ref sig .tc := ⟨.hbm, 290, rfl⟩
abbrev main_v219 : Ref sig .tc := ⟨.hbm, 291, rfl⟩
abbrev main_v220 : Ref sig .tc := ⟨.hbm, 292, rfl⟩
abbrev main_c_42 : Ref sig .tc := ⟨.hbm, 293, rfl⟩
abbrev main_v221 : Ref sig .tc := ⟨.hbm, 294, rfl⟩
abbrev main_v222 : Ref sig .tc := ⟨.hbm, 295, rfl⟩
abbrev main_c_43 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_v227 : Ref sig .tc := ⟨.hbm, 301, rfl⟩
abbrev main_v228 : Ref sig .tc := ⟨.hbm, 302, rfl⟩
abbrev main_c_44 : Ref sig .tc := ⟨.hbm, 303, rfl⟩
abbrev main_v229 : Ref sig .tc := ⟨.hbm, 304, rfl⟩
abbrev main_v230 : Ref sig .tc := ⟨.hbm, 305, rfl⟩
abbrev main_c_45 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_cst_46 : Ref sig .tc := ⟨.hbm, 315, rfl⟩
abbrev main_v239 : Ref sig .tc := ⟨.hbm, 316, rfl⟩
abbrev main_v240 : Ref sig .tc := ⟨.hbm, 317, rfl⟩
abbrev main_v241 : Ref sig .tc := ⟨.hbm, 318, rfl⟩
abbrev main_v242 : Ref sig .tc := ⟨.hbm, 319, rfl⟩
abbrev main_v243 : Ref sig .tc := ⟨.hbm, 320, rfl⟩
abbrev main_v244 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_call5_cst : Ref sig .tc := ⟨.hbm, 327, rfl⟩
abbrev main_call5_v0 : Ref sig .tc := ⟨.hbm, 328, rfl⟩
abbrev main_v250 : Ref sig .tc := ⟨.hbm, 329, rfl⟩
abbrev main_cst_47 : Ref sig .tc := ⟨.hbm, 330, rfl⟩
abbrev main_v251 : Ref sig .tc := ⟨.hbm, 331, rfl⟩
abbrev main_v252 : Ref sig .tc := ⟨.hbm, 332, rfl⟩
abbrev main_v253 : Ref sig .tc := ⟨.hbm, 333, rfl⟩
abbrev main_cst_48 : Ref sig .tc := ⟨.hbm, 334, rfl⟩
abbrev main_v254 : Ref sig .tc := ⟨.hbm, 335, rfl⟩
abbrev main_cst_49 : Ref sig .tc := ⟨.hbm, 336, rfl⟩
abbrev main_v255 : Ref sig .tc := ⟨.hbm, 337, rfl⟩
abbrev main_v256 : Ref sig .tc := ⟨.hbm, 338, rfl⟩
abbrev main_v257 : Ref sig .tc := ⟨.hbm, 339, rfl⟩
abbrev main_cst_50 : Ref sig .tc := ⟨.hbm, 340, rfl⟩
abbrev main_v258 : Ref sig .tc := ⟨.hbm, 341, rfl⟩
abbrev main_v259 : Ref sig .tc := ⟨.hbm, 342, rfl⟩
abbrev main_v260 : Ref sig .tc := ⟨.hbm, 343, rfl⟩
abbrev main_v261 : Ref sig .tc := ⟨.hbm, 344, rfl⟩
abbrev main_v262 : Ref sig .tc := ⟨.hbm, 345, rfl⟩
abbrev main_cst_51 : Ref sig .tc := ⟨.hbm, 346, rfl⟩
abbrev main_v263 : Ref sig .tc := ⟨.hbm, 347, rfl⟩
abbrev main_v264 : Ref sig .tc := ⟨.hbm, 348, rfl⟩
abbrev main_v265 : Ref sig .tc := ⟨.hbm, 349, rfl⟩
abbrev main_v266 : Ref sig .tc := ⟨.hbm, 350, rfl⟩
abbrev main_v267 : Ref sig .tc := ⟨.hbm, 351, rfl⟩
abbrev main_v268 : Ref sig .tc := ⟨.hbm, 352, rfl⟩
abbrev main_v269 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩
abbrev main_cst_52 : Ref sig .tc := ⟨.hbm, 358, rfl⟩
abbrev main_v274 : Ref sig .tc := ⟨.hbm, 359, rfl⟩
abbrev main_v275 : Ref sig .tc := ⟨.hbm, 360, rfl⟩
abbrev main_cst_53 : Ref sig .tc := ⟨.hbm, 361, rfl⟩
abbrev main_v276 : Ref sig .tc := ⟨.hbm, 362, rfl⟩
abbrev main_v277 : Ref sig .tc := ⟨.hbm, 363, rfl⟩
abbrev main_v278 : Ref sig .tc := ⟨.hbm, 364, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  bcast_S160000_S1x160000_1 : S160000.BroadcastsInDim S1x160000 (![1] : Fin 1 → Fin S1x160000.rank)
  bcast_S1x160000_S64x160000_0_1 : S1x160000.BroadcastsInDim S64x160000 (![0, 1] : Fin 2 → Fin S64x160000.rank)
  bcast_S_S64x160000 : S_.BroadcastsInDim S64x160000 (![] : Fin 0 → Fin S64x160000.rank)
  shapeCasts_S64x160000_S64x400x400 : S64x160000.ShapeCasts S64x400x400
  scatter_S100000_S3200000x1_S3200000_n_0_0_1_wf : ScatterDims.WF S100000 S3200000x1 S3200000 [] [0] [0] 1
  dot_S100000x64_S64x16_S100000x16_1_0_0_1_n_n_wf : DotDims.WF S100000x64 S64x16 S100000x16 [1] [0] [0] [1] [] []
  gather_S100000_S3200000x1_S3200000_n_0_n_n_0_1_1_wf : GatherDims.WF S100000 S3200000x1 S3200000 [] [0] [] [0] [] 1 ![1]
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x32_S100000x32_1_0_0_1_n_n_wf : DotDims.WF S100000x16 S16x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x32_S32x64_S100000x64_1_0_0_1_n_n_wf : DotDims.WF S100000x32 S32x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1
  dot_S64x64_S64x160000_S64x160000_1_0_0_1_n_n_wf : DotDims.WF S64x64 S64x160000 S64x160000 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x64_S64x160000_S64x160000_1_0_0_1_n_n : DotDims S64x64 S64x160000 S64x160000 where
  lhsContracting := [1]
  rhsContracting := [0]
  lhsNonContracting := [0]
  rhsNonContracting := [1]
  lhsBatch := []
  rhsBatch := []
  wf := dot_S64x64_S64x160000_S64x160000_1_0_0_1_n_n_wf

class Facts : Prop extends Facts₀ where

variable [Facts]
-- ==== Proof.ResultEq.lean ====
import proofs.«152908_j39247411151511_1_alg».proof.Proof.RunP
import proofs.«152908_j39247411151511_1_alg».proof.Proof.ReadP

/-!
  The reference's run states each result as one composed term of the arguments; its stages, one operation at a time, compose
  to the same term. These three equations say so, by unfolding.
-/

set_option maxRecDepth 16384

noncomputable section

namespace Cert.ReferenceIdeal.ResultEq

open Cert.ReferenceIdeal Cert.ReferenceIdeal.Gen Idealize.ShloMosaic Idealize.ShloMosaic.TcCoe Idealize.SL.Sem Idealize.ShloMosaic.StableHlo

variable {F : FTy → Type} [FloatOps F]

/-- The first result's composed term is the last stage of the reference. -/
theorem result_v278_eq (m : (ℓ : Loc nD τ sig) → Buf (Elt F) ℓ) (c : Dev nD) :
    Cert.ReferenceIdeal.ValueP.res_main_v278 m c = Cert.ReferenceIdeal.ReadP.val_main_v278 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Cert.ReferenceIdeal.ValueP.res_main_v278; rfl

/-- The second result's composed term is the first branch's pooled stage. -/
theorem result_v136_eq (m : (ℓ : Loc nD τ sig) → Buf (Elt F) ℓ) (c : Dev nD) :
    Cert.ReferenceIdeal.ValueP.res_main_v136 m c = Cert.ReferenceIdeal.ReadP.val_main_v136 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.ValueP.res_main_v136; rfl

/-- The third result's composed term is the second branch's pooled stage. -/
theorem result_v262_eq (m : (ℓ : Loc nD τ sig) → Buf (Elt F) ℓ) (c : Dev nD) :
    Cert.ReferenceIdeal.ValueP.res_main_v262 m c = Cert.ReferenceIdeal.ReadP.val_main_v262 (F := F) (m ((c.tc : Thread nD τ).loc main_arg0)) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  unfold Cert.ReferenceIdeal.ValueP.res_main_v262; rfl

end Cert.ReferenceIdeal.ResultEq

end
-- ==== Proof.RunValues.lean ====
/- The run of @main on the TensorCores, with its three result buffers kept beside the eighteen argument buffers:
   from any memory with zero counters every weakly fair execution terminates without fault, and in every final state
   each result buffer holds the last segment boundary's contents (the fold `W23` from the launch memory) while each
   argument buffer holds what it held at launch. The segments, their chaining and the launch are those of the frame
   claim; only the facts read off the final thread state are more. -/
import proofs.«152908_j39247411151511_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- Every weakly fair execution of @main terminates, nothing faulting; in every final state the three result buffers
    hold the contents of the last boundary of the fold, and the eighteen argument buffers are as launched. -/
theorem run_values : θ_run defs (onTc (τ := τ) (main (F := F))) ⟨m, fun _ => 0, ρ⟩ (fun r => ∀ c : Dev nD,
      r.2.mem ((c.tc : Thread nD τ).loc main_v230) = W23 m ρ c (Proc.devRef .tc main_v230)
      ∧ r.2.mem ((c.tc : Thread nD τ).loc main_v117) = W23 m ρ c (Proc.devRef .tc main_v117)
      ∧ r.2.mem ((c.tc : Thread nD τ).loc main_v222) = W23 m ρ c (Proc.devRef .tc main_v222)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v230 (by decide)),
       h c _ (mem_uc main_v117 (by decide)),
       h c _ (mem_uc main_v222 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c),
       (h c _ (mem_uc main_arg9 (by decide))).trans (W23_main_arg9 m ρ c),
       (h c _ (mem_uc main_arg10 (by decide))).trans (W23_main_arg10 m ρ c),
       (h c _ (mem_uc main_arg11 (by decide))).trans (W23_main_arg11 m ρ c),
       (h c _ (mem_uc main_arg12 (by decide))).trans (W23_main_arg12 m ρ c),
       (h c _ (mem_uc main_arg13 (by decide))).trans (W23_main_arg13 m ρ c),
       (h c _ (mem_uc main_arg14 (by decide))).trans (W23_main_arg14 m ρ c),
       (h c _ (mem_uc main_arg15 (by decide))).trans (W23_main_arg15 m ρ c),
       (h c _ (mem_uc main_arg16 (by decide))).trans (W23_main_arg16 m ρ c),
       (h c _ (mem_uc main_arg17 (by decide))).trans (W23_main_arg17 m ρ c)⟩)

end Cert.KernelIdeal.Bridge

end
-- ==== Proof.Keep.lean ====
import proofs.«152908_j39247411151511_1_alg».proof.Proof.Gen.KernelIdeal.Frame
import Idealize.ShloMosaic.PureOps.Ideal

set_option maxRecDepth 16384
set_option maxHeartbeats 1000000

noncomputable section

namespace Cert.KernelIdeal.Bridge

open Cert.KernelIdeal Cert.KernelIdeal.Gen
open Idealize.ShloMosaic Idealize.ShloMosaic.TcCoe
open Idealize.SL Idealize.SL.Sem

/-!
  The buffers that nothing after the first stretch of host operations writes: the arguments the later segments read, the
  two rows of the edge list (sources and targets), the inverse square root of the degree, and its square as a column.
  Every later stretch of host operations writes only its own results, and every region writes only its output arrays (it
  reads these buffers, if at all, through input windows, which leave their arrays as they were), so each of these
  buffers holds at every later boundary what it held after the first stretch.
-/

/-- Two contents of the TensorCore's buffers agree on the carried buffers. -/
structure Kept (A B : Valuation τ sig (Elt Ideal)) : Prop where
  arg0 : A (Proc.devRef .tc main_arg0) = B (Proc.devRef .tc main_arg0)
  arg2 : A (Proc.devRef .tc main_arg2) = B (Proc.devRef .tc main_arg2)
  arg3 : A (Proc.devRef .tc main_arg3) = B (Proc.devRef .tc main_arg3)
  arg4 : A (Proc.devRef .tc main_arg4) = B (Proc.devRef .tc main_arg4)
  arg5 : A (Proc.devRef .tc main_arg5) = B (Proc.devRef .tc main_arg5)
  arg6 : A (Proc.devRef .tc main_arg6) = B (Proc.devRef .tc main_arg6)
  arg7 : A (Proc.devRef .tc main_arg7) = B (Proc.devRef .tc main_arg7)
  arg8 : A (Proc.devRef .tc main_arg8) = B (Proc.devRef .tc main_arg8)
  arg9 : A (Proc.devRef .tc main_arg9) = B (Proc.devRef .tc main_arg9)
  arg10 : A (Proc.devRef .tc main_arg10) = B (Proc.devRef .tc main_arg10)
  arg11 : A (Proc.devRef .tc main_arg11) = B (Proc.devRef .tc main_arg11)
  arg12 : A (Proc.devRef .tc main_arg12) = B (Proc.devRef .tc main_arg12)
  arg13 : A (Proc.devRef .tc main_arg13) = B (Proc.devRef .tc main_arg13)
  arg14 : A (Proc.devRef .tc main_arg14) = B (Proc.devRef .tc main_arg14)
  arg15 : A (Proc.devRef .tc main_arg15) = B (Proc.devRef .tc main_arg15)
  arg16 : A (Proc.devRef .tc main_arg16) = B (Proc.devRef .tc main_arg16)
  arg17 : A (Proc.devRef .tc main_arg17) = B (Proc.devRef .tc main_arg17)
  src : A (Proc.devRef .tc main_v1) = B (Proc.devRef .tc main_v1)
  dst : A (Proc.devRef .tc main_v3) = B (Proc.devRef .tc main_v3)
  invroot : A (Proc.devRef .tc main_v10) = B (Proc.devRef .tc main_v10)
  column : A (Proc.devRef .tc main_v12) = B (Proc.devRef .tc main_v12)

theorem Kept.trans {A B C : Valuation τ sig (Elt Ideal)} (h₁ : Kept A B) (h₂ : Kept B C) : Kept A C :=
  ⟨h₁.arg0.trans h₂.arg0, h₁.arg2.trans h₂.arg2, h₁.arg3.trans h₂.arg3, h₁.arg4.trans h₂.arg4, h₁.arg5.trans h₂.arg5, h₁.arg6.trans h₂.arg6, h₁.arg7.trans h₂.arg7, h₁.arg8.trans h₂.arg8, h₁.arg9.trans h₂.arg9, h₁.arg10.trans h₂.arg10, h₁.arg11.trans h₂.arg11, h₁.arg12.trans h₂.arg12, h₁.arg13.trans h₂.arg13, h₁.arg14.trans h₂.arg14, h₁.arg15.trans h₂.arg15, h₁.arg16.trans h₂.arg16, h₁.arg17.trans h₂.arg17, h₁.src.trans h₂.src, h₁.dst.trans h₂.dst, h₁.invroot.trans h₂.invroot, h₁.column.trans h₂.column⟩

variable (m : (ℓ : Loc nD τ sig) → Buf (Elt Ideal) ℓ) (ρ : Dev nD → PrngReg)

/-- A stretch of host operations leaves a buffer none of its operations writes. -/
macro "host_keeps" : tactic => `(tactic| (
  refine StableHlo.after_of_forall_not_mem _ _ (List.forall_iff_forall_mem.mp ?_)
  simp only [hostOps0, hostOps1, hostOps3, hostOps5, hostOps6, hostOps7, hostOps9, hostOps11, hostOps12, hostOps13,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- Region 0 writes none of the carried buffers. -/
theorem region0_keeps (c : Dev nD) : Kept (W2 m ρ c) (W1 m ρ c) where
  arg0 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg2 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg3 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg4 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg5 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg6 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg7 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg8 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg9 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg10 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg11 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg12 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg13 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg14 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg15 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg16 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  arg17 := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  src := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  dst := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  invroot := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))
  column := by
    first
      | exact W2_of_ne m ρ c _ (by decide)
      | exact (W2_arr m ρ c 0).trans (((dat0 (V1 m ρ) c).arrAt_in 0 rfl _).trans (A_eq0 (V1 m ρ) c 0))
      | exact (W2_arr m ρ c 1).trans (((dat0 (V1 m ρ) c).arrAt_in 1 rfl _).trans (A_eq0 (V1 m ρ) c 1))
      | exact (W2_arr m ρ c 2).trans (((dat0 (V1 m ρ) c).arrAt_in 2 rfl _).trans (A_eq0 (V1 m ρ) c 2))

/-- Region 1 writes none of the carried buffers. -/
theorem region1_keeps (c : Dev nD) : Kept (W4 m ρ c) (W3 m ρ c) where
  arg0 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg2 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg3 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg4 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg5 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg6 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg7 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg8 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg9 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg10 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg11 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg12 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg13 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg14 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg15 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg16 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  arg17 := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  src := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  dst := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  invroot := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))
  column := by
    first
      | exact W4_of_ne m ρ c _ (by decide)
      | exact (W4_arr m ρ c 0).trans (((dat1 (V3 m ρ) c).arrAt_in 0 rfl _).trans (A_eq1 (V3 m ρ) c 0))
      | exact (W4_arr m ρ c 1).trans (((dat1 (V3 m ρ) c).arrAt_in 1 rfl _).trans (A_eq1 (V3 m ρ) c 1))
      | exact (W4_arr m ρ c 2).trans (((dat1 (V3 m ρ) c).arrAt_in 2 rfl _).trans (A_eq1 (V3 m ρ) c 2))

/-- Region 2 writes none of the carried buffers. -/
theorem region2_keeps (c : Dev nD) : Kept (W5 m ρ c) (W4 m ρ c) where
  arg0 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg2 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg3 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg4 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg5 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg6 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg7 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg8 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg9 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg10 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg11 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg12 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg13 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg14 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg15 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg16 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  arg17 := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  src := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  dst := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  invroot := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))
  column := by
    first
      | exact W5_of_ne m ρ c _ (by decide)
      | exact (W5_arr m ρ c 0).trans (((dat2 (V4 m ρ) c).arrAt_in 0 rfl _).trans (A_eq2 (V4 m ρ) c 0))
      | exact (W5_arr m ρ c 1).trans (((dat2 (V4 m ρ) c).arrAt_in 1 rfl _).trans (A_eq2 (V4 m ρ) c 1))
      | exact (W5_arr m ρ c 2).trans (((dat2 (V4 m ρ) c).arrAt_in 2 rfl _).trans (A_eq2 (V4 m ρ) c 2))

/-- Region 3 writes none of the carried buffers. -/
theorem region3_keeps (c : Dev nD) : Kept (W7 m ρ c) (W6 m ρ c) where
  arg0 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg2 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg3 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg4 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg5 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg6 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg7 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg8 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg9 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg10 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg11 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg12 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg13 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg14 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg15 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg16 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  arg17 := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  src := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  dst := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  invroot := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))
  column := by
    first
      | exact W7_of_ne m ρ c _ (by decide)
      | exact (W7_arr m ρ c 0).trans (((dat3 (V6 m ρ) c).arrAt_in 0 rfl _).trans (A_eq3 (V6 m ρ) c 0))
      | exact (W7_arr m ρ c 1).trans (((dat3 (V6 m ρ) c).arrAt_in 1 rfl _).trans (A_eq3 (V6 m ρ) c 1))
      | exact (W7_arr m ρ c 2).trans (((dat3 (V6 m ρ) c).arrAt_in 2 rfl _).trans (A_eq3 (V6 m ρ) c 2))

/-- Region 4 writes none of the carried buffers. -/
theorem region4_keeps (c : Dev nD) : Kept (W8 m ρ c) (W7 m ρ c) where
  arg0 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg2 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg3 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg4 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg5 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg6 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg7 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg8 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg9 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg10 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg11 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg12 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg13 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg14 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg15 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg16 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  arg17 := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  src := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  dst := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  invroot := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))
  column := by
    first
      | exact W8_of_ne m ρ c _ (by decide)
      | exact (W8_arr m ρ c 0).trans (((dat4 (V7 m ρ) c).arrAt_in 0 rfl _).trans (A_eq4 (V7 m ρ) c 0))
      | exact (W8_arr m ρ c 1).trans (((dat4 (V7 m ρ) c).arrAt_in 1 rfl _).trans (A_eq4 (V7 m ρ) c 1))
      | exact (W8_arr m ρ c 2).trans (((dat4 (V7 m ρ) c).arrAt_in 2 rfl _).trans (A_eq4 (V7 m ρ) c 2))

/-- Region 5 writes none of the carried buffers. -/
theorem region5_keeps (c : Dev nD) : Kept (W10 m ρ c) (W9 m ρ c) where
  arg0 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg2 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg3 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg4 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg5 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg6 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg7 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg8 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg9 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg10 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg11 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg12 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg13 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg14 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg15 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg16 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  arg17 := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  src := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  dst := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  invroot := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))
  column := by
    first
      | exact W10_of_ne m ρ c _ (by decide)
      | exact (W10_arr m ρ c 0).trans (((dat5 (V9 m ρ) c).arrAt_in 0 rfl _).trans (A_eq5 (V9 m ρ) c 0))
      | exact (W10_arr m ρ c 1).trans (((dat5 (V9 m ρ) c).arrAt_in 1 rfl _).trans (A_eq5 (V9 m ρ) c 1))
      | exact (W10_arr m ρ c 2).trans (((dat5 (V9 m ρ) c).arrAt_in 2 rfl _).trans (A_eq5 (V9 m ρ) c 2))

/-- Region 6 writes none of the carried buffers. -/
theorem region6_keeps (c : Dev nD) : Kept (W12 m ρ c) (W11 m ρ c) where
  arg0 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg2 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg3 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg4 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg5 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg6 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg7 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg8 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg9 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg10 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg11 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg12 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg13 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg14 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg15 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg16 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  arg17 := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  src := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  dst := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  invroot := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))
  column := by
    first
      | exact W12_of_ne m ρ c _ (by decide)
      | exact (W12_arr m ρ c 0).trans (((dat6 (V11 m ρ) c).arrAt_in 0 rfl _).trans (A_eq6 (V11 m ρ) c 0))
      | exact (W12_arr m ρ c 1).trans (((dat6 (V11 m ρ) c).arrAt_in 1 rfl _).trans (A_eq6 (V11 m ρ) c 1))
      | exact (W12_arr m ρ c 2).trans (((dat6 (V11 m ρ) c).arrAt_in 2 rfl _).trans (A_eq6 (V11 m ρ) c 2))

/-- Region 7 writes none of the carried buffers. -/
theorem region7_keeps (c : Dev nD) : Kept (W14 m ρ c) (W13 m ρ c) where
  arg0 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg2 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg3 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg4 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg5 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg6 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg7 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg8 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg9 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg10 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg11 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg12 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg13 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg14 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg15 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg16 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  arg17 := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  src := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  dst := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  invroot := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))
  column := by
    first
      | exact W14_of_ne m ρ c _ (by decide)
      | exact (W14_arr m ρ c 0).trans (((dat7 (V13 m ρ) c).arrAt_in 0 rfl _).trans (A_eq7 (V13 m ρ) c 0))
      | exact (W14_arr m ρ c 1).trans (((dat7 (V13 m ρ) c).arrAt_in 1 rfl _).trans (A_eq7 (V13 m ρ) c 1))
      | exact (W14_arr m ρ c 2).trans (((dat7 (V13 m ρ) c).arrAt_in 2 rfl _).trans (A_eq7 (V13 m ρ) c 2))

/-- Region 8 writes none of the carried buffers. -/
theorem region8_keeps (c : Dev nD) : Kept (W15 m ρ c) (W14 m ρ c) where
  arg0 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg2 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg3 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg4 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg5 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg6 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg7 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg8 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg9 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg10 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg11 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg12 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg13 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg14 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg15 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg16 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  arg17 := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  src := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  dst := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  invroot := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))
  column := by
    first
      | exact W15_of_ne m ρ c _ (by decide)
      | exact (W15_arr m ρ c 0).trans (((dat8 (V14 m ρ) c).arrAt_in 0 rfl _).trans (A_eq8 (V14 m ρ) c 0))
      | exact (W15_arr m ρ c 1).trans (((dat8 (V14 m ρ) c).arrAt_in 1 rfl _).trans (A_eq8 (V14 m ρ) c 1))
      | exact (W15_arr m ρ c 2).trans (((dat8 (V14 m ρ) c).arrAt_in 2 rfl _).trans (A_eq8 (V14 m ρ) c 2))

/-- Region 9 writes none of the carried buffers. -/
theorem region9_keeps (c : Dev nD) : Kept (W17 m ρ c) (W16 m ρ c) where
  arg0 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg2 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg3 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg4 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg5 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg6 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg7 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg8 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg9 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg10 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg11 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg12 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg13 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg14 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg15 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg16 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  arg17 := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  src := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  dst := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  invroot := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))
  column := by
    first
      | exact W17_of_ne m ρ c _ (by decide)
      | exact (W17_arr m ρ c 0).trans (((dat9 (V16 m ρ) c).arrAt_in 0 rfl _).trans (A_eq9 (V16 m ρ) c 0))
      | exact (W17_arr m ρ c 1).trans (((dat9 (V16 m ρ) c).arrAt_in 1 rfl _).trans (A_eq9 (V16 m ρ) c 1))
      | exact (W17_arr m ρ c 2).trans (((dat9 (V16 m ρ) c).arrAt_in 2 rfl _).trans (A_eq9 (V16 m ρ) c 2))

/-- Region 10 writes none of the carried buffers. -/
theorem region10_keeps (c : Dev nD) : Kept (W18 m ρ c) (W17 m ρ c) where
  arg0 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg2 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg3 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg4 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg5 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg6 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg7 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg8 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg9 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg10 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg11 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg12 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg13 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg14 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg15 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg16 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  arg17 := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  src := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  dst := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  invroot := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))
  column := by
    first
      | exact W18_of_ne m ρ c _ (by decide)
      | exact (W18_arr m ρ c 0).trans (((dat10 (V17 m ρ) c).arrAt_in 0 rfl _).trans (A_eq10 (V17 m ρ) c 0))
      | exact (W18_arr m ρ c 1).trans (((dat10 (V17 m ρ) c).arrAt_in 1 rfl _).trans (A_eq10 (V17 m ρ) c 1))
      | exact (W18_arr m ρ c 2).trans (((dat10 (V17 m ρ) c).arrAt_in 2 rfl _).trans (A_eq10 (V17 m ρ) c 2))

/-- Region 11 writes none of the carried buffers. -/
theorem region11_keeps (c : Dev nD) : Kept (W20 m ρ c) (W19 m ρ c) where
  arg0 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg2 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg3 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg4 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg5 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg6 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg7 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg8 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg9 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg10 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg11 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg12 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg13 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg14 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg15 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg16 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  arg17 := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  src := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  dst := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  invroot := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))
  column := by
    first
      | exact W20_of_ne m ρ c _ (by decide)
      | exact (W20_arr m ρ c 0).trans (((dat11 (V19 m ρ) c).arrAt_in 0 rfl _).trans (A_eq11 (V19 m ρ) c 0))
      | exact (W20_arr m ρ c 1).trans (((dat11 (V19 m ρ) c).arrAt_in 1 rfl _).trans (A_eq11 (V19 m ρ) c 1))
      | exact (W20_arr m ρ c 2).trans (((dat11 (V19 m ρ) c).arrAt_in 2 rfl _).trans (A_eq11 (V19 m ρ) c 2))

/-- Region 12 writes none of the carried buffers. -/
theorem region12_keeps (c : Dev nD) : Kept (W22 m ρ c) (W21 m ρ c) where
  arg0 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg2 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg3 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg4 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg5 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg6 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg7 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg8 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg9 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg10 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg11 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg12 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg13 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg14 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg15 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg16 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  arg17 := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  src := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  dst := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  invroot := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))
  column := by
    first
      | exact W22_of_ne m ρ c _ (by decide)
      | exact (W22_arr m ρ c 0).trans (((dat12 (V21 m ρ) c).arrAt_in 0 rfl _).trans (A_eq12 (V21 m ρ) c 0))
      | exact (W22_arr m ρ c 1).trans (((dat12 (V21 m ρ) c).arrAt_in 1 rfl _).trans (A_eq12 (V21 m ρ) c 1))
      | exact (W22_arr m ρ c 2).trans (((dat12 (V21 m ρ) c).arrAt_in 2 rfl _).trans (A_eq12 (V21 m ρ) c 2))

/-- The host stretch 1 writes none of the carried buffers. -/
theorem host1_keeps (c : Dev nD) : Kept (W3 m ρ c) (W2 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 3 writes none of the carried buffers. -/
theorem host3_keeps (c : Dev nD) : Kept (W6 m ρ c) (W5 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 5 writes none of the carried buffers. -/
theorem host5_keeps (c : Dev nD) : Kept (W9 m ρ c) (W8 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 6 writes none of the carried buffers. -/
theorem host6_keeps (c : Dev nD) : Kept (W11 m ρ c) (W10 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 7 writes none of the carried buffers. -/
theorem host7_keeps (c : Dev nD) : Kept (W13 m ρ c) (W12 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 9 writes none of the carried buffers. -/
theorem host9_keeps (c : Dev nD) : Kept (W16 m ρ c) (W15 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 11 writes none of the carried buffers. -/
theorem host11_keeps (c : Dev nD) : Kept (W19 m ρ c) (W18 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- The host stretch 12 writes none of the carried buffers. -/
theorem host12_keeps (c : Dev nD) : Kept (W21 m ρ c) (W20 m ρ c) where
  arg0 := by host_keeps
  arg2 := by host_keeps
  arg3 := by host_keeps
  arg4 := by host_keeps
  arg5 := by host_keeps
  arg6 := by host_keeps
  arg7 := by host_keeps
  arg8 := by host_keeps
  arg9 := by host_keeps
  arg10 := by host_keeps
  arg11 := by host_keeps
  arg12 := by host_keeps
  arg13 := by host_keeps
  arg14 := by host_keeps
  arg15 := by host_keeps
  arg16 := by host_keeps
  arg17 := by host_keeps
  src := by host_keeps
  dst := by host_keeps
  invroot := by host_keeps
  column := by host_keeps

/-- At every boundary up to the last region's exit a carried buffer holds what it held after the first stretch. -/
theorem carried_at2 (c : Dev nD) : Kept (W2 m ρ c) (W1 m ρ c) := region0_keeps m ρ c
theorem carried_at3 (c : Dev nD) : Kept (W3 m ρ c) (W1 m ρ c) := (host1_keeps m ρ c).trans (carried_at2 m ρ c)
theorem carried_at4 (c : Dev nD) : Kept (W4 m ρ c) (W1 m ρ c) := (region1_keeps m ρ c).trans (carried_at3 m ρ c)
theorem carried_at5 (c : Dev nD) : Kept (W5 m ρ c) (W1 m ρ c) := (region2_keeps m ρ c).trans (carried_at4 m ρ c)
theorem carried_at6 (c : Dev nD) : Kept (W6 m ρ c) (W1 m ρ c) := (host3_keeps m ρ c).trans (carried_at5 m ρ c)
theorem carried_at7 (c : Dev nD) : Kept (W7 m ρ c) (W1 m ρ c) := (region3_keeps m ρ c).trans (carried_at6 m ρ c)
theorem carried_at8 (c : Dev nD) : Kept (W8 m ρ c) (W1 m ρ c) := (region4_keeps m ρ c).trans (carried_at7 m ρ c)
theorem carried_at9 (c : Dev nD) : Kept (W9 m ρ c) (W1 m ρ c) := (host5_keeps m ρ c).trans (carried_at8 m ρ c)
theorem carried_at10 (c : Dev nD) : Kept (W10 m ρ c) (W1 m ρ c) := (region5_keeps m ρ c).trans (carried_at9 m ρ c)
theorem carried_at11 (c : Dev nD) : Kept (W11 m ρ c) (W1 m ρ c) := (host6_keeps m ρ c).trans (carried_at10 m ρ c)
theorem carried_at12 (c : Dev nD) : Kept (W12 m ρ c) (W1 m ρ c) := (region6_keeps m ρ c).trans (carried_at11 m ρ c)
theorem carried_at13 (c : Dev nD) : Kept (W13 m ρ c) (W1 m ρ c) := (host7_keeps m ρ c).trans (carried_at12 m ρ c)
theorem carried_at14 (c : Dev nD) : Kept (W14 m ρ c) (W1 m ρ c) := (region7_keeps m ρ c).trans (carried_at13 m ρ c)
theorem carried_at15 (c : Dev nD) : Kept (W15 m ρ c) (W1 m ρ c) := (region8_keeps m ρ c).trans (carried_at14 m ρ c)
theorem carried_at16 (c : Dev nD) : Kept (W16 m ρ c) (W1 m ρ c) := (host9_keeps m ρ c).trans (carried_at15 m ρ c)
theorem carried_at17 (c : Dev nD) : Kept (W17 m ρ c) (W1 m ρ c) := (region9_keeps m ρ c).trans (carried_at16 m ρ c)
theorem carried_at18 (c : Dev nD) : Kept (W18 m ρ c) (W1 m ρ c) := (region10_keeps m ρ c).trans (carried_at17 m ρ c)
theorem carried_at19 (c : Dev nD) : Kept (W19 m ρ c) (W1 m ρ c) := (host11_keeps m ρ c).trans (carried_at18 m ρ c)
theorem carried_at20 (c : Dev nD) : Kept (W20 m ρ c) (W1 m ρ c) := (region11_keeps m ρ c).trans (carried_at19 m ρ c)
theorem carried_at21 (c : Dev nD) : Kept (W21 m ρ c) (W1 m ρ c) := (host12_keeps m ρ c).trans (carried_at20 m ρ c)
theorem carried_at22 (c : Dev nD) : Kept (W22 m ρ c) (W1 m ρ c) := (region12_keeps m ρ c).trans (carried_at21 m ρ c)

end Cert.KernelIdeal.Bridge

end
-- ==== Proof.LibLayout.lean ====
import Idealize.ShloMosaic.Lib.Pipeline.Value
import Idealize.ShloMosaic.Lib.ValueIdx

/-!
  Two layout facts. A vector of n entries reshaped to a [1, n] row is the vector broadcast along a new leading axis, and
  reshaped to an [n, 1] column it is the vector broadcast along a new trailing axis: in both cases entry (·, j) or (i, ·)
  of the result is entry j or i of the vector, because the row-major position of an index does not see a unit axis.
-/

noncomputable section

namespace Cert.Layout

open Idealize.ShloMosaic Idealize.ShloMosaic.ValueIdx

variable {α : Type} {n : Nat}

/-- A reshape of [n] to [1, n] is the broadcast that puts the vector's axis second. -/
theorem row_reshape_eq_broadcast (v : (⟨1, ![n]⟩ : Shape).Idx → α)
    (h : (⟨1, ![n]⟩ : Shape).ShapeCasts ⟨2, ![1, n]⟩) (hb : (⟨1, ![n]⟩ : Shape).BroadcastsInDim ⟨2, ![1, n]⟩ ![1]) :
    shapeCast ⟨2, ![1, n]⟩ v h = broadcastInDim ⟨2, ![1, n]⟩ ![1] hb v := by
  funext j
  have h0 : (j 0).val = 0 := by have := (j 0).isLt; simp at this; omega
  have hr : shapeCast ⟨2, ![1, n]⟩ v h j = v (ix1 (⟨(j 1).val, (j 1).isLt⟩ : Fin n)) :=
    shapeCast_apply v h j (ix1 (⟨(j 1).val, (j 1).isLt⟩ : Fin n)) (by
      rw [Shape.rowMajor_val_one, Shape.rowMajor_val_two, h0]; simp; rfl)
  rw [hr]
  symm
  refine broadcastInDim_apply _ _ _ _ (ix1 (⟨(j 1).val, (j 1).isLt⟩ : Fin n)) (fun a => ?_)
  have ha : a = 0 := Subsingleton.elim _ _
  subst ha
  show (j 1).val = if n = 1 then 0 else (j 1).val
  split_ifs with h1
  · have := (j 1).isLt; simp at this; omega
  · rfl

/-- A reshape of [n] to [n, 1] is the broadcast that puts the vector's axis first. -/
theorem column_reshape_eq_broadcast (v : (⟨1, ![n]⟩ : Shape).Idx → α)
    (h : (⟨1, ![n]⟩ : Shape).ShapeCasts ⟨2, ![n, 1]⟩) (hb : (⟨1, ![n]⟩ : Shape).BroadcastsInDim ⟨2, ![n, 1]⟩ ![0]) :
    shapeCast ⟨2, ![n, 1]⟩ v h = broadcastInDim ⟨2, ![n, 1]⟩ ![0] hb v := by
  funext j
  have h1 : (j 1).val = 0 := by have := (j 1).isLt; simp at this; omega
  have hr : shapeCast ⟨2, ![n, 1]⟩ v h j = v (ix1 (⟨(j 0).val, (j 0).isLt⟩ : Fin n)) :=
    shapeCast_apply v h j (ix1 (⟨(j 0).val, (j 0).isLt⟩ : Fin n)) (by
      rw [Shape.rowMajor_val_one, Shape.rowMajor_val_two, h1]; simp; rfl)
  rw [hr]
  symm
  refine broadcastInDim_apply _ _ _ _ (ix1 (⟨(j 0).val, (j 0).isLt⟩ : Fin n)) (fun a => ?_)
  have ha : a = 0 := Subsingleton.elim _ _
  subst ha
  show (j 0).val = if n = 1 then 0 else (j 0).val
  split_ifs with hn
  · have := (j 0).isLt; simp at this; omega
  · rfl

end Cert.Layout

end
-- ==== Proof.Stage0.lean ====
import proofs.«152908_j39247411151511_1_alg».proof.Proof.Keep
import proofs.«152908_j39247411151511_1_alg».proof.Proof.ReadP
import proofs.«152908_j39247411151511_1_alg».proof.Proof.LibLayout
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  The first stretch of host operations, read at the buffers the later segments use: the two rows of the edge list, the
  inverse square root of the in-degree plus one, and its square as a column. Each is the same composition of host
  operations that the reference applies to the same argument, so each is the reference's own stage of that argument; the
  column is a reshape here and a broadcast there, which agree entry by entry.
-/

theorem arg0_at1 : W1 m ρ c (Proc.devRef .tc main_arg0) = m ((c : Thread nD τ).loc main_arg0) :=
  (by host_keeps : W1 m ρ c (Proc.devRef .tc main_arg0) = W0 m ρ c (Proc.devRef .tc main_arg0)).trans rfl
theorem arg1_at1 : W1 m ρ c (Proc.devRef .tc main_arg1) = m ((c : Thread nD τ).loc main_arg1) :=
  (by host_keeps : W1 m ρ c (Proc.devRef .tc main_arg1) = W0 m ρ c (Proc.devRef .tc main_arg1)).trans rfl
theorem arg2_at1 : W1 m ρ c (Proc.devRef .tc main_arg2) = m ((c : Thread nD τ).loc main_arg2) :=
  (by host_keeps : W1 m ρ c (Proc.devRef .tc main_arg2) = W0 m ρ c (Proc.devRef .tc main_arg2)).trans rfl
theorem arg3_at1 : W1 m ρ c (Proc.devRef .tc main_arg3) = m ((c : Thread nD τ).loc main_arg3) :=
  (by host_keeps : W1 m ρ c (Proc.devRef .tc main_arg3) = W0 m ρ c (Proc.devRef .tc main_arg3)).trans rfl
theorem arg4_at1 : W1 m ρ c (Proc.devRef .tc main_arg4) = m ((c : Thread nD τ).loc main_arg4) :=
  (by host_keeps : W1 m ρ c (Proc.devRef .tc main_arg4) = W0 m ρ c (Proc.devRef .tc main_arg4)).trans rfl
theorem arg5_at1 : W1 m ρ c (Proc.devRef .tc main_arg5) = m ((c : Thread nD τ).loc main_arg5) :=
  (by host_keeps : W1 m ρ c (Proc.devRef .tc main_arg5) = W0 m ρ c (Proc.devRef .tc main_arg5)).trans rfl
theorem arg6_at1 : W1 m ρ c (Proc.devRef .tc main_arg6) = m ((c : Thread nD τ).loc main_arg6) :=
  (by host_keeps : W1 m ρ c (Proc.devRef .tc main_arg6) = W0 m ρ c (Proc.devRef .tc main_arg6)).trans rfl
theorem arg7_at1 : W1 m ρ c (Proc.devRef .tc main_arg7) = m ((c : Thread nD τ).loc main_arg7) :=
  (by host_keeps : W1 m ρ c (Proc.devRef .tc main_arg7) = W0 m ρ c (Proc.devRef .tc main_arg7)).trans rfl
theorem arg8_at1 : W1 m ρ c (Proc.devRef .tc main_arg8) = m ((c : Thread nD τ).loc main_arg8) :=
  (by host_keeps : W1 m ρ c (Proc.devRef .tc main_arg8) = W0 m ρ c (Proc.devRef .tc main_arg8)).trans rfl
theorem arg9_at1 : W1 m ρ c (Proc.devRef .tc main_arg9) = m ((c : Thread nD τ).loc main_arg9) :=
  (by host_keeps : W1 m ρ c (Proc.devRef .tc main_arg9) = W0 m ρ c (Proc.devRef .tc main_arg9)).trans rfl
theorem arg10_at1 : W1 m ρ c (Proc.devRef .tc main_arg10) = m ((c : Thread nD τ).loc main_arg10) :=
  (by host_keeps : W1 m ρ c (Proc.devRef .tc main_arg10) = W0 m ρ c (Proc.devRef .tc main_arg10)).trans rfl
theorem arg11_at1 : W1 m ρ c (Proc.devRef .tc main_arg11) = m ((c : Thread nD τ).loc main_arg11) :=
  (by host_keeps : W1 m ρ c (Proc.devRef .tc main_arg11) = W0 m ρ c (Proc.devRef .tc main_arg11)).trans rfl
theorem arg12_at1 : W1 m ρ c (Proc.devRef .tc main_arg12) = m ((c : Thread nD τ).loc main_arg12) :=
  (by host_keeps : W1 m ρ c (Proc.devRef .tc main_arg12) = W0 m ρ c (Proc.devRef .tc main_arg12)).trans rfl
theorem arg13_at1 : W1 m ρ c (Proc.devRef .tc main_arg13) = m ((c : Thread nD τ).loc main_arg13) :=
  (by host_keeps : W1 m ρ c (Proc.devRef .tc main_arg13) = W0 m ρ c (Proc.devRef .tc main_arg13)).trans rfl
theorem arg14_at1 : W1 m ρ c (Proc.devRef .tc main_arg14) = m ((c : Thread nD τ).loc main_arg14) :=
  (by host_keeps : W1 m ρ c (Proc.devRef .tc main_arg14) = W0 m ρ c (Proc.devRef .tc main_arg14)).trans rfl
theorem arg15_at1 : W1 m ρ c (Proc.devRef .tc main_arg15) = m ((c : Thread nD τ).loc main_arg15) :=
  (by host_keeps : W1 m ρ c (Proc.devRef .tc main_arg15) = W0 m ρ c (Proc.devRef .tc main_arg15)).trans rfl
theorem arg16_at1 : W1 m ρ c (Proc.devRef .tc main_arg16) = m ((c : Thread nD τ).loc main_arg16) :=
  (by host_keeps : W1 m ρ c (Proc.devRef .tc main_arg16) = W0 m ρ c (Proc.devRef .tc main_arg16)).trans rfl
theorem arg17_at1 : W1 m ρ c (Proc.devRef .tc main_arg17) = m ((c : Thread nD τ).loc main_arg17) :=
  (by host_keeps : W1 m ρ c (Proc.devRef .tc main_arg17) = W0 m ρ c (Proc.devRef .tc main_arg17)).trans rfl

/-- The sources' row of the edge list. -/
theorem sources_at1 : W1 m ρ c (Proc.devRef .tc main_v1) = (Cert.ReferenceIdeal.ReadP.val_main_v1 (F := Ideal) (m ((c : Thread nD τ).loc main_arg1))) := by
  show StableHlo.after hostOps0 (W0 m ρ c) (Proc.devRef .tc main_v1) = _
  dsimp only [hostOps0]
  after_results
  rfl

/-- The targets' row of the edge list. -/
theorem targets_at1 : W1 m ρ c (Proc.devRef .tc main_v3) = (Cert.ReferenceIdeal.ReadP.val_main_v3 (F := Ideal) (m ((c : Thread nD τ).loc main_arg1))) := by
  show StableHlo.after hostOps0 (W0 m ρ c) (Proc.devRef .tc main_v3) = _
  dsimp only [hostOps0]
  after_results
  rfl

/-- The inverse square root of the degree (the count of edges into a node, plus one). -/
theorem invroot_at1 : W1 m ρ c (Proc.devRef .tc main_v10) = (Cert.ReferenceIdeal.ReadP.val_main_v10 (F := Ideal) (m ((c : Thread nD τ).loc main_arg1))) := by
  show StableHlo.after hostOps0 (W0 m ρ c) (Proc.devRef .tc main_v10) = _
  dsimp only [hostOps0]
  after_results
  rfl

/-- Its square as a column: reshaped here, broadcast along a trailing axis in the reference. -/
theorem column_at1 : W1 m ρ c (Proc.devRef .tc main_v12) = (Cert.ReferenceIdeal.ReadP.val_main_v41 (F := Ideal) (m ((c : Thread nD τ).loc main_arg1))) := by
  show StableHlo.after hostOps0 (W0 m ρ c) (Proc.devRef .tc main_v12) = _
  dsimp only [hostOps0]
  after_results
  refine (Cert.Layout.column_reshape_eq_broadcast _ _ Cert.ReferenceIdeal.Gen.bcast_S100000_S100000x1_0).trans ?_
  rfl

end Cert.KernelIdeal.Bridge

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«152908_j39247411151511_1_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.Lin4.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 32] block of the input by the whole
  [32, 64] weight (both rounded to a narrower format first, which is the identity over the extended reals) into a zero
  accumulator, stores the product, and stores a second copy scaled row by row by the [5000, 1] block of a column. The twenty
  row blocks tile the [100000, 64] outputs, so after the region the first output is the whole matrix product and the
  second the product scaled by the column broadcast along the rows.
-/

theorem zero_offsets4 : (![0, 0] : Fin 2 → Nat) = fun _ => 0 := funext fun a => by fin_cases a <;> rfl

/-- The block index of every window at grid point `t`: the row-blocked windows sit at row block `t`, the weight at the origin. -/
theorem block_index4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- The host's matrix product at an entry is the inner product of a row with a column. -/
theorem host_product_at4 (l : FVec Ideal Cert.ReferenceIdeal.S100000x32 .f32) (r : FVec Ideal Cert.ReferenceIdeal.S32x64 .f32)
    (p : Fin 100000) (q : Fin 64) :
    Host.dotGeneral Cert.ReferenceIdeal.dot_S100000x32_S32x64_S100000x64_1_0_0_1_n_n none l r (ix2 p q)
      = ∑ k : Fin 32, l (ix2 p k) * r (ix2 k q) := by
  simp only [Host.dotGeneral]
  exact Cert.DotNN.dotGeneral_apply _ rfl _ _ l r p q

/-- The stored product at entry (p, q) of the block. -/
theorem product_at4 (x0 : Vec Ideal S5000x32 .f32) (x1 : Vec Ideal S32x64 .f32) (p : Fin 5000) (q : Fin 64) :
    k4_pay1 (F := Ideal) x0 x1 (ix2 p q) = ∑ k : Fin 32, x0 (ix2 p k) * x1 (ix2 k q) := by
  unfold k4_pay1
  rw [shapeCast_self]
  exact Cert.MatmulNN.matmul_zero_apply _ rfl none _ _ p q

/-- The scaled copy at entry (p, q): the product times the column's entry of row p. -/
theorem scaled_at4 (x0 : Vec Ideal S5000x32 .f32) (x1 : Vec Ideal S32x64 .f32) (x2 : Vec Ideal S5000x1 .f32)
    (p : Fin 5000) (q : Fin 64) :
    k4_pay2 (F := Ideal) x0 x1 x2 (ix2 p q) = (∑ k : Fin 32, x0 (ix2 p k) * x1 (ix2 k q)) * x2 (ix2 p 0) := by
  unfold k4_pay2
  rw [mulf_apply, product_at4, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry4 (t : Fin cfg4.N) (p : Fin 5000) (k : Fin 32) :
    ((cfg4.win 0).blk t).view.emb (ix2 p k)
      = ix2 (⟨t.val * 5000 + p.val, by have ht : t.val < 20 := t.isLt; have := p.isLt; omega⟩ : Fin 100000) k := by
  obtain ⟨e00, e01, -⟩ := block_index4 t
  funext a; apply Fin.ext
  match a with
  | ⟨0, _⟩ => show win4_0.index t (0 : Fin 2) * 5000 + 1 * p.val = t.val * 5000 + p.val; omega
  | ⟨1, _⟩ => show win4_0.index t (1 : Fin 2) * 32 + 1 * k.val = k.val; omega

/-- The weight's block is the whole weight. -/
theorem weight_entry4 (t : Fin cfg4.N) (k : Fin 32) (q : Fin 64) :
    ((cfg4.win 1).blk t).view.emb (ix2 k q) = ix2 k q := by
  obtain ⟨-, -, e10, e11, -⟩ := block_index4 t
  funext a; apply Fin.ext
  match a with
  | ⟨0, _⟩ => show win4_1.index t (0 : Fin 2) * 32 + 1 * k.val = k.val; omega
  | ⟨1, _⟩ => show win4_1.index t (1 : Fin 2) * 64 + 1 * q.val = q.val; omega

/-- Where block entry (p, 0) of the column sits in its array. -/
theorem column_entry4 (t : Fin cfg4.N) (p : Fin 5000) :
    ((cfg4.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index4 t
  funext a; apply Fin.ext
  match a with
  | ⟨0, _⟩ => show win4_2.index t (0 : Fin 2) * 5000 + 1 * p.val = t.val * 5000 + p.val; omega
  | ⟨1, _⟩ => show win4_2.index t (1 : Fin 2) * 1 + 1 * 0 = 0; omega

/-- Where block entry (p, q) of the first output sits in its array. -/
theorem product_entry4 (t : Fin cfg4.N) (p : Fin 5000) (q : Fin 64) :
    ((cfg4.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index4 t
  funext a; apply Fin.ext
  match a with
  | ⟨0, _⟩ => show win4_3.index t (0 : Fin 2) * 5000 + 1 * p.val = t.val * 5000 + p.val; omega
  | ⟨1, _⟩ => show win4_3.index t (1 : Fin 2) * 64 + 1 * q.val = q.val; omega

/-- Where block entry (p, q) of the second output sits in its array. -/
theorem scaled_entry4 (t : Fin cfg4.N) (p : Fin 5000) (q : Fin 64) :
    ((cfg4.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index4 t
  funext a; apply Fin.ext
  match a with
  | ⟨0, _⟩ => show win4_4.index t (0 : Fin 2) * 5000 + 1 * p.val = t.val * 5000 + p.val; omega
  | ⟨1, _⟩ => show win4_4.index t (1 : Fin 2) * 64 + 1 * q.val = q.val; omega

/-- The whole matrix product, spelt as the host's operation on the arrays the region finds. -/
abbrev product4 (c : Dev nD) : FVec Ideal Cert.ReferenceIdeal.S100000x64 .f32 :=
  Host.dotGeneral (F := Ideal) (φ₁ := .f32) (φ₂ := .f32) Cert.ReferenceIdeal.dot_S100000x32_S32x64_S100000x64_1_0_0_1_n_n none (V c main_v74) (V c main_arg7)

/-- The product scaled row by row by the column, spelt as the host's operations. -/
abbrev scaled4 (c : Dev nD) : FVec Ideal Cert.ReferenceIdeal.S100000x64 .f32 :=
  mulf (product4 V c) (broadcastInDim Cert.ReferenceIdeal.S100000x64 ![0, 1] Cert.ReferenceIdeal.Gen.bcast_S100000x1_S100000x64_0_1 (V c main_v12))

/-- What point `t` writes back to the first output is block `t` of the whole product. -/
theorem product_flushed4 (c : Dev nD) (t : Fin cfg4.N) :
    (dat4 (F := Ideal) V c).flushed 3 t = ((cfg4.win 3).blk t).view.read (Elt Ideal) (product4 V c) := by
  show (cfg4.win 3).cut (grid4.coords t) ((dat4 V c).after 3 t) = _
  rw [after4_3]
  unfold out4_3
  rw [View.canon_unit_zero zero_offsets4]
  simp only [View.ld_unit_zero (S := S5000x32) zero_offsets4, View.ld_unit_zero (S := S32x64) zero_offsets4]
  funext j
  obtain ⟨p, q, rfl⟩ : ∃ (p : Fin 5000) (q : Fin 64), j = ix2 p q := ⟨j 0, j 1, eq_ix2 j⟩
  show k4_pay1 (F := Ideal) (iblk4 V c 0 t) (iblk4 V c 1 t) (ix2 p q)
    = product4 V c (((cfg4.win 3).blk t).view.emb (ix2 p q))
  rw [product_at4, product_entry4]
  unfold product4
  rw [host_product_at4]
  refine Finset.sum_congr rfl fun k _ => ?_
  refine congrArg₂ (· * ·) ?_ ?_
  · show V c main_v74 (((cfg4.win 0).blk t).view.emb (ix2 p k)) = _
    rw [input_entry4]
  · show V c main_arg7 (((cfg4.win 1).blk t).view.emb (ix2 k q)) = _
    rw [weight_entry4]

/-- What point `t` writes back to the second output is block `t` of the scaled product. -/
theorem scaled_flushed4 (c : Dev nD) (t : Fin cfg4.N) :
    (dat4 (F := Ideal) V c).flushed 4 t = ((cfg4.win 4).blk t).view.read (Elt Ideal) (scaled4 V c) := by
  show (cfg4.win 4).cut (grid4.coords t) ((dat4 V c).after 4 t) = _
  rw [after4_4]
  unfold out4_4
  rw [View.canon_unit_zero zero_offsets4]
  simp only [View.ld_unit_zero (S := S5000x32) zero_offsets4, View.ld_unit_zero (S := S32x64) zero_offsets4,
    View.ld_unit_zero (S := S5000x1) zero_offsets4]
  funext j
  obtain ⟨p, q, rfl⟩ : ∃ (p : Fin 5000) (q : Fin 64), j = ix2 p q := ⟨j 0, j 1, eq_ix2 j⟩
  show k4_pay2 (F := Ideal) (iblk4 V c 0 t) (iblk4 V c 1 t) (iblk4 V c 2 t) (ix2 p q)
    = scaled4 V c (((cfg4.win 4).blk t).view.emb (ix2 p q))
  rw [scaled_at4, scaled_entry4]
  unfold scaled4 product4
  rw [mulf_apply, host_product_at4]
  congr 1
  · refine Finset.sum_congr rfl fun k _ => ?_
    refine congrArg₂ (· * ·) ?_ ?_
    · show V c main_v74 (((cfg4.win 0).blk t).view.emb (ix2 p k)) = _
      rw [input_entry4]
    · show V c main_arg7 (((cfg4.win 1).blk t).view.emb (ix2 k q)) = _
      rw [weight_entry4]
  · show V c main_v12 (((cfg4.win 2).blk t).view.emb (ix2 p (0 : Fin 1))) = _
    rw [column_entry4]
    exact (broadcastInDim_apply _ _ _ _ _ (fun a => by match a with | ⟨0, _⟩ => rfl | ⟨1, _⟩ => rfl)).symm

/-- An index of the first output's array is in point `t`'s block iff each coordinate is in the block's range. -/
theorem mem_product_block4 (t : Fin cfg4.N) (i : S100000x64.Idx) :
    i ∈ ((cfg4.win 3).blk t).view.set ↔ ∀ a : Fin 2, win4_3.index t a * S5000x64.size a ≤ (i a).val ∧ (i a).val < win4_3.index t a * S5000x64.size a + S5000x64.size a := by
  show i ∈ ((View.whole main_v75_0).slice (win4_3.rect t)).set ↔ _
  rw [View.set_slice_whole, Rect.mem_set_unit]
  exact Iff.rfl

theorem mem_scaled_block4 (t : Fin cfg4.N) (i : S100000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v75_1).slice (win4_4.rect t)).set ↔ _
  rw [View.set_slice_whole, Rect.mem_set_unit]
  exact Iff.rfl

/-- Row r lies in row block r / 5000: the twenty blocks tile each output. -/
theorem product_cover4 (i : S100000x64.Idx) :
    ∃ t : Fin cfg4.N, (cfg4.win 3).flush t = true ∧ i ∈ ((cfg4.win 3).blk t).view.set := by
  have hi0 : (i 0).val < 100000 := (i 0).isLt
  have hi1 : (i 1).val < 64 := (i 1).isLt
  have hb : (i 0).val / 5000 < 20 := by omega
  obtain ⟨-, -, -, -, -, -, e30, e31, -⟩ := block_index4 ⟨(i 0).val / 5000, hb⟩
  refine ⟨⟨(i 0).val / 5000, hb⟩, flush4_3 _, ?_⟩
  rw [mem_product_block4]
  intro a
  match a with
  | ⟨0, _⟩ =>
    show win4_3.index ⟨(i 0).val / 5000, hb⟩ (0 : Fin 2) * 5000 ≤ (i 0).val ∧ (i 0).val < win4_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, hb⟩ (1 : Fin 2) * 64 ≤ (i 1).val ∧ (i 1).val < win4_3.index ⟨(i 0).val / 5000, hb⟩ (1 : Fin 2) * 64 + 64
    rw [e31]; omega

theorem scaled_cover4 (i : S100000x64.Idx) :
    ∃ t : Fin cfg4.N, (cfg4.win 4).flush t = true ∧ i ∈ ((cfg4.win 4).blk t).view.set := by
  have hi0 : (i 0).val < 100000 := (i 0).isLt
  have hi1 : (i 1).val < 64 := (i 1).isLt
  have hb : (i 0).val / 5000 < 20 := by omega
  obtain ⟨-, -, -, -, -, -, -, -, e40, e41⟩ := block_index4 ⟨(i 0).val / 5000, hb⟩
  refine ⟨⟨(i 0).val / 5000, hb⟩, flush4_4 _, ?_⟩
  rw [mem_scaled_block4]
  intro a
  match a with
  | ⟨0, _⟩ =>
    show win4_4.index ⟨(i 0).val / 5000, hb⟩ (0 : Fin 2) * 5000 ≤ (i 0).val ∧ (i 0).val < win4_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win4_4.index ⟨(i 0).val / 5000, hb⟩ (1 : Fin 2) * 64 ≤ (i 1).val ∧ (i 1).val < win4_4.index ⟨(i 0).val / 5000, hb⟩ (1 : Fin 2) * 64 + 64
    rw [e41]; omega

/-- After the region the first output is the whole matrix product of the arrays the region found. -/
theorem linear4_product (c : Dev nD) : (dat4 (F := Ideal) V c).arrAt 3 cfg4.N = product4 V c :=
  (dat4 (F := Ideal) V c).arrAt_eq_of_cover 3 (product4 V c) (fun t _ => product_flushed4 V c t) (product_cover4)

/-- After the region the second output is that product scaled row by row by the column. -/
theorem linear4_scaled (c : Dev nD) : (dat4 (F := Ideal) V c).arrAt 4 cfg4.N = scaled4 V c :=
  (dat4 (F := Ideal) V c).arrAt_eq_of_cover 4 (scaled4 V c) (fun t _ => scaled_flushed4 V c t) (scaled_cover4)

end Cert.KernelIdeal.Bridge

end
-- ==== Proof.Comb5.lean ====
/- Region 5 of the kernel program (the combine step at width 64): the array its output window leaves is
   max((agg + hs) + bias, 0), index by index, of the three arrays the region reads, the [1, 64] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb5_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb5_idx : ∀ t : Fin cfg5.N, win5_0.index t (0 : Fin 2) = win5_3.index t (0 : Fin 2)
    ∧ win5_0.index t (1 : Fin 2) = win5_3.index t (1 : Fin 2)
    ∧ win5_1.index t (0 : Fin 2) = win5_3.index t (0 : Fin 2)
    ∧ win5_1.index t (1 : Fin 2) = win5_3.index t (1 : Fin 2)
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- The body's payload at an index: max((x0(p,q) + x1(p,q)) + x2(0,q), 0). The shape casts are to the same shape, the
    [1, 64] block is repeated down the rows, the zero is a splat. -/
theorem comb5_pay_apply (x0 x1 : Vec Ideal S5000x64 .f32) (x2 : Vec Ideal S1x64 .f32) (p : Fin 5000) (q : Fin 64) :
    k5_pay1 (F := Ideal) x0 x1 x2 (ix2 p q)
      = max ((x0 (ix2 p q) + x1 (ix2 p q)) + x2 (ix2 0 q)) (Scalar.ofBits (F := Ideal) .f32 0x00000000#32) := by
  unfold k5_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb5_fn (A H : (⟨Cert.ReferenceIdeal.S100000x64, .f32⟩ : BufTy).Contents (Elt Ideal))
    (B : (⟨Cert.ReferenceIdeal.S1x64, .f32⟩ : BufTy).Contents (Elt Ideal)) :
    (⟨Cert.ReferenceIdeal.S100000x64, .f32⟩ : BufTy).Contents (Elt Ideal) :=
  maximumf (addf (addf A H) (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64 (constant (F := Ideal) Cert.ReferenceIdeal.S_ .f32 0x00000000#32))

/-- The row B repeated down the rows, at (p, q), is B(0, q). -/
theorem comb5_rows_apply (B : (⟨Cert.ReferenceIdeal.S1x64, .f32⟩ : BufTy).Contents (Elt Ideal)) (p : Fin 100000) (q : Fin 64) :
    broadcastInDim Cert.ReferenceIdeal.S100000x64 ![0, 1] Cert.ReferenceIdeal.Gen.bcast_S1x64_S100000x64_0_1 B (ix2 p q) = B (ix2 0 q) :=
  broadcastInDim_apply _ Cert.ReferenceIdeal.Gen.bcast_S1x64_S100000x64_0_1 B (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The zero repeated everywhere, at any index, is zero. -/
theorem comb5_zero_apply (i : Cert.ReferenceIdeal.S100000x64.Idx) :
    broadcastInDim Cert.ReferenceIdeal.S100000x64 ![] Cert.ReferenceIdeal.Gen.bcast_S_S100000x64 (constant (F := Ideal) Cert.ReferenceIdeal.S_ .f32 0x00000000#32) i
      = Scalar.ofBits (F := Ideal) .f32 0x00000000#32 :=
  (broadcastInDim_apply _ Cert.ReferenceIdeal.Gen.bcast_S_S100000x64 (constant (F := Ideal) Cert.ReferenceIdeal.S_ .f32 0x00000000#32) i
    (fun a => a.elim0) (fun a => a.elim0)).trans rfl

/-- That function at an index: max((A(p,q) + H(p,q)) + B(0,q), 0). -/
theorem comb5_fn_apply (A H : (⟨Cert.ReferenceIdeal.S100000x64, .f32⟩ : BufTy).Contents (Elt Ideal))
    (B : (⟨Cert.ReferenceIdeal.S1x64, .f32⟩ : BufTy).Contents (Elt Ideal)) (p : Fin 100000) (q : Fin 64) :
    comb5_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x64 ![0, 1] Cert.ReferenceIdeal.Gen.bcast_S1x64_S100000x64_0_1 B (ix2 p q))
      (broadcastInDim Cert.ReferenceIdeal.S100000x64 ![] Cert.ReferenceIdeal.Gen.bcast_S_S100000x64 (constant (F := Ideal) Cert.ReferenceIdeal.S_ .f32 0x00000000#32) (ix2 p q)) = _
  rw [comb5_rows_apply, comb5_zero_apply]

/-- ONE POINT, over plain vectors: when the two row-blocked input blocks are the arrays A and H read along an
    embedding e of block indices that keeps the column, and the bias block is the row B, the payload at j is the
    whole-array function at e j. -/
theorem comb5_point (A H : (⟨Cert.ReferenceIdeal.S100000x64, .f32⟩ : BufTy).Contents (Elt Ideal))
    (B : (⟨Cert.ReferenceIdeal.S1x64, .f32⟩ : BufTy).Contents (Elt Ideal))
    (x0 x1 : Vec Ideal S5000x64 .f32) (x2 : Vec Ideal S1x64 .f32) (e : S5000x64.Idx → Cert.ReferenceIdeal.S100000x64.Idx)
    (h0 : ∀ y, x0 y = A (e y)) (h1 : ∀ y, x1 y = H (e y)) (h2 : ∀ q : Fin 64, x2 (ix2 0 q) = B (ix2 0 q))
    (he : ∀ y, (e y 1).val = (y 1).val) (j : S5000x64.Idx) :
    k5_pay1 (F := Ideal) x0 x1 x2 j = comb5_fn A H B (e j) := by
  obtain ⟨p, q, rfl⟩ : ∃ (p : Fin 5000) (q : Fin 64), j = ix2 p q := ⟨j 0, j 1, eq_ix2 j⟩
  have hi : (e (ix2 p q) 1).val = q.val := he (ix2 p q)
  rw [comb5_pay_apply, h0, h1, h2]
  generalize e (ix2 p q) = i at hi ⊢
  obtain ⟨p', q', rfl⟩ : ∃ (p' : Fin 100000) (q' : Fin 64), i = ix2 p' q' := ⟨i 0, i 1, eq_ix2 i⟩
  have hq : q' = q := Fin.ext hi
  subst hq
  rw [comb5_fn_apply]

/-- An index of the output array is in point t's block iff each coordinate is in the block's range on its axis. -/
theorem comb5_mem_blk (t : Fin cfg5.N) (i : S100000x64.Idx) :
    i ∈ ((cfg5.win 3).blk t).view.set ↔ ∀ a : Fin 2, win5_3.index t a * S5000x64.size a ≤ (i a).val
      ∧ (i a).val < win5_3.index t a * S5000x64.size a + S5000x64.size a := by
  show i ∈ ((View.whole main_v105).slice (win5_3.rect t)).set ↔ _
  rw [View.set_slice_whole, Rect.mem_set_unit]
  exact Iff.rfl

/-- Every index of the output array lies in some point's block: row r lies in the block of point r / 5000. -/
theorem comb5_cover (i : S100000x64.Idx) :
    ∃ t : Fin cfg5.N, (cfg5.win 3).flush t = true ∧ i ∈ ((cfg5.win 3).blk t).view.set := by
  have hi0 : (i 0).val < 100000 := (i 0).isLt
  have hi1 : (i 1).val < 64 := (i 1).isLt
  have hN : (i 0).val / 5000 < cfg5.N := by show (i 0).val / 5000 < 20; omega
  refine ⟨⟨(i 0).val / 5000, hN⟩, flush5_3 _, ?_⟩
  rw [comb5_mem_blk]
  obtain ⟨-, -, -, -, -, -, e6, e7⟩ := comb5_idx ⟨(i 0).val / 5000, hN⟩
  have e6' : win5_3.index ⟨(i 0).val / 5000, hN⟩ (0 : Fin 2) = (i 0).val / 5000 := e6
  intro a
  match a with
  | ⟨0, _⟩ =>
    show win5_3.index ⟨(i 0).val / 5000, hN⟩ (0 : Fin 2) * 5000 ≤ (i 0).val
      ∧ (i 0).val < win5_3.index ⟨(i 0).val / 5000, hN⟩ (0 : Fin 2) * 5000 + 5000
    rw [e6']; omega
  | ⟨1, _⟩ =>
    show win5_3.index ⟨(i 0).val / 5000, hN⟩ (1 : Fin 2) * 64 ≤ (i 1).val
      ∧ (i 1).val < win5_3.index ⟨(i 0).val / 5000, hN⟩ (1 : Fin 2) * 64 + 64
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb5_flushed_eq (c : Dev nD) (t : Fin cfg5.N) :
    (dat5 (F := Ideal) V c).flushed 3 t
      = ((cfg5.win 3).blk t).view.read (Elt Ideal) (comb5_fn (V c main_v103) (V c main_v75_1) (V c main_v104)) := by
  show (cfg5.win 3).cut (grid5.coords t) ((dat5 (F := Ideal) V c).after 3 t) = _
  rw [after5_3]
  unfold out5_3
  rw [View.canon_unit_zero comb5_zeros]
  simp only [View.ld_unit_zero (S := S5000x64) comb5_zeros, View.ld_unit_zero (S := S1x64) comb5_zeros]
  obtain ⟨e0, e1, e2, e3, e4, e5, e6, e7⟩ := comb5_idx t
  funext j
  refine comb5_point (V c main_v103) (V c main_v75_1) (V c main_v104) (iblk5 V c 0 t) (iblk5 V c 1 t) (iblk5 V c 2 t)
    (((cfg5.win 3).blk t).view.emb) ?_ ?_ ?_ ?_ j
  · intro y
    show V c main_v103 (((cfg5.win 0).blk t).view.emb y) = V c main_v103 (((cfg5.win 3).blk t).view.emb y)
    refine congrArg (V c main_v103) (funext fun a => Fin.ext ?_)
    match a with
    | ⟨0, _⟩ =>
      show win5_0.index t (0 : Fin 2) * 5000 + 1 * (y 0).val = win5_3.index t (0 : Fin 2) * 5000 + 1 * (y 0).val
      rw [e0]
    | ⟨1, _⟩ =>
      show win5_0.index t (1 : Fin 2) * 64 + 1 * (y 1).val = win5_3.index t (1 : Fin 2) * 64 + 1 * (y 1).val
      rw [e1]
  · intro y
    show V c main_v75_1 (((cfg5.win 1).blk t).view.emb y) = V c main_v75_1 (((cfg5.win 3).blk t).view.emb y)
    refine congrArg (V c main_v75_1) (funext fun a => Fin.ext ?_)
    match a with
    | ⟨0, _⟩ =>
      show win5_1.index t (0 : Fin 2) * 5000 + 1 * (y 0).val = win5_3.index t (0 : Fin 2) * 5000 + 1 * (y 0).val
      rw [e2]
    | ⟨1, _⟩ =>
      show win5_1.index t (1 : Fin 2) * 64 + 1 * (y 1).val = win5_3.index t (1 : Fin 2) * 64 + 1 * (y 1).val
      rw [e3]
  · intro q
    show V c main_v104 (((cfg5.win 2).blk t).view.emb (ix2 0 q)) = V c main_v104 (ix2 0 q)
    refine congrArg (V c main_v104) (funext fun a => Fin.ext ?_)
    match a with
    | ⟨0, _⟩ =>
      show win5_2.index t (0 : Fin 2) * 1 + 1 * 0 = 0
      rw [e4]
    | ⟨1, _⟩ =>
      show win5_2.index t (1 : Fin 2) * 64 + 1 * q.val = q.val
      rw [e5]; omega
  · intro y
    show win5_3.index t (1 : Fin 2) * 64 + 1 * (y 1).val = (y 1).val
    rw [e7]; omega

/-- THE ARRAY region 5 leaves in its output window: max((agg + hs) + bias, 0) of the arrays it reads, the bias row
    repeated down the rows. -/
theorem combine5 (c : Dev nD) :
    (dat5 (F := Ideal) V c).arrAt 3 cfg5.N =
      maximumf (addf (addf (V c main_v103 : (⟨Cert.ReferenceIdeal.S100000x64, .f32⟩ : BufTy).Contents (Elt Ideal)) (V c main_v75_1))
          (broadcastInDim Cert.ReferenceIdeal.S100000x64 ![0, 1] Cert.ReferenceIdeal.Gen.bcast_S1x64_S100000x64_0_1 (V c main_v104)))
        (broadcastInDim Cert.ReferenceIdeal.S100000x64 ![] Cert.ReferenceIdeal.Gen.bcast_S_S100000x64 (constant (F := Ideal) Cert.ReferenceIdeal.S_ .f32 0x00000000#32)) :=
  (dat5 (F := Ideal) V c).arrAt_eq_of_cover 3 (comb5_fn (V c main_v103) (V c main_v75_1) (V c main_v104))
    (fun t _ => comb5_flushed_eq V c t) comb5_cover

end Cert.KernelIdeal.Bridge

end
-- ==== Proof.Lin2.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 16] block of the input by the whole
  [16, 32] weight (both rounded to a narrower format first, which is the identity over the extended reals) into a zero
  accumulator, stores the product, and stores a second copy scaled row by row by the [5000, 1] block of a column. The twenty
  row blocks tile the [100000, 32] outputs, so after the region the first output is the whole matrix product and the
  second the product scaled by the column broadcast along the rows.
-/

theorem zero_offsets2 : (![0, 0] : Fin 2 → Nat) = fun _ => 0 := funext fun a => by fin_cases a <;> rfl

/-- The block index of every window at grid point `t`: the row-blocked windows sit at row block `t`, the weight at the origin. -/
theorem block_index2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- The host's matrix product at an entry is the inner product of a row with a column. -/
theorem host_product_at2 (l : FVec Ideal Cert.ReferenceIdeal.S100000x16 .f32) (r : FVec Ideal Cert.ReferenceIdeal.S16x32 .f32)
    (p : Fin 100000) (q : Fin 32) :
    Host.dotGeneral Cert.ReferenceIdeal.dot_S100000x16_S16x32_S100000x32_1_0_0_1_n_n none l r (ix2 p q)
      = ∑ k : Fin 16, l (ix2 p k) * r (ix2 k q) := by
  simp only [Host.dotGeneral]
  exact Cert.DotNN.dotGeneral_apply _ rfl _ _ l r p q

/-- The stored product at entry (p, q) of the block. -/
theorem product_at2 (x0 : Vec Ideal S5000x16 .f32) (x1 : Vec Ideal S16x32 .f32) (p : Fin 5000) (q : Fin 32) :
    k2_pay1 (F := Ideal) x0 x1 (ix2 p q) = ∑ k : Fin 16, x0 (ix2 p k) * x1 (ix2 k q) := by
  unfold k2_pay1
  rw [shapeCast_self]
  exact Cert.MatmulNN.matmul_zero_apply _ rfl none _ _ p q

/-- The scaled copy at entry (p, q): the product times the column's entry of row p. -/
theorem scaled_at2 (x0 : Vec Ideal S5000x16 .f32) (x1 : Vec Ideal S16x32 .f32) (x2 : Vec Ideal S5000x1 .f32)
    (p : Fin 5000) (q : Fin 32) :
    k2_pay2 (F := Ideal) x0 x1 x2 (ix2 p q) = (∑ k : Fin 16, x0 (ix2 p k) * x1 (ix2 k q)) * x2 (ix2 p 0) := by
  unfold k2_pay2
  rw [mulf_apply, product_at2, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry2 (t : Fin cfg2.N) (p : Fin 5000) (k : Fin 16) :
    ((cfg2.win 0).blk t).view.emb (ix2 p k)
      = ix2 (⟨t.val * 5000 + p.val, by have ht : t.val < 20 := t.isLt; have := p.isLt; omega⟩ : Fin 100000) k := by
  obtain ⟨e00, e01, -⟩ := block_index2 t
  funext a; apply Fin.ext
  match a with
  | ⟨0, _⟩ => show win2_0.index t (0 : Fin 2) * 5000 + 1 * p.val = t.val * 5000 + p.val; omega
  | ⟨1, _⟩ => show win2_0.index t (1 : Fin 2) * 16 + 1 * k.val = k.val; omega

/-- The weight's block is the whole weight. -/
theorem weight_entry2 (t : Fin cfg2.N) (k : Fin 16) (q : Fin 32) :
    ((cfg2.win 1).blk t).view.emb (ix2 k q) = ix2 k q := by
  obtain ⟨-, -, e10, e11, -⟩ := block_index2 t
  funext a; apply Fin.ext
  match a with
  | ⟨0, _⟩ => show win2_1.index t (0 : Fin 2) * 16 + 1 * k.val = k.val; omega
  | ⟨1, _⟩ => show win2_1.index t (1 : Fin 2) * 32 + 1 * q.val = q.val; omega

/-- Where block entry (p, 0) of the column sits in its array. -/
theorem column_entry2 (t : Fin cfg2.N) (p : Fin 5000) :
    ((cfg2.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index2 t
  funext a; apply Fin.ext
  match a with
  | ⟨0, _⟩ => show win2_2.index t (0 : Fin 2) * 5000 + 1 * p.val = t.val * 5000 + p.val; omega
  | ⟨1, _⟩ => show win2_2.index t (1 : Fin 2) * 1 + 1 * 0 = 0; omega

/-- Where block entry (p, q) of the first output sits in its array. -/
theorem product_entry2 (t : Fin cfg2.N) (p : Fin 5000) (q : Fin 32) :
    ((cfg2.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index2 t
  funext a; apply Fin.ext
  match a with
  | ⟨0, _⟩ => show win2_3.index t (0 : Fin 2) * 5000 + 1 * p.val = t.val * 5000 + p.val; omega
  | ⟨1, _⟩ => show win2_3.index t (1 : Fin 2) * 32 + 1 * q.val = q.val; omega

/-- Where block entry (p, q) of the second output sits in its array. -/
theorem scaled_entry2 (t : Fin cfg2.N) (p : Fin 5000) (q : Fin 32) :
    ((cfg2.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index2 t
  funext a; apply Fin.ext
  match a with
  | ⟨0, _⟩ => show win2_4.index t (0 : Fin 2) * 5000 + 1 * p.val = t.val * 5000 + p.val; omega
  | ⟨1, _⟩ => show win2_4.index t (1 : Fin 2) * 32 + 1 * q.val = q.val; omega

/-- The whole matrix product, spelt as the host's operation on the arrays the region finds. -/
abbrev product2 (c : Dev nD) : FVec Ideal Cert.ReferenceIdeal.S100000x32 .f32 :=
  Host.dotGeneral (F := Ideal) (φ₁ := .f32) (φ₂ := .f32) Cert.ReferenceIdeal.dot_S100000x16_S16x32_S100000x32_1_0_0_1_n_n none (V c main_v43) (V c main_arg5)

/-- The product scaled row by row by the column, spelt as the host's operations. -/
abbrev scaled2 (c : Dev nD) : FVec Ideal Cert.ReferenceIdeal.S100000x32 .f32 :=
  mulf (product2 V c) (broadcastInDim Cert.ReferenceIdeal.S100000x32 ![0, 1] Cert.ReferenceIdeal.Gen.bcast_S100000x1_S100000x32_0_1 (V c main_v12))

/-- What point `t` writes back to the first output is block `t` of the whole product. -/
theorem product_flushed2 (c : Dev nD) (t : Fin cfg2.N) :
    (dat2 (F := Ideal) V c).flushed 3 t = ((cfg2.win 3).blk t).view.read (Elt Ideal) (product2 V c) := by
  show (cfg2.win 3).cut (grid2.coords t) ((dat2 V c).after 3 t) = _
  rw [after2_3]
  unfold out2_3
  rw [View.canon_unit_zero zero_offsets2]
  simp only [View.ld_unit_zero (S := S5000x16) zero_offsets2, View.ld_unit_zero (S := S16x32) zero_offsets2]
  funext j
  obtain ⟨p, q, rfl⟩ : ∃ (p : Fin 5000) (q : Fin 32), j = ix2 p q := ⟨j 0, j 1, eq_ix2 j⟩
  show k2_pay1 (F := Ideal) (iblk2 V c 0 t) (iblk2 V c 1 t) (ix2 p q)
    = product2 V c (((cfg2.win 3).blk t).view.emb (ix2 p q))
  rw [product_at2, product_entry2]
  unfold product2
  rw [host_product_at2]
  refine Finset.sum_congr rfl fun k _ => ?_
  refine congrArg₂ (· * ·) ?_ ?_
  · show V c main_v43 (((cfg2.win 0).blk t).view.emb (ix2 p k)) = _
    rw [input_entry2]
  · show V c main_arg5 (((cfg2.win 1).blk t).view.emb (ix2 k q)) = _
    rw [weight_entry2]

/-- What point `t` writes back to the second output is block `t` of the scaled product. -/
theorem scaled_flushed2 (c : Dev nD) (t : Fin cfg2.N) :
    (dat2 (F := Ideal) V c).flushed 4 t = ((cfg2.win 4).blk t).view.read (Elt Ideal) (scaled2 V c) := by
  show (cfg2.win 4).cut (grid2.coords t) ((dat2 V c).after 4 t) = _
  rw [after2_4]
  unfold out2_4
  rw [View.canon_unit_zero zero_offsets2]
  simp only [View.ld_unit_zero (S := S5000x16) zero_offsets2, View.ld_unit_zero (S := S16x32) zero_offsets2,
    View.ld_unit_zero (S := S5000x1) zero_offsets2]
  funext j
  obtain ⟨p, q, rfl⟩ : ∃ (p : Fin 5000) (q : Fin 32), j = ix2 p q := ⟨j 0, j 1, eq_ix2 j⟩
  show k2_pay2 (F := Ideal) (iblk2 V c 0 t) (iblk2 V c 1 t) (iblk2 V c 2 t) (ix2 p q)
    = scaled2 V c (((cfg2.win 4).blk t).view.emb (ix2 p q))
  rw [scaled_at2, scaled_entry2]
  unfold scaled2 product2
  rw [mulf_apply, host_product_at2]
  congr 1
  · refine Finset.sum_congr rfl fun k _ => ?_
    refine congrArg₂ (· * ·) ?_ ?_
    · show V c main_v43 (((cfg2.win 0).blk t).view.emb (ix2 p k)) = _
      rw [input_entry2]
    · show V c main_arg5 (((cfg2.win 1).blk t).view.emb (ix2 k q)) = _
      rw [weight_entry2]
  · show V c main_v12 (((cfg2.win 2).blk t).view.emb (ix2 p (0 : Fin 1))) = _
    rw [column_entry2]
    exact (broadcastInDim_apply _ _ _ _ _ (fun a => by match a with | ⟨0, _⟩ => rfl | ⟨1, _⟩ => rfl)).symm

/-- An index of the first output's array is in point `t`'s block iff each coordinate is in the block's range. -/
theorem mem_product_block2 (t : Fin cfg2.N) (i : S100000x32.Idx) :
    i ∈ ((cfg2.win 3).blk t).view.set ↔ ∀ a : Fin 2, win2_3.index t a * S5000x32.size a ≤ (i a).val ∧ (i a).val < win2_3.index t a * S5000x32.size a + S5000x32.size a := by
  show i ∈ ((View.whole main_v44_0).slice (win2_3.rect t)).set ↔ _
  rw [View.set_slice_whole, Rect.mem_set_unit]
  exact Iff.rfl

theorem mem_scaled_block2 (t : Fin cfg2.N) (i : S100000x32.Idx) :
    i ∈ ((cfg2.win 4).blk t).view.set ↔ ∀ a : Fin 2, win2_4.index t a * S5000x32.size a ≤ (i a).val ∧ (i a).val < win2_4.index t a * S5000x32.size a + S5000x32.size a := by
  show i ∈ ((View.whole main_v44_1).slice (win2_4.rect t)).set ↔ _
  rw [View.set_slice_whole, Rect.mem_set_unit]
  exact Iff.rfl

/-- Row r lies in row block r / 5000: the twenty blocks tile each output. -/
theorem product_cover2 (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hb : (i 0).val / 5000 < 20 := by omega
  obtain ⟨-, -, -, -, -, -, e30, e31, -⟩ := block_index2 ⟨(i 0).val / 5000, hb⟩
  refine ⟨⟨(i 0).val / 5000, hb⟩, flush2_3 _, ?_⟩
  rw [mem_product_block2]
  intro a
  match a with
  | ⟨0, _⟩ =>
    show win2_3.index ⟨(i 0).val / 5000, hb⟩ (0 : Fin 2) * 5000 ≤ (i 0).val ∧ (i 0).val < win2_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win2_3.index ⟨(i 0).val / 5000, hb⟩ (1 : Fin 2) * 32 ≤ (i 1).val ∧ (i 1).val < win2_3.index ⟨(i 0).val / 5000, hb⟩ (1 : Fin 2) * 32 + 32
    rw [e31]; omega

theorem scaled_cover2 (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hb : (i 0).val / 5000 < 20 := by omega
  obtain ⟨-, -, -, -, -, -, -, -, e40, e41⟩ := block_index2 ⟨(i 0).val / 5000, hb⟩
  refine ⟨⟨(i 0).val / 5000, hb⟩, flush2_4 _, ?_⟩
  rw [mem_scaled_block2]
  intro a
  match a with
  | ⟨0, _⟩ =>
    show win2_4.index ⟨(i 0).val / 5000, hb⟩ (0 : Fin 2) * 5000 ≤ (i 0).val ∧ (i 0).val < win2_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win2_4.index ⟨(i 0).val / 5000, hb⟩ (1 : Fin 2) * 32 ≤ (i 1).val ∧ (i 1).val < win2_4.index ⟨(i 0).val / 5000, hb⟩ (1 : Fin 2) * 32 + 32
    rw [e41]; omega

/-- After the region the first output is the whole matrix product of the arrays the region found. -/
theorem linear2_product (c : Dev nD) : (dat2 (F := Ideal) V c).arrAt 3 cfg2.N = product2 V c :=
  (dat2 (F := Ideal) V c).arrAt_eq_of_cover 3 (product2 V c) (fun t _ => product_flushed2 V c t) (product_cover2)

/-- After the region the second output is that product scaled row by row by the column. -/
theorem linear2_scaled (c : Dev nD) : (dat2 (F := Ideal) V c).arrAt 4 cfg2.N = scaled2 V c :=
  (dat2 (F := Ideal) V c).arrAt_eq_of_cover 4 (scaled2 V c) (fun t _ => scaled_flushed2 V c t) (scaled_cover2)

end Cert.KernelIdeal.Bridge

end
-- ==== Proof.Comb3.lean ====
/- Region 3 of the kernel program (the combine step at width 32): the array its output window leaves is
   max((agg + hs) + bias, 0), index by index, of the three arrays the region reads, the [1, 32] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb3_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb3_idx : ∀ t : Fin cfg3.N, win3_0.index t (0 : Fin 2) = win3_3.index t (0 : Fin 2)
    ∧ win3_0.index t (1 : Fin 2) = win3_3.index t (1 : Fin 2)
    ∧ win3_1.index t (0 : Fin 2) = win3_3.index t (0 : Fin 2)
    ∧ win3_1.index t (1 : Fin 2) = win3_3.index t (1 : Fin 2)
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The body's payload at an index: max((x0(p,q) + x1(p,q)) + x2(0,q), 0). The shape casts are to the same shape, the
    [1, 32] block is repeated down the rows, the zero is a splat. -/
theorem comb3_pay_apply (x0 x1 : Vec Ideal S5000x32 .f32) (x2 : Vec Ideal S1x32 .f32) (p : Fin 5000) (q : Fin 32) :
    k3_pay1 (F := Ideal) x0 x1 x2 (ix2 p q)
      = max ((x0 (ix2 p q) + x1 (ix2 p q)) + x2 (ix2 0 q)) (Scalar.ofBits (F := Ideal) .f32 0x00000000#32) := by
  unfold k3_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb3_fn (A H : (⟨Cert.ReferenceIdeal.S100000x32, .f32⟩ : BufTy).Contents (Elt Ideal))
    (B : (⟨Cert.ReferenceIdeal.S1x32, .f32⟩ : BufTy).Contents (Elt Ideal)) :
    (⟨Cert.ReferenceIdeal.S100000x32, .f32⟩ : BufTy).Contents (Elt Ideal) :=
  maximumf (addf (addf A H) (broadcastInDim Cert.ReferenceIdeal.S100000x32 ![0, 1] Cert.ReferenceIdeal.Gen.bcast_S1x32_S100000x32_0_1 B))
    (broadcastInDim Cert.ReferenceIdeal.S100000x32 ![] Cert.ReferenceIdeal.Gen.bcast_S_S100000x32 (constant (F := Ideal) Cert.ReferenceIdeal.S_ .f32 0x00000000#32))

/-- The row B repeated down the rows, at (p, q), is B(0, q). -/
theorem comb3_rows_apply (B : (⟨Cert.ReferenceIdeal.S1x32, .f32⟩ : BufTy).Contents (Elt Ideal)) (p : Fin 100000) (q : Fin 32) :
    broadcastInDim Cert.ReferenceIdeal.S100000x32 ![0, 1] Cert.ReferenceIdeal.Gen.bcast_S1x32_S100000x32_0_1 B (ix2 p q) = B (ix2 0 q) :=
  broadcastInDim_apply _ Cert.ReferenceIdeal.Gen.bcast_S1x32_S100000x32_0_1 B (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])

/-- The zero repeated everywhere, at any index, is zero. -/
theorem comb3_zero_apply (i : Cert.ReferenceIdeal.S100000x32.Idx) :
    broadcastInDim Cert.ReferenceIdeal.S100000x32 ![] Cert.ReferenceIdeal.Gen.bcast_S_S100000x32 (constant (F := Ideal) Cert.ReferenceIdeal.S_ .f32 0x00000000#32) i
      = Scalar.ofBits (F := Ideal) .f32 0x00000000#32 :=
  (broadcastInDim_apply _ Cert.ReferenceIdeal.Gen.bcast_S_S100000x32 (constant (F := Ideal) Cert.ReferenceIdeal.S_ .f32 0x00000000#32) i
    (fun a => a.elim0) (fun a => a.elim0)).trans rfl

/-- That function at an index: max((A(p,q) + H(p,q)) + B(0,q), 0). -/
theorem comb3_fn_apply (A H : (⟨Cert.ReferenceIdeal.S100000x32, .f32⟩ : BufTy).Contents (Elt Ideal))
    (B : (⟨Cert.ReferenceIdeal.S1x32, .f32⟩ : BufTy).Contents (Elt Ideal)) (p : Fin 100000) (q : Fin 32) :
    comb3_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x32 ![0, 1] Cert.ReferenceIdeal.Gen.bcast_S1x32_S100000x32_0_1 B (ix2 p q))
      (broadcastInDim Cert.ReferenceIdeal.S100000x32 ![] Cert.ReferenceIdeal.Gen.bcast_S_S100000x32 (constant (F := Ideal) Cert.ReferenceIdeal.S_ .f32 0x00000000#32) (ix2 p q)) = _
  rw [comb3_rows_apply, comb3_zero_apply]

/-- ONE POINT, over plain vectors: when the two row-blocked input blocks are the arrays A and H read along an
    embedding e of block indices that keeps the column, and the bias block is the row B, the payload at j is the
    whole-array function at e j. -/
theorem comb3_point (A H : (⟨Cert.ReferenceIdeal.S100000x32, .f32⟩ : BufTy).Contents (Elt Ideal))
    (B : (⟨Cert.ReferenceIdeal.S1x32, .f32⟩ : BufTy).Contents (Elt Ideal))
    (x0 x1 : Vec Ideal S5000x32 .f32) (x2 : Vec Ideal S1x32 .f32) (e : S5000x32.Idx → Cert.ReferenceIdeal.S100000x32.Idx)
    (h0 : ∀ y, x0 y = A (e y)) (h1 : ∀ y, x1 y = H (e y)) (h2 : ∀ q : Fin 32, x2 (ix2 0 q) = B (ix2 0 q))
    (he : ∀ y, (e y 1).val = (y 1).val) (j : S5000x32.Idx) :
    k3_pay1 (F := Ideal) x0 x1 x2 j = comb3_fn A H B (e j) := by
  obtain ⟨p, q, rfl⟩ : ∃ (p : Fin 5000) (q : Fin 32), j = ix2 p q := ⟨j 0, j 1, eq_ix2 j⟩
  have hi : (e (ix2 p q) 1).val = q.val := he (ix2 p q)
  rw [comb3_pay_apply, h0, h1, h2]
  generalize e (ix2 p q) = i at hi ⊢
  obtain ⟨p', q', rfl⟩ : ∃ (p' : Fin 100000) (q' : Fin 32), i = ix2 p' q' := ⟨i 0, i 1, eq_ix2 i⟩
  have hq : q' = q := Fin.ext hi
  subst hq
  rw [comb3_fn_apply]

/-- An index of the output array is in point t's block iff each coordinate is in the block's range on its axis. -/
theorem comb3_mem_blk (t : Fin cfg3.N) (i : S100000x32.Idx) :
    i ∈ ((cfg3.win 3).blk t).view.set ↔ ∀ a : Fin 2, win3_3.index t a * S5000x32.size a ≤ (i a).val
      ∧ (i a).val < win3_3.index t a * S5000x32.size a + S5000x32.size a := by
  show i ∈ ((View.whole main_v74).slice (win3_3.rect t)).set ↔ _
  rw [View.set_slice_whole, Rect.mem_set_unit]
  exact Iff.rfl

/-- Every index of the output array lies in some point's block: row r lies in the block of point r / 5000. -/
theorem comb3_cover (i : S100000x32.Idx) :
    ∃ t : Fin cfg3.N, (cfg3.win 3).flush t = true ∧ i ∈ ((cfg3.win 3).blk t).view.set := by
  have hi0 : (i 0).val < 100000 := (i 0).isLt
  have hi1 : (i 1).val < 32 := (i 1).isLt
  have hN : (i 0).val / 5000 < cfg3.N := by show (i 0).val / 5000 < 20; omega
  refine ⟨⟨(i 0).val / 5000, hN⟩, flush3_3 _, ?_⟩
  rw [comb3_mem_blk]
  obtain ⟨-, -, -, -, -, -, e6, e7⟩ := comb3_idx ⟨(i 0).val / 5000, hN⟩
  have e6' : win3_3.index ⟨(i 0).val / 5000, hN⟩ (0 : Fin 2) = (i 0).val / 5000 := e6
  intro a
  match a with
  | ⟨0, _⟩ =>
    show win3_3.index ⟨(i 0).val / 5000, hN⟩ (0 : Fin 2) * 5000 ≤ (i 0).val
      ∧ (i 0).val < win3_3.index ⟨(i 0).val / 5000, hN⟩ (0 : Fin 2) * 5000 + 5000
    rw [e6']; omega
  | ⟨1, _⟩ =>
    show win3_3.index ⟨(i 0).val / 5000, hN⟩ (1 : Fin 2) * 32 ≤ (i 1).val
      ∧ (i 1).val < win3_3.index ⟨(i 0).val / 5000, hN⟩ (1 : Fin 2) * 32 + 32
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb3_flushed_eq (c : Dev nD) (t : Fin cfg3.N) :
    (dat3 (F := Ideal) V c).flushed 3 t
      = ((cfg3.win 3).blk t).view.read (Elt Ideal) (comb3_fn (V c main_v72) (V c main_v44_1) (V c main_v73)) := by
  show (cfg3.win 3).cut (grid3.coords t) ((dat3 (F := Ideal) V c).after 3 t) = _
  rw [after3_3]
  unfold out3_3
  rw [View.canon_unit_zero comb3_zeros]
  simp only [View.ld_unit_zero (S := S5000x32) comb3_zeros, View.ld_unit_zero (S := S1x32) comb3_zeros]
  obtain ⟨e0, e1, e2, e3, e4, e5, e6, e7⟩ := comb3_idx t
  funext j
  refine comb3_point (V c main_v72) (V c main_v44_1) (V c main_v73) (iblk3 V c 0 t) (iblk3 V c 1 t) (iblk3 V c 2 t)
    (((cfg3.win 3).blk t).view.emb) ?_ ?_ ?_ ?_ j
  · intro y
    show V c main_v72 (((cfg3.win 0).blk t).view.emb y) = V c main_v72 (((cfg3.win 3).blk t).view.emb y)
    refine congrArg (V c main_v72) (funext fun a => Fin.ext ?_)
    match a with
    | ⟨0, _⟩ =>
      show win3_0.index t (0 : Fin 2) * 5000 + 1 * (y 0).val = win3_3.index t (0 : Fin 2) * 5000 + 1 * (y 0).val
      rw [e0]
    | ⟨1, _⟩ =>
      show win3_0.index t (1 : Fin 2) * 32 + 1 * (y 1).val = win3_3.index t (1 : Fin 2) * 32 + 1 * (y 1).val
      rw [e1]
  · intro y
    show V c main_v44_1 (((cfg3.win 1).blk t).view.emb y) = V c main_v44_1 (((cfg3.win 3).blk t).view.emb y)
    refine congrArg (V c main_v44_1) (funext fun a => Fin.ext ?_)
    match a with
    | ⟨0, _⟩ =>
      show win3_1.index t (0 : Fin 2) * 5000 + 1 * (y 0).val = win3_3.index t (0 : Fin 2) * 5000 + 1 * (y 0).val
      rw [e2]
    | ⟨1, _⟩ =>
      show win3_1.index t (1 : Fin 2) * 32 + 1 * (y 1).val = win3_3.index t (1 : Fin 2) * 32 + 1 * (y 1).val
      rw [e3]
  · intro q
    show V c main_v73 (((cfg3.win 2).blk t).view.emb (ix2 0 q)) = V c main_v73 (ix2 0 q)
    refine congrArg (V c main_v73) (funext fun a => Fin.ext ?_)
    match a with
    | ⟨0, _⟩ =>
      show win3_2.index t (0 : Fin 2) * 1 + 1 * 0 = 0
      rw [e4]
    | ⟨1, _⟩ =>
      show win3_2.index t (1 : Fin 2) * 32 + 1 * q.val = q.val
      rw [e5]; omega
  · intro y
    show win3_3.index t (1 : Fin 2) * 32 + 1 * (y 1).val = (y 1).val
    rw [e7]; omega

/-- THE ARRAY region 3 leaves in its output window: max((agg + hs) + bias, 0) of the arrays it reads, the bias row
    repeated down the rows. -/
theorem combine3 (c : Dev nD) :
    (dat3 (F := Ideal) V c).arrAt 3 cfg3.N =
      maximumf (addf (addf (V c main_v72 : (⟨Cert.ReferenceIdeal.S100000x32, .f32⟩ : BufTy).Contents (Elt Ideal)) (V c main_v44_1))
          (broadcastInDim Cert.ReferenceIdeal.S100000x32 ![0, 1] Cert.ReferenceIdeal.Gen.bcast_S1x32_S100000x32_0_1 (V c main_v73)))
        (broadcastInDim Cert.ReferenceIdeal.S100000x32 ![] Cert.ReferenceIdeal.Gen.bcast_S_S100000x32 (constant (F := Ideal) Cert.ReferenceIdeal.S_ .f32 0x00000000#32)) :=
  (dat3 (F := Ideal) V c).arrAt_eq_of_cover 3 (comb3_fn (V c main_v72) (V c main_v44_1) (V c main_v73))
    (fun t _ => comb3_flushed_eq V c t) comb3_cover

end Cert.KernelIdeal.Bridge

end
-- ==== Proof.Lin0.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 64] block of the input by the whole
  [64, 16] weight (both rounded to a narrower format first, which is the identity over the extended reals) into a zero
  accumulator, stores the product, and stores a second copy scaled row by row by the [5000, 1] block of a column. The twenty
  row blocks tile the [100000, 16] outputs, so after the region the first output is the whole matrix product and the
  second the product scaled by the column broadcast along the rows.
-/

theorem zero_offsets0 : (![0, 0] : Fin 2 → Nat) = fun _ => 0 := funext fun a => by fin_cases a <;> rfl

/-- The block index of every window at grid point `t`: the row-blocked windows sit at row block `t`, the weight at the origin. -/
theorem block_index0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The host's matrix product at an entry is the inner product of a row with a column. -/
theorem host_product_at0 (l : FVec Ideal Cert.ReferenceIdeal.S100000x64 .f32) (r : FVec Ideal Cert.ReferenceIdeal.S64x16 .f32)
    (p : Fin 100000) (q : Fin 16) :
    Host.dotGeneral Cert.ReferenceIdeal.dot_S100000x64_S64x16_S100000x16_1_0_0_1_n_n none l r (ix2 p q)
      = ∑ k : Fin 64, l (ix2 p k) * r (ix2 k q) := by
  simp only [Host.dotGeneral]
  exact Cert.DotNN.dotGeneral_apply _ rfl _ _ l r p q

/-- The stored product at entry (p, q) of the block. -/
theorem product_at0 (x0 : Vec Ideal S5000x64 .f32) (x1 : Vec Ideal S64x16 .f32) (p : Fin 5000) (q : Fin 16) :
    k0_pay1 (F := Ideal) x0 x1 (ix2 p q) = ∑ k : Fin 64, x0 (ix2 p k) * x1 (ix2 k q) := by
  unfold k0_pay1
  exact Cert.MatmulNN.matmul_zero_apply _ rfl none _ _ p q

/-- The scaled copy at entry (p, q): the product times the column's entry of row p. -/
theorem scaled_at0 (x0 : Vec Ideal S5000x64 .f32) (x1 : Vec Ideal S64x16 .f32) (x2 : Vec Ideal S5000x1 .f32)
    (p : Fin 5000) (q : Fin 16) :
    k0_pay2 (F := Ideal) x0 x1 x2 (ix2 p q) = (∑ k : Fin 64, x0 (ix2 p k) * x1 (ix2 k q)) * x2 (ix2 p 0) := by
  unfold k0_pay2
  rw [mulf_apply, product_at0, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry0 (t : Fin cfg0.N) (p : Fin 5000) (k : Fin 64) :
    ((cfg0.win 0).blk t).view.emb (ix2 p k)
      = ix2 (⟨t.val * 5000 + p.val, by have ht : t.val < 20 := t.isLt; have := p.isLt; omega⟩ : Fin 100000) k := by
  obtain ⟨e00, e01, -⟩ := block_index0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega

/-- The weight's block is the whole weight. -/
theorem weight_entry0 (t : Fin cfg0.N) (k : Fin 64) (q : Fin 16) :
    ((cfg0.win 1).blk t).view.emb (ix2 k q) = ix2 k q := by
  obtain ⟨-, -, e10, e11, -⟩ := block_index0 t
  funext a; apply Fin.ext
  match a with
  | ⟨0, _⟩ => show win0_1.index t (0 : Fin 2) * 64 + 1 * k.val = k.val; omega
  | ⟨1, _⟩ => show win0_1.index t (1 : Fin 2) * 16 + 1 * q.val = q.val; omega

/-- Where block entry (p, 0) of the column sits in its array. -/
theorem column_entry0 (t : Fin cfg0.N) (p : Fin 5000) :
    ((cfg0.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega

/-- Where block entry (p, q) of the first output sits in its array. -/
theorem product_entry0 (t : Fin cfg0.N) (p : Fin 5000) (q : Fin 16) :
    ((cfg0.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index0 t
  funext a; apply Fin.ext
  match a with
  | ⟨0, _⟩ => show win0_3.index t (0 : Fin 2) * 5000 + 1 * p.val = t.val * 5000 + p.val; omega
  | ⟨1, _⟩ => show win0_3.index t (1 : Fin 2) * 16 + 1 * q.val = q.val; omega

/-- Where block entry (p, q) of the second output sits in its array. -/
theorem scaled_entry0 (t : Fin cfg0.N) (p : Fin 5000) (q : Fin 16) :
    ((cfg0.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index0 t
  funext a; apply Fin.ext
  match a with
  | ⟨0, _⟩ => show win0_4.index t (0 : Fin 2) * 5000 + 1 * p.val = t.val * 5000 + p.val; omega
  | ⟨1, _⟩ => show win0_4.index t (1 : Fin 2) * 16 + 1 * q.val = q.val; omega

/-- The whole matrix product, spelt as the host's operation on the arrays the region finds. -/
abbrev product0 (c : Dev nD) : FVec Ideal Cert.ReferenceIdeal.S100000x16 .f32 :=
  Host.dotGeneral (F := Ideal) (φ₁ := .f32) (φ₂ := .f32) Cert.ReferenceIdeal.dot_S100000x64_S64x16_S100000x16_1_0_0_1_n_n none (V c main_arg0) (V c main_arg3)

/-- The product scaled row by row by the column, spelt as the host's operations. -/
abbrev scaled0 (c : Dev nD) : FVec Ideal Cert.ReferenceIdeal.S100000x16 .f32 :=
  mulf (product0 V c) (broadcastInDim Cert.ReferenceIdeal.S100000x16 ![0, 1] Cert.ReferenceIdeal.Gen.bcast_S100000x1_S100000x16_0_1 (V c main_v12))

/-- What point `t` writes back to the first output is block `t` of the whole product. -/
theorem product_flushed0 (c : Dev nD) (t : Fin cfg0.N) :
    (dat0 (F := Ideal) V c).flushed 3 t = ((cfg0.win 3).blk t).view.read (Elt Ideal) (product0 V c) := by
  show (cfg0.win 3).cut (grid0.coords t) ((dat0 V c).after 3 t) = _
  rw [after0_3]
  unfold out0_3
  rw [View.canon_unit_zero zero_offsets0]
  simp only [View.ld_unit_zero (S := S5000x64) zero_offsets0, View.ld_unit_zero (S := S64x16) zero_offsets0]
  funext j
  obtain ⟨p, q, rfl⟩ : ∃ (p : Fin 5000) (q : Fin 16), j = ix2 p q := ⟨j 0, j 1, eq_ix2 j⟩
  show k0_pay1 (F := Ideal) (iblk0 V c 0 t) (iblk0 V c 1 t) (ix2 p q)
    = product0 V c (((cfg0.win 3).blk t).view.emb (ix2 p q))
  rw [product_at0, product_entry0]
  unfold product0
  rw [host_product_at0]
  refine Finset.sum_congr rfl fun k _ => ?_
  refine congrArg₂ (· * ·) ?_ ?_
  · show V c main_arg0 (((cfg0.win 0).blk t).view.emb (ix2 p k)) = _
    rw [input_entry0]
  · show V c main_arg3 (((cfg0.win 1).blk t).view.emb (ix2 k q)) = _
    rw [weight_entry0]

/-- What point `t` writes back to the second output is block `t` of the scaled product. -/
theorem scaled_flushed0 (c : Dev nD) (t : Fin cfg0.N) :
    (dat0 (F := Ideal) V c).flushed 4 t = ((cfg0.win 4).blk t).view.read (Elt Ideal) (scaled0 V c) := by
  show (cfg0.win 4).cut (grid0.coords t) ((dat0 V c).after 4 t) = _
  rw [after0_4]
  unfold out0_4
  rw [View.canon_unit_zero zero_offsets0]
  simp only [View.ld_unit_zero (S := S5000x64) zero_offsets0, View.ld_unit_zero (S := S64x16) zero_offsets0,
    View.ld_unit_zero (S := S5000x1) zero_offsets0]
  funext j
  obtain ⟨p, q, rfl⟩ : ∃ (p : Fin 5000) (q : Fin 16), j = ix2 p q := ⟨j 0, j 1, eq_ix2 j⟩
  show k0_pay2 (F := Ideal) (iblk0 V c 0 t) (iblk0 V c 1 t) (iblk0 V c 2 t) (ix2 p q)
    = scaled0 V c (((cfg0.win 4).blk t).view.emb (ix2 p q))
  rw [scaled_at0, scaled_entry0]
  unfold scaled0 product0
  rw [mulf_apply, host_product_at0]
  congr 1
  · refine Finset.sum_congr rfl fun k _ => ?_
    refine congrArg₂ (· * ·) ?_ ?_
    · show V c main_arg0 (((cfg0.win 0).blk t).view.emb (ix2 p k)) = _
      rw [input_entry0]
    · show V c main_arg3 (((cfg0.win 1).blk t).view.emb (ix2 k q)) = _
      rw [weight_entry0]
  · show V c main_v12 (((cfg0.win 2).blk t).view.emb (ix2 p (0 : Fin 1))) = _
    rw [column_entry0]
    exact (broadcastInDim_apply _ _ _ _ _ (fun a => by match a with | ⟨0, _⟩ => rfl | ⟨1, _⟩ => rfl)).symm

/-- An index of the first output's array is in point `t`'s block iff each coordinate is in the block's range. -/
theorem mem_product_block0 (t : Fin cfg0.N) (i : S100000x16.Idx) :
    i ∈ ((cfg0.win 3).blk t).view.set ↔ ∀ a : Fin 2, win0_3.index t a * S5000x16.size a ≤ (i a).val ∧ (i a).val < win0_3.index t a * S5000x16.size a + S5000x16.size a := by
  show i ∈ ((View.whole main_v13_0).slice (win0_3.rect t)).set ↔ _
  rw [View.set_slice_whole, Rect.mem_set_unit]
  exact Iff.rfl

theorem mem_scaled_block0 (t : Fin cfg0.N) (i : S100000x16.Idx) :
    i ∈ ((cfg0.win 4).blk t).view.set ↔ ∀ a : Fin 2, win0_4.index t a * S5000x16.size a ≤ (i a).val ∧ (i a).val < win0_4.index t a * S5000x16.size a + S5000x16.size a := by
  show i ∈ ((View.whole main_v13_1).slice (win0_4.rect t)).set ↔ _
  rw [View.set_slice_whole, Rect.mem_set_unit]
  exact Iff.rfl

/-- Row r lies in row block r / 5000: the twenty blocks tile each output. -/
theorem product_cover0 (i : S100000x16.Idx) :
    ∃ t : Fin cfg0.N, (cfg0.win 3).flush t = true ∧ i ∈ ((cfg0.win 3).blk t).view.set := by
  have hi0 : (i 0).val < 100000 := (i 0).isLt
  have hi1 : (i 1).val < 16 := (i 1).isLt
  have hb : (i 0).val / 5000 < 20 := by omega
  obtain ⟨-, -, -, -, -, -, e30, e31, -⟩ := block_index0 ⟨(i 0).val / 5000, hb⟩
  refine ⟨⟨(i 0).val / 5000, hb⟩, flush0_3 _, ?_⟩
  rw [mem_product_block0]
  intro a
  match a with
  | ⟨0, _⟩ =>
    show win0_3.index ⟨(i 0).val / 5000, hb⟩ (0 : Fin 2) * 5000 ≤ (i 0).val ∧ (i 0).val < win0_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, hb⟩ (1 : Fin 2) * 16 ≤ (i 1).val ∧ (i 1).val < win0_3.index ⟨(i 0).val / 5000, hb⟩ (1 : Fin 2) * 16 + 16
    rw [e31]; omega

theorem scaled_cover0 (i : S100000x16.Idx) :
    ∃ t : Fin cfg0.N, (cfg0.win 4).flush t = true ∧ i ∈ ((cfg0.win 4).blk t).view.set := by
  have hi0 : (i 0).val < 100000 := (i 0).isLt
  have hi1 : (i 1).val < 16 := (i 1).isLt
  have hb : (i 0).val / 5000 < 20 := by omega
  obtain ⟨-, -, -, -, -, -, -, -, e40, e41⟩ := block_index0 ⟨(i 0).val / 5000, hb⟩
  refine ⟨⟨(i 0).val / 5000, hb⟩, flush0_4 _, ?_⟩
  rw [mem_scaled_block0]
  intro a
  match a with
  | ⟨0, _⟩ =>
    show win0_4.index ⟨(i 0).val / 5000, hb⟩ (0 : Fin 2) * 5000 ≤ (i 0).val ∧ (i 0).val < win0_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win0_4.index ⟨(i 0).val / 5000, hb⟩ (1 : Fin 2) * 16 ≤ (i 1).val ∧ (i 1).val < win0_4.index ⟨(i 0).val / 5000, hb⟩ (1 : Fin 2) * 16 + 16
    rw [e41]; omega

/-- After the region the first output is the whole matrix product of the arrays the region found. -/
theorem linear0_product (c : Dev nD) : (dat0 (F := Ideal) V c).arrAt 3 cfg0.N = product0 V c :=
  (dat0 (F := Ideal) V c).arrAt_eq_of_cover 3 (product0 V c) (fun t _ => product_flushed0 V c t) (product_cover0)

/-- After the region the second output is that product scaled row by row by the column. -/
theorem linear0_scaled (c : Dev nD) : (dat0 (F := Ideal) V c).arrAt 4 cfg0.N = scaled0 V c :=
  (dat0 (F := Ideal) V c).arrAt_eq_of_cover 4 (scaled0 V c) (fun t _ => scaled_flushed0 V c t) (scaled_cover0)

end Cert.KernelIdeal.Bridge

end
-- ==== Proof.Comb1.lean ====
/- Region 1 of the kernel program (the combine step at width 16): the array its output window leaves is
   max((agg + hs) + bias, 0), index by index, of the three arrays the region reads, the [1, 16] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb1_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb1_idx : ∀ t : Fin cfg1.N, win1_0.index t (0 : Fin 2) = win1_3.index t (0 : Fin 2)
    ∧ win1_0.index t (1 : Fin 2) = win1_3.index t (1 : Fin 2)
    ∧ win1_1.index t (0 : Fin 2) = win1_3.index t (0 : Fin 2)
    ∧ win1_1.index t (1 : Fin 2) = win1_3.index t (1 : Fin 2)
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's payload at an index: max((x0(p,q) + x1(p,q)) + x2(0,q), 0). The shape casts are to the same shape, the
    [1, 16] block is repeated down the rows, the zero is a splat. -/
theorem comb1_pay_apply (x0 x1 : Vec Ideal S5000x16 .f32) (x2 : Vec Ideal S1x16 .f32) (p : Fin 5000) (q : Fin 16) :
    k1_pay1 (F := Ideal) x0 x1 x2 (ix2 p q)
      = max ((x0 (ix2 p q) + x1 (ix2 p q)) + x2 (ix2 0 q)) (Scalar.ofBits (F := Ideal) .f32 0x00000000#32) := by
  unfold k1_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb1_fn (A H : (⟨Cert.ReferenceIdeal.S100000x16, .f32⟩ : BufTy).Contents (Elt Ideal))
    (B : (⟨Cert.ReferenceIdeal.S1x16, .f32⟩ : BufTy).Contents (Elt Ideal)) :
    (⟨Cert.ReferenceIdeal.S100000x16, .f32⟩ : BufTy).Contents (Elt Ideal) :=
  maximumf (addf (addf A H) (broadcastInDim Cert.ReferenceIdeal.S100000x16 ![0, 1] Cert.ReferenceIdeal.Gen.bcast_S1x16_S100000x16_0_1 B))
    (broadcastInDim Cert.ReferenceIdeal.S100000x16 ![] Cert.ReferenceIdeal.Gen.bcast_S_S100000x16 (constant (F := Ideal) Cert.ReferenceIdeal.S_ .f32 0x00000000#32))

/-- The row B repeated down the rows, at (p, q), is B(0, q). -/
theorem comb1_rows_apply (B : (⟨Cert.ReferenceIdeal.S1x16, .f32⟩ : BufTy).Contents (Elt Ideal)) (p : Fin 100000) (q : Fin 16) :
    broadcastInDim Cert.ReferenceIdeal.S100000x16 ![0, 1] Cert.ReferenceIdeal.Gen.bcast_S1x16_S100000x16_0_1 B (ix2 p q) = B (ix2 0 q) :=
  broadcastInDim_apply _ Cert.ReferenceIdeal.Gen.bcast_S1x16_S100000x16_0_1 B (ix2 p q) (ix2 0 q) (fun a => match a with
    | ⟨0, _⟩ => by show 0 = if (1 : Nat) = 1 then 0 else p.val; rw [if_pos rfl]
    | ⟨1, _⟩ => by show q.val = if (16 : Nat) = 1 then 0 else q.val; rw [if_neg (by decide)])

/-- The zero repeated everywhere, at any index, is zero. -/
theorem comb1_zero_apply (i : Cert.ReferenceIdeal.S100000x16.Idx) :
    broadcastInDim Cert.ReferenceIdeal.S100000x16 ![] Cert.ReferenceIdeal.Gen.bcast_S_S100000x16 (constant (F := Ideal) Cert.ReferenceIdeal.S_ .f32 0x00000000#32) i
      = Scalar.ofBits (F := Ideal) .f32 0x00000000#32 :=
  (broadcastInDim_apply _ Cert.ReferenceIdeal.Gen.bcast_S_S100000x16 (constant (F := Ideal) Cert.ReferenceIdeal.S_ .f32 0x00000000#32) i
    (fun a => a.elim0) (fun a => a.elim0)).trans rfl

/-- That function at an index: max((A(p,q) + H(p,q)) + B(0,q), 0). -/
theorem comb1_fn_apply (A H : (⟨Cert.ReferenceIdeal.S100000x16, .f32⟩ : BufTy).Contents (Elt Ideal))
    (B : (⟨Cert.ReferenceIdeal.S1x16, .f32⟩ : BufTy).Contents (Elt Ideal)) (p : Fin 100000) (q : Fin 16) :
    comb1_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x16 ![0, 1] Cert.ReferenceIdeal.Gen.bcast_S1x16_S100000x16_0_1 B (ix2 p q))
      (broadcastInDim Cert.ReferenceIdeal.S100000x16 ![] Cert.ReferenceIdeal.Gen.bcast_S_S100000x16 (constant (F := Ideal) Cert.ReferenceIdeal.S_ .f32 0x00000000#32) (ix2 p q)) = _
  rw [comb1_rows_apply, comb1_zero_apply]

/-- ONE POINT, over plain vectors: when the two row-blocked input blocks are the arrays A and H read along an
    embedding e of block indices that keeps the column, and the bias block is the row B, the payload at j is the
    whole-array function at e j. -/
theorem comb1_point (A H : (⟨Cert.ReferenceIdeal.S100000x16, .f32⟩ : BufTy).Contents (Elt Ideal))
    (B : (⟨Cert.ReferenceIdeal.S1x16, .f32⟩ : BufTy).Contents (Elt Ideal))
    (x0 x1 : Vec Ideal S5000x16 .f32) (x2 : Vec Ideal S1x16 .f32) (e : S5000x16.Idx → Cert.ReferenceIdeal.S100000x16.Idx)
    (h0 : ∀ y, x0 y = A (e y)) (h1 : ∀ y, x1 y = H (e y)) (h2 : ∀ q : Fin 16, x2 (ix2 0 q) = B (ix2 0 q))
    (he : ∀ y, (e y 1).val = (y 1).val) (j : S5000x16.Idx) :
    k1_pay1 (F := Ideal) x0 x1 x2 j = comb1_fn A H B (e j) := by
  obtain ⟨p, q, rfl⟩ : ∃ (p : Fin 5000) (q : Fin 16), j = ix2 p q := ⟨j 0, j 1, eq_ix2 j⟩
  have hi : (e (ix2 p q) 1).val = q.val := he (ix2 p q)
  rw [comb1_pay_apply, h0, h1, h2]
  generalize e (ix2 p q) = i at hi ⊢
  obtain ⟨p', q', rfl⟩ : ∃ (p' : Fin 100000) (q' : Fin 16), i = ix2 p' q' := ⟨i 0, i 1, eq_ix2 i⟩
  have hq : q' = q := Fin.ext hi
  subst hq
  rw [comb1_fn_apply]

/-- An index of the output array is in point t's block iff each coordinate is in the block's range on its axis. -/
theorem comb1_mem_blk (t : Fin cfg1.N) (i : S100000x16.Idx) :
    i ∈ ((cfg1.win 3).blk t).view.set ↔ ∀ a : Fin 2, win1_3.index t a * S5000x16.size a ≤ (i a).val
      ∧ (i a).val < win1_3.index t a * S5000x16.size a + S5000x16.size a := by
  show i ∈ ((View.whole main_v43).slice (win1_3.rect t)).set ↔ _
  rw [View.set_slice_whole, Rect.mem_set_unit]
  exact Iff.rfl

/-- Every index of the output array lies in some point's block: row r lies in the block of point r / 5000. -/
theorem comb1_cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have hN : (i 0).val / 5000 < cfg1.N := by show (i 0).val / 5000 < 20; omega
  refine ⟨⟨(i 0).val / 5000, hN⟩, flush1_3 _, ?_⟩
  rw [comb1_mem_blk]
  obtain ⟨-, -, -, -, -, -, e6, e7⟩ := comb1_idx ⟨(i 0).val / 5000, hN⟩
  have e6' : win1_3.index ⟨(i 0).val / 5000, hN⟩ (0 : Fin 2) = (i 0).val / 5000 := e6
  intro a
  match a with
  | ⟨0, _⟩ =>
    show win1_3.index ⟨(i 0).val / 5000, hN⟩ (0 : Fin 2) * 5000 ≤ (i 0).val
      ∧ (i 0).val < win1_3.index ⟨(i 0).val / 5000, hN⟩ (0 : Fin 2) * 5000 + 5000
    rw [e6']; omega
  | ⟨1, _⟩ =>
    show win1_3.index ⟨(i 0).val / 5000, hN⟩ (1 : Fin 2) * 16 ≤ (i 1).val
      ∧ (i 1).val < win1_3.index ⟨(i 0).val / 5000, hN⟩ (1 : Fin 2) * 16 + 16
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb1_flushed_eq (c : Dev nD) (t : Fin cfg1.N) :
    (dat1 (F := Ideal) V c).flushed 3 t
      = ((cfg1.win 3).blk t).view.read (Elt Ideal) (comb1_fn (V c main_v41) (V c main_v13_1) (V c main_v42)) := by
  show (cfg1.win 3).cut (grid1.coords t) ((dat1 (F := Ideal) V c).after 3 t) = _
  rw [after1_3]
  unfold out1_3
  rw [View.canon_unit_zero comb1_zeros]
  simp only [View.ld_unit_zero (S := S5000x16) comb1_zeros, View.ld_unit_zero (S := S1x16) comb1_zeros]
  obtain ⟨e0, e1, e2, e3, e4, e5, e6, e7⟩ := comb1_idx t
  funext j
  refine comb1_point (V c main_v41) (V c main_v13_1) (V c main_v42) (iblk1 V c 0 t) (iblk1 V c 1 t) (iblk1 V c 2 t)
    (((cfg1.win 3).blk t).view.emb) ?_ ?_ ?_ ?_ j
  · intro y
    show V c main_v41 (((cfg1.win 0).blk t).view.emb y) = V c main_v41 (((cfg1.win 3).blk t).view.emb y)
    refine congrArg (V c main_v41) (funext fun a => Fin.ext ?_)
    match a with
    | ⟨0, _⟩ =>
      show win1_0.index t (0 : Fin 2) * 5000 + 1 * (y 0).val = win1_3.index t (0 : Fin 2) * 5000 + 1 * (y 0).val
      rw [e0]
    | ⟨1, _⟩ =>
      show win1_0.index t (1 : Fin 2) * 16 + 1 * (y 1).val = win1_3.index t (1 : Fin 2) * 16 + 1 * (y 1).val
      rw [e1]
  · intro y
    show V c main_v13_1 (((cfg1.win 1).blk t).view.emb y) = V c main_v13_1 (((cfg1.win 3).blk t).view.emb y)
    refine congrArg (V c main_v13_1) (funext fun a => Fin.ext ?_)
    match a with
    | ⟨0, _⟩ =>
      show win1_1.index t (0 : Fin 2) * 5000 + 1 * (y 0).val = win1_3.index t (0 : Fin 2) * 5000 + 1 * (y 0).val
      rw [e2]
    | ⟨1, _⟩ =>
      show win1_1.index t (1 : Fin 2) * 16 + 1 * (y 1).val = win1_3.index t (1 : Fin 2) * 16 + 1 * (y 1).val
      rw [e3]
  · intro q
    show V c main_v42 (((cfg1.win 2).blk t).view.emb (ix2 0 q)) = V c main_v42 (ix2 0 q)
    refine congrArg (V c main_v42) (funext fun a => Fin.ext ?_)
    match a with
    | ⟨0, _⟩ =>
      show win1_2.index t (0 : Fin 2) * 1 + 1 * 0 = 0
      rw [e4]
    | ⟨1, _⟩ =>
      show win1_2.index t (1 : Fin 2) * 16 + 1 * q.val = q.val
      rw [e5]; omega
  · intro y
    show win1_3.index t (1 : Fin 2) * 16 + 1 * (y 1).val = (y 1).val
    rw [e7]; omega

/-- THE ARRAY region 1 leaves in its output window: max((agg + hs) + bias, 0) of the arrays it reads, the bias row
    repeated down the rows. -/
theorem combine1 (c : Dev nD) :
    (dat1 (F := Ideal) V c).arrAt 3 cfg1.N =
      maximumf (addf (addf (V c main_v41 : (⟨Cert.ReferenceIdeal.S100000x16, .f32⟩ : BufTy).Contents (Elt Ideal)) (V c main_v13_1))
          (broadcastInDim Cert.ReferenceIdeal.S100000x16 ![0, 1] Cert.ReferenceIdeal.Gen.bcast_S1x16_S100000x16_0_1 (V c main_v42)))
        (broadcastInDim Cert.ReferenceIdeal.S100000x16 ![] Cert.ReferenceIdeal.Gen.bcast_S_S100000x16 (constant (F := Ideal) Cert.ReferenceIdeal.S_ .f32 0x00000000#32)) :=
  (dat1 (F := Ideal) V c).arrAt_eq_of_cover 3 (comb1_fn (V c main_v41) (V c main_v13_1) (V c main_v42))
    (fun t _ => comb1_flushed_eq V c t) comb1_cover

end Cert.KernelIdeal.Bridge

end
-- ==== Proof.Layer1.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin0
import proofs.«152908_j39247411151511_1_alg».proof.Proof.Comb1
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer1_product : W2 m ρ c (Proc.devRef .tc main_v13_0) = (Cert.ReferenceIdeal.ReadP.val_main_v11 (F := Ideal) (m ((c : Thread nD τ).loc main_arg0)) (m ((c : Thread nD τ).loc main_arg3))) := by
  refine (W2_arr m ρ c 3).trans ((linear0_product (V1 m ρ) c).trans ?_)
  dsimp only [product0, V1]
  rw [(arg0_at1 m ρ c), (arg3_at1 m ρ c)]
  rfl

/-- The projection scaled by the squared inverse root degree of each row. -/
theorem layer1_scaled : W2 m ρ c (Proc.devRef .tc main_v13_1) = (Cert.ReferenceIdeal.ReadP.val_main_v43 (F := Ideal) (m ((c : Thread nD τ).loc main_arg0)) (m ((c : Thread nD τ).loc main_arg1)) (m ((c : Thread nD τ).loc main_arg3))) := by
  refine (W2_arr m ρ c 4).trans ((linear0_scaled (V1 m ρ) c).trans ?_)
  dsimp only [scaled0, product0, V1]
  rw [(arg0_at1 m ρ c), (arg3_at1 m ρ c), (column_at1 m ρ c)]
  rfl

set_option maxHeartbeats 1000000 in
/-- The aggregate over incoming edges: the same host operations as the reference's, on the same operands. -/
theorem layer1_aggregate : W3 m ρ c (Proc.devRef .tc main_v41) = (Cert.ReferenceIdeal.ReadP.val_main_v39 (F := Ideal) (m ((c : Thread nD τ).loc main_arg0)) (m ((c : Thread nD τ).loc main_arg1)) (m ((c : Thread nD τ).loc main_arg3))) := by
  show StableHlo.after hostOps1 (W2 m ρ c) (Proc.devRef .tc main_v41) = _
  dsimp only [hostOps1]
  after_results_simp
  rw [layer1_product m ρ c, ((carried_at2 m ρ c).src.trans (sources_at1 m ρ c)), ((carried_at2 m ρ c).dst.trans (targets_at1 m ρ c)),
    ((carried_at2 m ρ c).invroot.trans (invroot_at1 m ρ c))]
  rfl

/-- The bias as a row: reshaped here, broadcast along a leading axis in the reference. -/
theorem layer1_bias : W3 m ρ c (Proc.devRef .tc main_v42) = (Cert.ReferenceIdeal.ReadP.val_main_v45 (F := Ideal) (m ((c : Thread nD τ).loc main_arg4))) := by
  show StableHlo.after hostOps1 (W2 m ρ c) (Proc.devRef .tc main_v42) = _
  dsimp only [hostOps1]
  after_results
  rw [((carried_at2 m ρ c).arg4.trans (arg4_at1 m ρ c))]
  exact Cert.Layout.row_reshape_eq_broadcast _ _ _

/-- The host stretch writes none of the projection region's outputs. -/
theorem layer1_scaled_kept : W3 m ρ c (Proc.devRef .tc main_v13_1) = (Cert.ReferenceIdeal.ReadP.val_main_v43 (F := Ideal) (m ((c : Thread nD τ).loc main_arg0)) (m ((c : Thread nD τ).loc main_arg1)) (m ((c : Thread nD τ).loc main_arg3))) :=
  (by host_keeps : W3 m ρ c (Proc.devRef .tc main_v13_1) = W2 m ρ c (Proc.devRef .tc main_v13_1)).trans (layer1_scaled m ρ c)

/-- The layer's output: aggregate plus scaled projection plus bias, clamped at zero. -/
theorem layer1_out : W4 m ρ c (Proc.devRef .tc main_v43) = (Cert.ReferenceIdeal.ReadP.val_main_v48 (F := Ideal) (m ((c : Thread nD τ).loc main_arg0)) (m ((c : Thread nD τ).loc main_arg1)) (m ((c : Thread nD τ).loc main_arg3)) (m ((c : Thread nD τ).loc main_arg4))) := by
  refine (W4_arr m ρ c 3).trans ((combine1 (V3 m ρ) c).trans ?_)
  dsimp only [V3]
  rw [layer1_aggregate m ρ c, layer1_scaled_kept m ρ c, layer1_bias m ρ c]
  rfl

end Cert.KernelIdeal.Bridge

end
-- ==== Proof.Layer2.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin2
import proofs.«152908_j39247411151511_1_alg».proof.Proof.Comb3
import proofs.«152908_j39247411151511_1_alg».proof.Proof.Layer1
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer2_product : W5 m ρ c (Proc.devRef .tc main_v44_0) = (Cert.ReferenceIdeal.ReadP.val_main_v49 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W5_arr m ρ c 3).trans ((linear2_product (V4 m ρ) c).trans ?_)
  dsimp only [product2, V4]
  rw [(layer1_out m ρ c), ((carried_at4 m ρ c).arg5.trans (arg5_at1 m ρ c))]
  rfl

/-- The projection scaled by the squared inverse root degree of each row. -/
theorem layer2_scaled : W5 m ρ c (Proc.devRef .tc main_v44_1) = (Cert.ReferenceIdeal.ReadP.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  refine (W5_arr m ρ c 4).trans ((linear2_scaled (V4 m ρ) c).trans ?_)
  dsimp only [scaled2, product2, V4]
  rw [(layer1_out m ρ c), ((carried_at4 m ρ c).arg5.trans (arg5_at1 m ρ c)), ((carried_at4 m ρ c).column.trans (column_at1 m ρ c))]
  rfl

set_option maxHeartbeats 1000000 in
/-- The aggregate over incoming edges: the same host operations as the reference's, on the same operands. -/
theorem layer2_aggregate : W6 m ρ c (Proc.devRef .tc main_v72) = (Cert.ReferenceIdeal.ReadP.val_main_v77 (F := Ideal) (m ((c : Thread nD τ).loc main_arg0)) (m ((c : Thread nD τ).loc main_arg1)) (m ((c : Thread nD τ).loc main_arg3)) (m ((c : Thread nD τ).loc main_arg4)) (m ((c : Thread nD τ).loc main_arg5))) := by
  show StableHlo.after hostOps3 (W5 m ρ c) (Proc.devRef .tc main_v72) = _
  dsimp only [hostOps3]
  after_results_simp
  rw [layer2_product m ρ c, ((carried_at5 m ρ c).src.trans (sources_at1 m ρ c)), ((carried_at5 m ρ c).dst.trans (targets_at1 m ρ c)),
    ((carried_at5 m ρ c).invroot.trans (invroot_at1 m ρ c))]
  rfl

/-- The bias as a row: reshaped here, broadcast along a leading axis in the reference. -/
theorem layer2_bias : W6 m ρ c (Proc.devRef .tc main_v73) = (Cert.ReferenceIdeal.ReadP.val_main_v83 (F := Ideal) (m ((c : Thread nD τ).loc main_arg6))) := by
  show StableHlo.after hostOps3 (W5 m ρ c) (Proc.devRef .tc main_v73) = _
  dsimp only [hostOps3]
  after_results
  rw [((carried_at5 m ρ c).arg6.trans (arg6_at1 m ρ c))]
  exact Cert.Layout.row_reshape_eq_broadcast _ _ _

/-- The host stretch writes none of the projection region's outputs. -/
theorem layer2_scaled_kept : W6 m ρ c (Proc.devRef .tc main_v44_1) = (Cert.ReferenceIdeal.ReadP.val_main_v81 (F := Ideal) (m ((c : Thread nD τ).loc main_arg0)) (m ((c : Thread nD τ).loc main_arg1)) (m ((c : Thread nD τ).loc main_arg3)) (m ((c : Thread nD τ).loc main_arg4)) (m ((c : Thread nD τ).loc main_arg5))) :=
  (by host_keeps : W6 m ρ c (Proc.devRef .tc main_v44_1) = W5 m ρ c (Proc.devRef .tc main_v44_1)).trans (layer2_scaled m ρ c)

/-- The layer's output: aggregate plus scaled projection plus bias, clamped at zero. -/
theorem layer2_out : W7 m ρ c (Proc.devRef .tc main_v74) = (Cert.ReferenceIdeal.ReadP.val_main_v86 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) := by
  refine (W7_arr m ρ c 3).trans ((combine3 (V6 m ρ) c).trans ?_)
  dsimp only [V6]
  rw [layer2_aggregate m ρ c, layer2_scaled_kept m ρ c, layer2_bias m ρ c]
  rfl

end Cert.KernelIdeal.Bridge

end
-- ==== Proof.Layer3.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin4
import proofs.«152908_j39247411151511_1_alg».proof.Proof.Comb5
import proofs.«152908_j39247411151511_1_alg».proof.Proof.Layer2
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer3_product : W8 m ρ c (Proc.devRef .tc main_v75_0) = (Cert.ReferenceIdeal.ReadP.val_main_v87 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 3).trans ((linear4_product (V7 m ρ) c).trans ?_)
  dsimp only [product4, V7]
  rw [(layer2_out m ρ c), ((carried_at7 m ρ c).arg7.trans (arg7_at1 m ρ c))]
  rfl

/-- The projection scaled by the squared inverse root degree of each row. -/
theorem layer3_scaled : W8 m ρ c (Proc.devRef .tc main_v75_1) = (Cert.ReferenceIdeal.ReadP.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  refine (W8_arr m ρ c 4).trans ((linear4_scaled (V7 m ρ) c).trans ?_)
  dsimp only [scaled4, product4, V7]
  rw [(layer2_out m ρ c), ((carried_at7 m ρ c).arg7.trans (arg7_at1 m ρ c)), ((carried_at7 m ρ c).column.trans (column_at1 m ρ c))]
  rfl

set_option maxHeartbeats 1000000 in
/-- The aggregate over incoming edges: the same host operations as the reference's, on the same operands. -/
theorem layer3_aggregate : W9 m ρ c (Proc.devRef .tc main_v103) = (Cert.ReferenceIdeal.ReadP.val_main_v115 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) := by
  show StableHlo.after hostOps5 (W8 m ρ c) (Proc.devRef .tc main_v103) = _
  dsimp only [hostOps5]
  after_results_simp
  rw [layer3_product m ρ c, ((carried_at8 m ρ c).src.trans (sources_at1 m ρ c)), ((carried_at8 m ρ c).dst.trans (targets_at1 m ρ c)),
    ((carried_at8 m ρ c).invroot.trans (invroot_at1 m ρ c))]
  rfl

/-- The bias as a row: reshaped here, broadcast along a leading axis in the reference. -/
theorem layer3_bias : W9 m ρ c (Proc.devRef .tc main_v104) = (Cert.ReferenceIdeal.ReadP.val_main_v121 (F := Ideal) (m ((c : Thread nD τ).loc main_arg8))) := by
  show StableHlo.after hostOps5 (W8 m ρ c) (Proc.devRef .tc main_v104) = _
  dsimp only [hostOps5]
  after_results
  rw [((carried_at8 m ρ c).arg8.trans (arg8_at1 m ρ c))]
  exact Cert.Layout.row_reshape_eq_broadcast _ _ _

/-- The host stretch writes none of the projection region's outputs. -/
theorem layer3_scaled_kept : W9 m ρ c (Proc.devRef .tc main_v75_1) = (Cert.ReferenceIdeal.ReadP.val_main_v119 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7))) :=
  (by host_keeps : W9 m ρ c (Proc.devRef .tc main_v75_1) = W8 m ρ c (Proc.devRef .tc main_v75_1)).trans (layer3_scaled m ρ c)

/-- The layer's output: aggregate plus scaled projection plus bias, clamped at zero. -/
theorem layer3_out : W10 m ρ c (Proc.devRef .tc main_v105) = (Cert.ReferenceIdeal.ReadP.val_main_v124 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (W10_arr m ρ c 3).trans ((combine5 (V9 m ρ) c).trans ?_)
  dsimp only [V9]
  rw [layer3_aggregate m ρ c, layer3_scaled_kept m ρ c, layer3_bias m ρ c]
  rfl

end Cert.KernelIdeal.Bridge

end
-- ==== Proof.PoolMean.lean ====
import proofs.«152908_j39247411151511_1_alg».proof.Proof.Keep
import proofs.«152908_j39247411151511_1_alg».proof.Proof.ReadP
import proofs.«152908_j39247411151511_1_alg».proof.Proof.Stage0
import proofs.«152908_j39247411151511_1_alg».proof.Proof.Layer3
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  The mean pool of the first branch: the host operations after its third layer sum the layer's rows per graph, count the
  nodes per graph, and divide by the count clamped below at one — the reference's own operations on the same operands.
  Nothing after that stretch writes the pooled array, so it ends the run unchanged.
-/

set_option maxHeartbeats 1000000 in
/-- The pooled mean of the first branch, where the stretch that computes it ends. -/
theorem pool_mean_at11 : W11 m ρ c (Proc.devRef .tc main_v117) = (Cert.ReferenceIdeal.ReadP.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show StableHlo.after hostOps6 (W10 m ρ c) (Proc.devRef .tc main_v117) = _
  dsimp only [hostOps6]
  after_results_simp
  rw [layer3_out m ρ c, ((carried_at10 m ρ c).arg2.trans (arg2_at1 m ρ c))]
  rfl

/-- It is still there when the last stretch before the decoder starts … -/
theorem pool_mean_at20 : W20 m ρ c (Proc.devRef .tc main_v117) = (Cert.ReferenceIdeal.ReadP.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (W20_of_ne m ρ c main_v117 (by decide)).trans <|
  (by host_keeps : W19 m ρ c (Proc.devRef .tc main_v117) = W18 m ρ c (Proc.devRef .tc main_v117)).trans <|
  (W18_of_ne m ρ c main_v117 (by decide)).trans <|
  (W17_of_ne m ρ c main_v117 (by decide)).trans <|
  (by host_keeps : W16 m ρ c (Proc.devRef .tc main_v117) = W15 m ρ c (Proc.devRef .tc main_v117)).trans <|
  (W15_of_ne m ρ c main_v117 (by decide)).trans <|
  (W14_of_ne m ρ c main_v117 (by decide)).trans <|
  (by host_keeps : W13 m ρ c (Proc.devRef .tc main_v117) = W12 m ρ c (Proc.devRef .tc main_v117)).trans <|
  (W12_of_ne m ρ c main_v117 (by decide)).trans (pool_mean_at11 m ρ c)

/-- … and at the end of the run. -/
theorem pool_mean_final : W23 m ρ c (Proc.devRef .tc main_v117) = (Cert.ReferenceIdeal.ReadP.val_main_v136 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) :=
  (by host_keeps : W23 m ρ c (Proc.devRef .tc main_v117) = W22 m ρ c (Proc.devRef .tc main_v117)).trans <|
  (W22_of_ne m ρ c main_v117 (by decide)).trans <|
  (by host_keeps : W21 m ρ c (Proc.devRef .tc main_v117) = W20 m ρ c (Proc.devRef .tc main_v117)).trans (pool_mean_at20 m ρ c)

end Cert.KernelIdeal.Bridge

end
-- ==== Proof.Lin10.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 32] block of the input by the whole
  [32, 64] weight (both rounded to a narrower format first, which is the identity over the extended reals) into a zero
  accumulator, stores the product, and stores a second copy scaled row by row by the [5000, 1] block of a column. The twenty
  row blocks tile the [100000, 64] outputs, so after the region the first output is the whole matrix product and the
  second the product scaled by the column broadcast along the rows.
-/

theorem zero_offsets10 : (![0, 0] : Fin 2 → Nat) = fun _ => 0 := funext fun a => by fin_cases a <;> rfl

/-- The block index of every window at grid point `t`: the row-blocked windows sit at row block `t`, the weight at the origin. -/
theorem block_index10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = t.val ∧ win10_2.index t (1 : Fin 2) = 0
    ∧ win10_3.index t (0 : Fin 2) = t.val ∧ win10_3.index t (1 : Fin 2) = 0
    ∧ win10_4.index t (0 : Fin 2) = t.val ∧ win10_4.index t (1 : Fin 2) = 0 :=
  (by decide +kernel : ∀ t : Fin grid10.N, _)

/-- The host's matrix product at an entry is the inner product of a row with a column. -/
theorem host_product_at10 (l : FVec Ideal Cert.ReferenceIdeal.S100000x32 .f32) (r : FVec Ideal Cert.ReferenceIdeal.S32x64 .f32)
    (p : Fin 100000) (q : Fin 64) :
    Host.dotGeneral Cert.ReferenceIdeal.dot_S100000x32_S32x64_S100000x64_1_0_0_1_n_n none l r (ix2 p q)
      = ∑ k : Fin 32, l (ix2 p k) * r (ix2 k q) := by
  simp only [Host.dotGeneral]
  exact Cert.DotNN.dotGeneral_apply _ rfl _ _ l r p q

/-- The stored product at entry (p, q) of the block. -/
theorem product_at10 (x0 : Vec Ideal S5000x32 .f32) (x1 : Vec Ideal S32x64 .f32) (p : Fin 5000) (q : Fin 64) :
    k10_pay1 (F := Ideal) x0 x1 (ix2 p q) = ∑ k : Fin 32, x0 (ix2 p k) * x1 (ix2 k q) := by
  unfold k10_pay1
  rw [shapeCast_self]
  exact Cert.MatmulNN.matmul_zero_apply _ rfl none _ _ p q

/-- The scaled copy at entry (p, q): the product times the column's entry of row p. -/
theorem scaled_at10 (x0 : Vec Ideal S5000x32 .f32) (x1 : Vec Ideal S32x64 .f32) (x2 : Vec Ideal S5000x1 .f32)
    (p : Fin 5000) (q : Fin 64) :
    k10_pay2 (F := Ideal) x0 x1 x2 (ix2 p q) = (∑ k : Fin 32, x0 (ix2 p k) * x1 (ix2 k q)) * x2 (ix2 p 0) := by
  unfold k10_pay2
  rw [mulf_apply, product_at10, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry10 (t : Fin cfg10.N) (p : Fin 5000) (k : Fin 32) :
    ((cfg10.win 0).blk t).view.emb (ix2 p k)
      = ix2 (⟨t.val * 5000 + p.val, by have ht : t.val < 20 := t.isLt; have := p.isLt; omega⟩ : Fin 100000) k := by
  obtain ⟨e00, e01, -⟩ := block_index10 t
  funext a; apply Fin.ext
  match a with
  | ⟨0, _⟩ => show win10_0.index t (0 : Fin 2) * 5000 + 1 * p.val = t.val * 5000 + p.val; omega
  | ⟨1, _⟩ => show win10_0.index t (1 : Fin 2) * 32 + 1 * k.val = k.val; omega

/-- The weight's block is the whole weight. -/
theorem weight_entry10 (t : Fin cfg10.N) (k : Fin 32) (q : Fin 64) :
    ((cfg10.win 1).blk t).view.emb (ix2 k q) = ix2 k q := by
  obtain ⟨-, -, e10, e11, -⟩ := block_index10 t
  funext a; apply Fin.ext
  match a with
  | ⟨0, _⟩ => show win10_1.index t (0 : Fin 2) * 32 + 1 * k.val = k.val; omega
  | ⟨1, _⟩ => show win10_1.index t (1 : Fin 2) * 64 + 1 * q.val = q.val; omega

/-- Where block entry (p, 0) of the column sits in its array. -/
theorem column_entry10 (t : Fin cfg10.N) (p : Fin 5000) :
    ((cfg10.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index10 t
  funext a; apply Fin.ext
  match a with
  | ⟨0, _⟩ => show win10_2.index t (0 : Fin 2) * 5000 + 1 * p.val = t.val * 5000 + p.val; omega
  | ⟨1, _⟩ => show win10_2.index t (1 : Fin 2) * 1 + 1 * 0 = 0; omega

/-- Where block entry (p, q) of the first output sits in its array. -/
theorem product_entry10 (t : Fin cfg10.N) (p : Fin 5000) (q : Fin 64) :
    ((cfg10.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index10 t
  funext a; apply Fin.ext
  match a with
  | ⟨0, _⟩ => show win10_3.index t (0 : Fin 2) * 5000 + 1 * p.val = t.val * 5000 + p.val; omega
  | ⟨1, _⟩ => show win10_3.index t (1 : Fin 2) * 64 + 1 * q.val = q.val; omega

/-- Where block entry (p, q) of the second output sits in its array. -/
theorem scaled_entry10 (t : Fin cfg10.N) (p : Fin 5000) (q : Fin 64) :
    ((cfg10.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index10 t
  funext a; apply Fin.ext
  match a with
  | ⟨0, _⟩ => show win10_4.index t (0 : Fin 2) * 5000 + 1 * p.val = t.val * 5000 + p.val; omega
  | ⟨1, _⟩ => show win10_4.index t (1 : Fin 2) * 64 + 1 * q.val = q.val; omega

/-- The whole matrix product, spelt as the host's operation on the arrays the region finds. -/
abbrev product10 (c : Dev nD) : FVec Ideal Cert.ReferenceIdeal.S100000x64 .f32 :=
  Host.dotGeneral (F := Ideal) (φ₁ := .f32) (φ₂ := .f32) Cert.ReferenceIdeal.dot_S100000x32_S32x64_S100000x64_1_0_0_1_n_n none (V c main_v179) (V c main_arg13)

/-- The product scaled row by row by the column, spelt as the host's operations. -/
abbrev scaled10 (c : Dev nD) : FVec Ideal Cert.ReferenceIdeal.S100000x64 .f32 :=
  mulf (product10 V c) (broadcastInDim Cert.ReferenceIdeal.S100000x64 ![0, 1] Cert.ReferenceIdeal.Gen.bcast_S100000x1_S100000x64_0_1 (V c main_v12))

/-- What point `t` writes back to the first output is block `t` of the whole product. -/
theorem product_flushed10 (c : Dev nD) (t : Fin cfg10.N) :
    (dat10 (F := Ideal) V c).flushed 3 t = ((cfg10.win 3).blk t).view.read (Elt Ideal) (product10 V c) := by
  show (cfg10.win 3).cut (grid10.coords t) ((dat10 V c).after 3 t) = _
  rw [after10_3]
  unfold out10_3
  rw [View.canon_unit_zero zero_offsets10]
  simp only [View.ld_unit_zero (S := S5000x32) zero_offsets10, View.ld_unit_zero (S := S32x64) zero_offsets10]
  funext j
  obtain ⟨p, q, rfl⟩ : ∃ (p : Fin 5000) (q : Fin 64), j = ix2 p q := ⟨j 0, j 1, eq_ix2 j⟩
  show k10_pay1 (F := Ideal) (iblk10 V c 0 t) (iblk10 V c 1 t) (ix2 p q)
    = product10 V c (((cfg10.win 3).blk t).view.emb (ix2 p q))
  rw [product_at10, product_entry10]
  unfold product10
  rw [host_product_at10]
  refine Finset.sum_congr rfl fun k _ => ?_
  refine congrArg₂ (· * ·) ?_ ?_
  · show V c main_v179 (((cfg10.win 0).blk t).view.emb (ix2 p k)) = _
    rw [input_entry10]
  · show V c main_arg13 (((cfg10.win 1).blk t).view.emb (ix2 k q)) = _
    rw [weight_entry10]

/-- What point `t` writes back to the second output is block `t` of the scaled product. -/
theorem scaled_flushed10 (c : Dev nD) (t : Fin cfg10.N) :
    (dat10 (F := Ideal) V c).flushed 4 t = ((cfg10.win 4).blk t).view.read (Elt Ideal) (scaled10 V c) := by
  show (cfg10.win 4).cut (grid10.coords t) ((dat10 V c).after 4 t) = _
  rw [after10_4]
  unfold out10_4
  rw [View.canon_unit_zero zero_offsets10]
  simp only [View.ld_unit_zero (S := S5000x32) zero_offsets10, View.ld_unit_zero (S := S32x64) zero_offsets10,
    View.ld_unit_zero (S := S5000x1) zero_offsets10]
  funext j
  obtain ⟨p, q, rfl⟩ : ∃ (p : Fin 5000) (q : Fin 64), j = ix2 p q := ⟨j 0, j 1, eq_ix2 j⟩
  show k10_pay2 (F := Ideal) (iblk10 V c 0 t) (iblk10 V c 1 t) (iblk10 V c 2 t) (ix2 p q)
    = scaled10 V c (((cfg10.win 4).blk t).view.emb (ix2 p q))
  rw [scaled_at10, scaled_entry10]
  unfold scaled10 product10
  rw [mulf_apply, host_product_at10]
  congr 1
  · refine Finset.sum_congr rfl fun k _ => ?_
    refine congrArg₂ (· * ·) ?_ ?_
    · show V c main_v179 (((cfg10.win 0).blk t).view.emb (ix2 p k)) = _
      rw [input_entry10]
    · show V c main_arg13 (((cfg10.win 1).blk t).view.emb (ix2 k q)) = _
      rw [weight_entry10]
  · show V c main_v12 (((cfg10.win 2).blk t).view.emb (ix2 p (0 : Fin 1))) = _
    rw [column_entry10]
    exact (broadcastInDim_apply _ _ _ _ _ (fun a => by match a with | ⟨0, _⟩ => rfl | ⟨1, _⟩ => rfl)).symm

/-- An index of the first output's array is in point `t`'s block iff each coordinate is in the block's range. -/
theorem mem_product_block10 (t : Fin cfg10.N) (i : S100000x64.Idx) :
    i ∈ ((cfg10.win 3).blk t).view.set ↔ ∀ a : Fin 2, win10_3.index t a * S5000x64.size a ≤ (i a).val ∧ (i a).val < win10_3.index t a * S5000x64.size a + S5000x64.size a := by
  show i ∈ ((View.whole main_v180_0).slice (win10_3.rect t)).set ↔ _
  rw [View.set_slice_whole, Rect.mem_set_unit]
  exact Iff.rfl

theorem mem_scaled_block10 (t : Fin cfg10.N) (i : S100000x64.Idx) :
    i ∈ ((cfg10.win 4).blk t).view.set ↔ ∀ a : Fin 2, win10_4.index t a * S5000x64.size a ≤ (i a).val ∧ (i a).val < win10_4.index t a * S5000x64.size a + S5000x64.size a := by
  show i ∈ ((View.whole main_v180_1).slice (win10_4.rect t)).set ↔ _
  rw [View.set_slice_whole, Rect.mem_set_unit]
  exact Iff.rfl

/-- Row r lies in row block r / 5000: the twenty blocks tile each output. -/
theorem product_cover10 (i : S100000x64.Idx) :
    ∃ t : Fin cfg10.N, (cfg10.win 3).flush t = true ∧ i ∈ ((cfg10.win 3).blk t).view.set := by
  have hi0 : (i 0).val < 100000 := (i 0).isLt
  have hi1 : (i 1).val < 64 := (i 1).isLt
  have hb : (i 0).val / 5000 < 20 := by omega
  obtain ⟨-, -, -, -, -, -, e30, e31, -⟩ := block_index10 ⟨(i 0).val / 5000, hb⟩
  refine ⟨⟨(i 0).val / 5000, hb⟩, flush10_3 _, ?_⟩
  rw [mem_product_block10]
  intro a
  match a with
  | ⟨0, _⟩ =>
    show win10_3.index ⟨(i 0).val / 5000, hb⟩ (0 : Fin 2) * 5000 ≤ (i 0).val ∧ (i 0).val < win10_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win10_3.index ⟨(i 0).val / 5000, hb⟩ (1 : Fin 2) * 64 ≤ (i 1).val ∧ (i 1).val < win10_3.index ⟨(i 0).val / 5000, hb⟩ (1 : Fin 2) * 64 + 64
    rw [e31]; omega

theorem scaled_cover10 (i : S100000x64.Idx) :
    ∃ t : Fin cfg10.N, (cfg10.win 4).flush t = true ∧ i ∈ ((cfg10.win 4).blk t).view.set := by
  have hi0 : (i 0).val < 100000 := (i 0).isLt
  have hi1 : (i 1).val < 64 := (i 1).isLt
  have hb : (i 0).val / 5000 < 20 := by omega
  obtain ⟨-, -, -, -, -, -, -, -, e40, e41⟩ := block_index10 ⟨(i 0).val / 5000, hb⟩
  refine ⟨⟨(i 0).val / 5000, hb⟩, flush10_4 _, ?_⟩
  rw [mem_scaled_block10]
  intro a
  match a with
  | ⟨0, _⟩ =>
    show win10_4.index ⟨(i 0).val / 5000, hb⟩ (0 : Fin 2) * 5000 ≤ (i 0).val ∧ (i 0).val < win10_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win10_4.index ⟨(i 0).val / 5000, hb⟩ (1 : Fin 2) * 64 ≤ (i 1).val ∧ (i 1).val < win10_4.index ⟨(i 0).val / 5000, hb⟩ (1 : Fin 2) * 64 + 64
    rw [e41]; omega

/-- After the region the first output is the whole matrix product of the arrays the region found. -/
theorem linear10_product (c : Dev nD) : (dat10 (F := Ideal) V c).arrAt 3 cfg10.N = product10 V c :=
  (dat10 (F := Ideal) V c).arrAt_eq_of_cover 3 (product10 V c) (fun t _ => product_flushed10 V c t) (product_cover10)

/-- After the region the second output is that product scaled row by row by the column. -/
theorem linear10_scaled (c : Dev nD) : (dat10 (F := Ideal) V c).arrAt 4 cfg10.N = scaled10 V c :=
  (dat10 (F := Ideal) V c).arrAt_eq_of_cover 4 (scaled10 V c) (fun t _ => scaled_flushed10 V c t) (scaled_cover10)

end Cert.KernelIdeal.Bridge

end
-- ==== Proof.Comb11.lean ====
/- Region 11 of the kernel program (the combine step at width 64): the array its output window leaves is
   max((agg + hs) + bias, 0), index by index, of the three arrays the region reads, the [1, 64] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb11_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb11_idx : ∀ t : Fin cfg11.N, win11_0.index t (0 : Fin 2) = win11_3.index t (0 : Fin 2)
    ∧ win11_0.index t (1 : Fin 2) = win11_3.index t (1 : Fin 2)
    ∧ win11_1.index t (0 : Fin 2) = win11_3.index t (0 : Fin 2)
    ∧ win11_1.index t (1 : Fin 2) = win11_3.index t (1 : Fin 2)
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- The body's payload at an index: max((x0(p,q) + x1(p,q)) + x2(0,q), 0). The shape casts are to the same shape, the
    [1, 64] block is repeated down the rows, the zero is a splat. -/
theorem comb11_pay_apply (x0 x1 : Vec Ideal S5000x64 .f32) (x2 : Vec Ideal S1x64 .f32) (p : Fin 5000) (q : Fin 64) :
    k11_pay1 (F := Ideal) x0 x1 x2 (ix2 p q)
      = max ((x0 (ix2 p q) + x1 (ix2 p q)) + x2 (ix2 0 q)) (Scalar.ofBits (F := Ideal) .f32 0x00000000#32) := by
  unfold k11_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb11_fn (A H : (⟨Cert.ReferenceIdeal.S100000x64, .f32⟩ : BufTy).Contents (Elt Ideal))
    (B : (⟨Cert.ReferenceIdeal.S1x64, .f32⟩ : BufTy).Contents (Elt Ideal)) :
    (⟨Cert.ReferenceIdeal.S100000x64, .f32⟩ : BufTy).Contents (Elt Ideal) :=
  maximumf (addf (addf A H) (broadcastInDim Cert.ReferenceIdeal.S100000x64 ![0, 1] Cert.ReferenceIdeal.Gen.bcast_S1x64_S100000x64_0_1 B))
    (broadcastInDim Cert.ReferenceIdeal.S100000x64 ![] Cert.ReferenceIdeal.Gen.bcast_S_S100000x64 (constant (F := Ideal) Cert.ReferenceIdeal.S_ .f32 0x00000000#32))

/-- The row B repeated down the rows, at (p, q), is B(0, q). -/
theorem comb11_rows_apply (B : (⟨Cert.ReferenceIdeal.S1x64, .f32⟩ : BufTy).Contents (Elt Ideal)) (p : Fin 100000) (q : Fin 64) :
    broadcastInDim Cert.ReferenceIdeal.S100000x64 ![0, 1] Cert.ReferenceIdeal.Gen.bcast_S1x64_S100000x64_0_1 B (ix2 p q) = B (ix2 0 q) :=
  broadcastInDim_apply _ Cert.ReferenceIdeal.Gen.bcast_S1x64_S100000x64_0_1 B (ix2 p q) (ix2 0 q) (fun a => match a with
    | ⟨0, _⟩ => by show 0 = if (1 : Nat) = 1 then 0 else p.val; rw [if_pos rfl]
    | ⟨1, _⟩ => by show q.val = if (64 : Nat) = 1 then 0 else q.val; rw [if_neg (by decide)])

/-- The zero repeated everywhere, at any index, is zero. -/
theorem comb11_zero_apply (i : Cert.ReferenceIdeal.S100000x64.Idx) :
    broadcastInDim Cert.ReferenceIdeal.S100000x64 ![] Cert.ReferenceIdeal.Gen.bcast_S_S100000x64 (constant (F := Ideal) Cert.ReferenceIdeal.S_ .f32 0x00000000#32) i
      = Scalar.ofBits (F := Ideal) .f32 0x00000000#32 :=
  (broadcastInDim_apply _ Cert.ReferenceIdeal.Gen.bcast_S_S100000x64 (constant (F := Ideal) Cert.ReferenceIdeal.S_ .f32 0x00000000#32) i
    (fun a => a.elim0) (fun a => a.elim0)).trans rfl

/-- That function at an index: max((A(p,q) + H(p,q)) + B(0,q), 0). -/
theorem comb11_fn_apply (A H : (⟨Cert.ReferenceIdeal.S100000x64, .f32⟩ : BufTy).Contents (Elt Ideal))
    (B : (⟨Cert.ReferenceIdeal.S1x64, .f32⟩ : BufTy).Contents (Elt Ideal)) (p : Fin 100000) (q : Fin 64) :
    comb11_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x64 ![0, 1] Cert.ReferenceIdeal.Gen.bcast_S1x64_S100000x64_0_1 B (ix2 p q))
      (broadcastInDim Cert.ReferenceIdeal.S100000x64 ![] Cert.ReferenceIdeal.Gen.bcast_S_S100000x64 (constant (F := Ideal) Cert.ReferenceIdeal.S_ .f32 0x00000000#32) (ix2 p q)) = _
  rw [comb11_rows_apply, comb11_zero_apply]

/-- ONE POINT, over plain vectors: when the two row-blocked input blocks are the arrays A and H read along an
    embedding e of block indices that keeps the column, and the bias block is the row B, the payload at j is the
    whole-array function at e j. -/
theorem comb11_point (A H : (⟨Cert.ReferenceIdeal.S100000x64, .f32⟩ : BufTy).Contents (Elt Ideal))
    (B : (⟨Cert.ReferenceIdeal.S1x64, .f32⟩ : BufTy).Contents (Elt Ideal))
    (x0 x1 : Vec Ideal S5000x64 .f32) (x2 : Vec Ideal S1x64 .f32) (e : S5000x64.Idx → Cert.ReferenceIdeal.S100000x64.Idx)
    (h0 : ∀ y, x0 y = A (e y)) (h1 : ∀ y, x1 y = H (e y)) (h2 : ∀ q : Fin 64, x2 (ix2 0 q) = B (ix2 0 q))
    (he : ∀ y, (e y 1).val = (y 1).val) (j : S5000x64.Idx) :
    k11_pay1 (F := Ideal) x0 x1 x2 j = comb11_fn A H B (e j) := by
  obtain ⟨p, q, rfl⟩ : ∃ (p : Fin 5000) (q : Fin 64), j = ix2 p q := ⟨j 0, j 1, eq_ix2 j⟩
  have hi : (e (ix2 p q) 1).val = q.val := he (ix2 p q)
  rw [comb11_pay_apply, h0, h1, h2]
  generalize e (ix2 p q) = i at hi ⊢
  obtain ⟨p', q', rfl⟩ : ∃ (p' : Fin 100000) (q' : Fin 64), i = ix2 p' q' := ⟨i 0, i 1, eq_ix2 i⟩
  have hq : q' = q := Fin.ext hi
  subst hq
  rw [comb11_fn_apply]

/-- An index of the output array is in point t's block iff each coordinate is in the block's range on its axis. -/
theorem comb11_mem_blk (t : Fin cfg11.N) (i : S100000x64.Idx) :
    i ∈ ((cfg11.win 3).blk t).view.set ↔ ∀ a : Fin 2, win11_3.index t a * S5000x64.size a ≤ (i a).val
      ∧ (i a).val < win11_3.index t a * S5000x64.size a + S5000x64.size a := by
  show i ∈ ((View.whole main_v210).slice (win11_3.rect t)).set ↔ _
  rw [View.set_slice_whole, Rect.mem_set_unit]
  exact Iff.rfl

/-- Every index of the output array lies in some point's block: row r lies in the block of point r / 5000. -/
theorem comb11_cover (i : S100000x64.Idx) :
    ∃ t : Fin cfg11.N, (cfg11.win 3).flush t = true ∧ i ∈ ((cfg11.win 3).blk t).view.set := by
  have hi0 : (i 0).val < 100000 := (i 0).isLt
  have hi1 : (i 1).val < 64 := (i 1).isLt
  have hN : (i 0).val / 5000 < cfg11.N := by show (i 0).val / 5000 < 20; omega
  refine ⟨⟨(i 0).val / 5000, hN⟩, flush11_3 _, ?_⟩
  rw [comb11_mem_blk]
  obtain ⟨-, -, -, -, -, -, e6, e7⟩ := comb11_idx ⟨(i 0).val / 5000, hN⟩
  have e6' : win11_3.index ⟨(i 0).val / 5000, hN⟩ (0 : Fin 2) = (i 0).val / 5000 := e6
  intro a
  match a with
  | ⟨0, _⟩ =>
    show win11_3.index ⟨(i 0).val / 5000, hN⟩ (0 : Fin 2) * 5000 ≤ (i 0).val
      ∧ (i 0).val < win11_3.index ⟨(i 0).val / 5000, hN⟩ (0 : Fin 2) * 5000 + 5000
    rw [e6']; omega
  | ⟨1, _⟩ =>
    show win11_3.index ⟨(i 0).val / 5000, hN⟩ (1 : Fin 2) * 64 ≤ (i 1).val
      ∧ (i 1).val < win11_3.index ⟨(i 0).val / 5000, hN⟩ (1 : Fin 2) * 64 + 64
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb11_flushed_eq (c : Dev nD) (t : Fin cfg11.N) :
    (dat11 (F := Ideal) V c).flushed 3 t
      = ((cfg11.win 3).blk t).view.read (Elt Ideal) (comb11_fn (V c main_v208) (V c main_v180_1) (V c main_v209)) := by
  show (cfg11.win 3).cut (grid11.coords t) ((dat11 (F := Ideal) V c).after 3 t) = _
  rw [after11_3]
  unfold out11_3
  rw [View.canon_unit_zero comb11_zeros]
  simp only [View.ld_unit_zero (S := S5000x64) comb11_zeros, View.ld_unit_zero (S := S1x64) comb11_zeros]
  obtain ⟨e0, e1, e2, e3, e4, e5, e6, e7⟩ := comb11_idx t
  funext j
  refine comb11_point (V c main_v208) (V c main_v180_1) (V c main_v209) (iblk11 V c 0 t) (iblk11 V c 1 t) (iblk11 V c 2 t)
    (((cfg11.win 3).blk t).view.emb) ?_ ?_ ?_ ?_ j
  · intro y
    show V c main_v208 (((cfg11.win 0).blk t).view.emb y) = V c main_v208 (((cfg11.win 3).blk t).view.emb y)
    refine congrArg (V c main_v208) (funext fun a => Fin.ext ?_)
    match a with
    | ⟨0, _⟩ =>
      show win11_0.index t (0 : Fin 2) * 5000 + 1 * (y 0).val = win11_3.index t (0 : Fin 2) * 5000 + 1 * (y 0).val
      rw [e0]
    | ⟨1, _⟩ =>
      show win11_0.index t (1 : Fin 2) * 64 + 1 * (y 1).val = win11_3.index t (1 : Fin 2) * 64 + 1 * (y 1).val
      rw [e1]
  · intro y
    show V c main_v180_1 (((cfg11.win 1).blk t).view.emb y) = V c main_v180_1 (((cfg11.win 3).blk t).view.emb y)
    refine congrArg (V c main_v180_1) (funext fun a => Fin.ext ?_)
    match a with
    | ⟨0, _⟩ =>
      show win11_1.index t (0 : Fin 2) * 5000 + 1 * (y 0).val = win11_3.index t (0 : Fin 2) * 5000 + 1 * (y 0).val
      rw [e2]
    | ⟨1, _⟩ =>
      show win11_1.index t (1 : Fin 2) * 64 + 1 * (y 1).val = win11_3.index t (1 : Fin 2) * 64 + 1 * (y 1).val
      rw [e3]
  · intro q
    show V c main_v209 (((cfg11.win 2).blk t).view.emb (ix2 0 q)) = V c main_v209 (ix2 0 q)
    refine congrArg (V c main_v209) (funext fun a => Fin.ext ?_)
    match a with
    | ⟨0, _⟩ =>
      show win11_2.index t (0 : Fin 2) * 1 + 1 * 0 = 0
      rw [e4]
    | ⟨1, _⟩ =>
      show win11_2.index t (1 : Fin 2) * 64 + 1 * q.val = q.val
      rw [e5]; omega
  · intro y
    show win11_3.index t (1 : Fin 2) * 64 + 1 * (y 1).val = (y 1).val
    rw [e7]; omega

/-- THE ARRAY region 11 leaves in its output window: max((agg + hs) + bias, 0) of the arrays it reads, the bias row
    repeated down the rows. -/
theorem combine11 (c : Dev nD) :
    (dat11 (F := Ideal) V c).arrAt 3 cfg11.N =
      maximumf (addf (addf (V c main_v208 : (⟨Cert.ReferenceIdeal.S100000x64, .f32⟩ : BufTy).Contents (Elt Ideal)) (V c main_v180_1))
          (broadcastInDim Cert.ReferenceIdeal.S100000x64 ![0, 1] Cert.ReferenceIdeal.Gen.bcast_S1x64_S100000x64_0_1 (V c main_v209)))
        (broadcastInDim Cert.ReferenceIdeal.S100000x64 ![] Cert.ReferenceIdeal.Gen.bcast_S_S100000x64 (constant (F := Ideal) Cert.ReferenceIdeal.S_ .f32 0x00000000#32)) :=
  (dat11 (F := Ideal) V c).arrAt_eq_of_cover 3 (comb11_fn (V c main_v208) (V c main_v180_1) (V c main_v209))
    (fun t _ => comb11_flushed_eq V c t) comb11_cover

end Cert.KernelIdeal.Bridge

end
-- ==== Proof.Lin8.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 16] block of the input by the whole
  [16, 32] weight (both rounded to a narrower format first, which is the identity over the extended reals) into a zero
  accumulator, stores the product, and stores a second copy scaled row by row by the [5000, 1] block of a column. The twenty
  row blocks tile the [100000, 32] outputs, so after the region the first output is the whole matrix product and the
  second the product scaled by the column broadcast along the rows.
-/

theorem zero_offsets8 : (![0, 0] : Fin 2 → Nat) = fun _ => 0 := funext fun a => by fin_cases a <;> rfl

/-- The block index of every window at grid point `t`: the row-blocked windows sit at row block `t`, the weight at the origin. -/
theorem block_index8 : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- The host's matrix product at an entry is the inner product of a row with a column. -/
theorem host_product_at8 (l : FVec Ideal Cert.ReferenceIdeal.S100000x16 .f32) (r : FVec Ideal Cert.ReferenceIdeal.S16x32 .f32)
    (p : Fin 100000) (q : Fin 32) :
    Host.dotGeneral Cert.ReferenceIdeal.dot_S100000x16_S16x32_S100000x32_1_0_0_1_n_n none l r (ix2 p q)
      = ∑ k : Fin 16, l (ix2 p k) * r (ix2 k q) := by
  simp only [Host.dotGeneral]
  exact Cert.DotNN.dotGeneral_apply _ rfl _ _ l r p q

/-- The stored product at entry (p, q) of the block. -/
theorem product_at8 (x0 : Vec Ideal S5000x16 .f32) (x1 : Vec Ideal S16x32 .f32) (p : Fin 5000) (q : Fin 32) :
    k8_pay1 (F := Ideal) x0 x1 (ix2 p q) = ∑ k : Fin 16, x0 (ix2 p k) * x1 (ix2 k q) := by
  unfold k8_pay1
  rw [shapeCast_self]
  exact Cert.MatmulNN.matmul_zero_apply _ rfl none _ _ p q

/-- The scaled copy at entry (p, q): the product times the column's entry of row p. -/
theorem scaled_at8 (x0 : Vec Ideal S5000x16 .f32) (x1 : Vec Ideal S16x32 .f32) (x2 : Vec Ideal S5000x1 .f32)
    (p : Fin 5000) (q : Fin 32) :
    k8_pay2 (F := Ideal) x0 x1 x2 (ix2 p q) = (∑ k : Fin 16, x0 (ix2 p k) * x1 (ix2 k q)) * x2 (ix2 p 0) := by
  unfold k8_pay2
  rw [mulf_apply, product_at8, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry8 (t : Fin cfg8.N) (p : Fin 5000) (k : Fin 16) :
    ((cfg8.win 0).blk t).view.emb (ix2 p k)
      = ix2 (⟨t.val * 5000 + p.val, by have ht : t.val < 20 := t.isLt; have := p.isLt; omega⟩ : Fin 100000) k := by
  obtain ⟨e00, e01, -⟩ := block_index8 t
  funext a; apply Fin.ext
  match a with
  | ⟨0, _⟩ => show win8_0.index t (0 : Fin 2) * 5000 + 1 * p.val = t.val * 5000 + p.val; omega
  | ⟨1, _⟩ => show win8_0.index t (1 : Fin 2) * 16 + 1 * k.val = k.val; omega

/-- The weight's block is the whole weight. -/
theorem weight_entry8 (t : Fin cfg8.N) (k : Fin 16) (q : Fin 32) :
    ((cfg8.win 1).blk t).view.emb (ix2 k q) = ix2 k q := by
  obtain ⟨-, -, e10, e11, -⟩ := block_index8 t
  funext a; apply Fin.ext
  match a with
  | ⟨0, _⟩ => show win8_1.index t (0 : Fin 2) * 16 + 1 * k.val = k.val; omega
  | ⟨1, _⟩ => show win8_1.index t (1 : Fin 2) * 32 + 1 * q.val = q.val; omega

/-- Where block entry (p, 0) of the column sits in its array. -/
theorem column_entry8 (t : Fin cfg8.N) (p : Fin 5000) :
    ((cfg8.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index8 t
  funext a; apply Fin.ext
  match a with
  | ⟨0, _⟩ => show win8_2.index t (0 : Fin 2) * 5000 + 1 * p.val = t.val * 5000 + p.val; omega
  | ⟨1, _⟩ => show win8_2.index t (1 : Fin 2) * 1 + 1 * 0 = 0; omega

/-- Where block entry (p, q) of the first output sits in its array. -/
theorem product_entry8 (t : Fin cfg8.N) (p : Fin 5000) (q : Fin 32) :
    ((cfg8.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index8 t
  funext a; apply Fin.ext
  match a with
  | ⟨0, _⟩ => show win8_3.index t (0 : Fin 2) * 5000 + 1 * p.val = t.val * 5000 + p.val; omega
  | ⟨1, _⟩ => show win8_3.index t (1 : Fin 2) * 32 + 1 * q.val = q.val; omega

/-- Where block entry (p, q) of the second output sits in its array. -/
theorem scaled_entry8 (t : Fin cfg8.N) (p : Fin 5000) (q : Fin 32) :
    ((cfg8.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index8 t
  funext a; apply Fin.ext
  match a with
  | ⟨0, _⟩ => show win8_4.index t (0 : Fin 2) * 5000 + 1 * p.val = t.val * 5000 + p.val; omega
  | ⟨1, _⟩ => show win8_4.index t (1 : Fin 2) * 32 + 1 * q.val = q.val; omega

/-- The whole matrix product, spelt as the host's operation on the arrays the region finds. -/
abbrev product8 (c : Dev nD) : FVec Ideal Cert.ReferenceIdeal.S100000x32 .f32 :=
  Host.dotGeneral (F := Ideal) (φ₁ := .f32) (φ₂ := .f32) Cert.ReferenceIdeal.dot_S100000x16_S16x32_S100000x32_1_0_0_1_n_n none (V c main_v148) (V c main_arg11)

/-- The product scaled row by row by the column, spelt as the host's operations. -/
abbrev scaled8 (c : Dev nD) : FVec Ideal Cert.ReferenceIdeal.S100000x32 .f32 :=
  mulf (product8 V c) (broadcastInDim Cert.ReferenceIdeal.S100000x32 ![0, 1] Cert.ReferenceIdeal.Gen.bcast_S100000x1_S100000x32_0_1 (V c main_v12))

/-- What point `t` writes back to the first output is block `t` of the whole product. -/
theorem product_flushed8 (c : Dev nD) (t : Fin cfg8.N) :
    (dat8 (F := Ideal) V c).flushed 3 t = ((cfg8.win 3).blk t).view.read (Elt Ideal) (product8 V c) := by
  show (cfg8.win 3).cut (grid8.coords t) ((dat8 V c).after 3 t) = _
  rw [after8_3]
  unfold out8_3
  rw [View.canon_unit_zero zero_offsets8]
  simp only [View.ld_unit_zero (S := S5000x16) zero_offsets8, View.ld_unit_zero (S := S16x32) zero_offsets8]
  funext j
  obtain ⟨p, q, rfl⟩ : ∃ (p : Fin 5000) (q : Fin 32), j = ix2 p q := ⟨j 0, j 1, eq_ix2 j⟩
  show k8_pay1 (F := Ideal) (iblk8 V c 0 t) (iblk8 V c 1 t) (ix2 p q)
    = product8 V c (((cfg8.win 3).blk t).view.emb (ix2 p q))
  rw [product_at8, product_entry8]
  unfold product8
  rw [host_product_at8]
  refine Finset.sum_congr rfl fun k _ => ?_
  refine congrArg₂ (· * ·) ?_ ?_
  · show V c main_v148 (((cfg8.win 0).blk t).view.emb (ix2 p k)) = _
    rw [input_entry8]
  · show V c main_arg11 (((cfg8.win 1).blk t).view.emb (ix2 k q)) = _
    rw [weight_entry8]

/-- What point `t` writes back to the second output is block `t` of the scaled product. -/
theorem scaled_flushed8 (c : Dev nD) (t : Fin cfg8.N) :
    (dat8 (F := Ideal) V c).flushed 4 t = ((cfg8.win 4).blk t).view.read (Elt Ideal) (scaled8 V c) := by
  show (cfg8.win 4).cut (grid8.coords t) ((dat8 V c).after 4 t) = _
  rw [after8_4]
  unfold out8_4
  rw [View.canon_unit_zero zero_offsets8]
  simp only [View.ld_unit_zero (S := S5000x16) zero_offsets8, View.ld_unit_zero (S := S16x32) zero_offsets8,
    View.ld_unit_zero (S := S5000x1) zero_offsets8]
  funext j
  obtain ⟨p, q, rfl⟩ : ∃ (p : Fin 5000) (q : Fin 32), j = ix2 p q := ⟨j 0, j 1, eq_ix2 j⟩
  show k8_pay2 (F := Ideal) (iblk8 V c 0 t) (iblk8 V c 1 t) (iblk8 V c 2 t) (ix2 p q)
    = scaled8 V c (((cfg8.win 4).blk t).view.emb (ix2 p q))
  rw [scaled_at8, scaled_entry8]
  unfold scaled8 product8
  rw [mulf_apply, host_product_at8]
  congr 1
  · refine Finset.sum_congr rfl fun k _ => ?_
    refine congrArg₂ (· * ·) ?_ ?_
    · show V c main_v148 (((cfg8.win 0).blk t).view.emb (ix2 p k)) = _
      rw [input_entry8]
    · show V c main_arg11 (((cfg8.win 1).blk t).view.emb (ix2 k q)) = _
      rw [weight_entry8]
  · show V c main_v12 (((cfg8.win 2).blk t).view.emb (ix2 p (0 : Fin 1))) = _
    rw [column_entry8]
    exact (broadcastInDim_apply _ _ _ _ _ (fun a => by match a with | ⟨0, _⟩ => rfl | ⟨1, _⟩ => rfl)).symm

/-- An index of the first output's array is in point `t`'s block iff each coordinate is in the block's range. -/
theorem mem_product_block8 (t : Fin cfg8.N) (i : S100000x32.Idx) :
    i ∈ ((cfg8.win 3).blk t).view.set ↔ ∀ a : Fin 2, win8_3.index t a * S5000x32.size a ≤ (i a).val ∧ (i a).val < win8_3.index t a * S5000x32.size a + S5000x32.size a := by
  show i ∈ ((View.whole main_v149_0).slice (win8_3.rect t)).set ↔ _
  rw [View.set_slice_whole, Rect.mem_set_unit]
  exact Iff.rfl

theorem mem_scaled_block8 (t : Fin cfg8.N) (i : S100000x32.Idx) :
    i ∈ ((cfg8.win 4).blk t).view.set ↔ ∀ a : Fin 2, win8_4.index t a * S5000x32.size a ≤ (i a).val ∧ (i a).val < win8_4.index t a * S5000x32.size a + S5000x32.size a := by
  show i ∈ ((View.whole main_v149_1).slice (win8_4.rect t)).set ↔ _
  rw [View.set_slice_whole, Rect.mem_set_unit]
  exact Iff.rfl

/-- Row r lies in row block r / 5000: the twenty blocks tile each output. -/
theorem product_cover8 (i : S100000x32.Idx) :
    ∃ t : Fin cfg8.N, (cfg8.win 3).flush t = true ∧ i ∈ ((cfg8.win 3).blk t).view.set := by
  have hi0 : (i 0).val < 100000 := (i 0).isLt
  have hi1 : (i 1).val < 32 := (i 1).isLt
  have hb : (i 0).val / 5000 < 20 := by omega
  obtain ⟨-, -, -, -, -, -, e30, e31, -⟩ := block_index8 ⟨(i 0).val / 5000, hb⟩
  refine ⟨⟨(i 0).val / 5000, hb⟩, flush8_3 _, ?_⟩
  rw [mem_product_block8]
  intro a
  match a with
  | ⟨0, _⟩ =>
    show win8_3.index ⟨(i 0).val / 5000, hb⟩ (0 : Fin 2) * 5000 ≤ (i 0).val ∧ (i 0).val < win8_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win8_3.index ⟨(i 0).val / 5000, hb⟩ (1 : Fin 2) * 32 ≤ (i 1).val ∧ (i 1).val < win8_3.index ⟨(i 0).val / 5000, hb⟩ (1 : Fin 2) * 32 + 32
    rw [e31]; omega

theorem scaled_cover8 (i : S100000x32.Idx) :
    ∃ t : Fin cfg8.N, (cfg8.win 4).flush t = true ∧ i ∈ ((cfg8.win 4).blk t).view.set := by
  have hi0 : (i 0).val < 100000 := (i 0).isLt
  have hi1 : (i 1).val < 32 := (i 1).isLt
  have hb : (i 0).val / 5000 < 20 := by omega
  obtain ⟨-, -, -, -, -, -, -, -, e40, e41⟩ := block_index8 ⟨(i 0).val / 5000, hb⟩
  refine ⟨⟨(i 0).val / 5000, hb⟩, flush8_4 _, ?_⟩
  rw [mem_scaled_block8]
  intro a
  match a with
  | ⟨0, _⟩ =>
    show win8_4.index ⟨(i 0).val / 5000, hb⟩ (0 : Fin 2) * 5000 ≤ (i 0).val ∧ (i 0).val < win8_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win8_4.index ⟨(i 0).val / 5000, hb⟩ (1 : Fin 2) * 32 ≤ (i 1).val ∧ (i 1).val < win8_4.index ⟨(i 0).val / 5000, hb⟩ (1 : Fin 2) * 32 + 32
    rw [e41]; omega

/-- After the region the first output is the whole matrix product of the arrays the region found. -/
theorem linear8_product (c : Dev nD) : (dat8 (F := Ideal) V c).arrAt 3 cfg8.N = product8 V c :=
  (dat8 (F := Ideal) V c).arrAt_eq_of_cover 3 (product8 V c) (fun t _ => product_flushed8 V c t) (product_cover8)

/-- After the region the second output is that product scaled row by row by the column. -/
theorem linear8_scaled (c : Dev nD) : (dat8 (F := Ideal) V c).arrAt 4 cfg8.N = scaled8 V c :=
  (dat8 (F := Ideal) V c).arrAt_eq_of_cover 4 (scaled8 V c) (fun t _ => scaled_flushed8 V c t) (scaled_cover8)

end Cert.KernelIdeal.Bridge

end
-- ==== Proof.Comb9.lean ====
/- Region 9 of the kernel program (the combine step at width 32): the array its output window leaves is
   max((agg + hs) + bias, 0), index by index, of the three arrays the region reads, the [1, 32] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb9_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb9_idx : ∀ t : Fin cfg9.N, win9_0.index t (0 : Fin 2) = win9_3.index t (0 : Fin 2)
    ∧ win9_0.index t (1 : Fin 2) = win9_3.index t (1 : Fin 2)
    ∧ win9_1.index t (0 : Fin 2) = win9_3.index t (0 : Fin 2)
    ∧ win9_1.index t (1 : Fin 2) = win9_3.index t (1 : Fin 2)
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- The body's payload at an index: max((x0(p,q) + x1(p,q)) + x2(0,q), 0). The shape casts are to the same shape, the
    [1, 32] block is repeated down the rows, the zero is a splat. -/
theorem comb9_pay_apply (x0 x1 : Vec Ideal S5000x32 .f32) (x2 : Vec Ideal S1x32 .f32) (p : Fin 5000) (q : Fin 32) :
    k9_pay1 (F := Ideal) x0 x1 x2 (ix2 p q)
      = max ((x0 (ix2 p q) + x1 (ix2 p q)) + x2 (ix2 0 q)) (Scalar.ofBits (F := Ideal) .f32 0x00000000#32) := by
  unfold k9_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb9_fn (A H : (⟨Cert.ReferenceIdeal.S100000x32, .f32⟩ : BufTy).Contents (Elt Ideal))
    (B : (⟨Cert.ReferenceIdeal.S1x32, .f32⟩ : BufTy).Contents (Elt Ideal)) :
    (⟨Cert.ReferenceIdeal.S100000x32, .f32⟩ : BufTy).Contents (Elt Ideal) :=
  maximumf (addf (addf A H) (broadcastInDim Cert.ReferenceIdeal.S100000x32 ![0, 1] Cert.ReferenceIdeal.Gen.bcast_S1x32_S100000x32_0_1 B))
    (broadcastInDim Cert.ReferenceIdeal.S100000x32 ![] Cert.ReferenceIdeal.Gen.bcast_S_S100000x32 (constant (F := Ideal) Cert.ReferenceIdeal.S_ .f32 0x00000000#32))

/-- The row B repeated down the rows, at (p, q), is B(0, q). -/
theorem comb9_rows_apply (B : (⟨Cert.ReferenceIdeal.S1x32, .f32⟩ : BufTy).Contents (Elt Ideal)) (p : Fin 100000) (q : Fin 32) :
    broadcastInDim Cert.ReferenceIdeal.S100000x32 ![0, 1] Cert.ReferenceIdeal.Gen.bcast_S1x32_S100000x32_0_1 B (ix2 p q) = B (ix2 0 q) :=
  broadcastInDim_apply _ Cert.ReferenceIdeal.Gen.bcast_S1x32_S100000x32_0_1 B (ix2 p q) (ix2 0 q) (fun a => match a with
    | ⟨0, _⟩ => by show 0 = if (1 : Nat) = 1 then 0 else p.val; rw [if_pos rfl]
    | ⟨1, _⟩ => by show q.val = if (32 : Nat) = 1 then 0 else q.val; rw [if_neg (by decide)])

/-- The zero repeated everywhere, at any index, is zero. -/
theorem comb9_zero_apply (i : Cert.ReferenceIdeal.S100000x32.Idx) :
    broadcastInDim Cert.ReferenceIdeal.S100000x32 ![] Cert.ReferenceIdeal.Gen.bcast_S_S100000x32 (constant (F := Ideal) Cert.ReferenceIdeal.S_ .f32 0x00000000#32) i
      = Scalar.ofBits (F := Ideal) .f32 0x00000000#32 :=
  (broadcastInDim_apply _ Cert.ReferenceIdeal.Gen.bcast_S_S100000x32 (constant (F := Ideal) Cert.ReferenceIdeal.S_ .f32 0x00000000#32) i
    (fun a => a.elim0) (fun a => a.elim0)).trans rfl

/-- That function at an index: max((A(p,q) + H(p,q)) + B(0,q), 0). -/
theorem comb9_fn_apply (A H : (⟨Cert.ReferenceIdeal.S100000x32, .f32⟩ : BufTy).Contents (Elt Ideal))
    (B : (⟨Cert.ReferenceIdeal.S1x32, .f32⟩ : BufTy).Contents (Elt Ideal)) (p : Fin 100000) (q : Fin 32) :
    comb9_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x32 ![0, 1] Cert.ReferenceIdeal.Gen.bcast_S1x32_S100000x32_0_1 B (ix2 p q))
      (broadcastInDim Cert.ReferenceIdeal.S100000x32 ![] Cert.ReferenceIdeal.Gen.bcast_S_S100000x32 (constant (F := Ideal) Cert.ReferenceIdeal.S_ .f32 0x00000000#32) (ix2 p q)) = _
  rw [comb9_rows_apply, comb9_zero_apply]

/-- ONE POINT, over plain vectors: when the two row-blocked input blocks are the arrays A and H read along an
    embedding e of block indices that keeps the column, and the bias block is the row B, the payload at j is the
    whole-array function at e j. -/
theorem comb9_point (A H : (⟨Cert.ReferenceIdeal.S100000x32, .f32⟩ : BufTy).Contents (Elt Ideal))
    (B : (⟨Cert.ReferenceIdeal.S1x32, .f32⟩ : BufTy).Contents (Elt Ideal))
    (x0 x1 : Vec Ideal S5000x32 .f32) (x2 : Vec Ideal S1x32 .f32) (e : S5000x32.Idx → Cert.ReferenceIdeal.S100000x32.Idx)
    (h0 : ∀ y, x0 y = A (e y)) (h1 : ∀ y, x1 y = H (e y)) (h2 : ∀ q : Fin 32, x2 (ix2 0 q) = B (ix2 0 q))
    (he : ∀ y, (e y 1).val = (y 1).val) (j : S5000x32.Idx) :
    k9_pay1 (F := Ideal) x0 x1 x2 j = comb9_fn A H B (e j) := by
  obtain ⟨p, q, rfl⟩ : ∃ (p : Fin 5000) (q : Fin 32), j = ix2 p q := ⟨j 0, j 1, eq_ix2 j⟩
  have hi : (e (ix2 p q) 1).val = q.val := he (ix2 p q)
  rw [comb9_pay_apply, h0, h1, h2]
  generalize e (ix2 p q) = i at hi ⊢
  obtain ⟨p', q', rfl⟩ : ∃ (p' : Fin 100000) (q' : Fin 32), i = ix2 p' q' := ⟨i 0, i 1, eq_ix2 i⟩
  have hq : q' = q := Fin.ext hi
  subst hq
  rw [comb9_fn_apply]

/-- An index of the output array is in point t's block iff each coordinate is in the block's range on its axis. -/
theorem comb9_mem_blk (t : Fin cfg9.N) (i : S100000x32.Idx) :
    i ∈ ((cfg9.win 3).blk t).view.set ↔ ∀ a : Fin 2, win9_3.index t a * S5000x32.size a ≤ (i a).val
      ∧ (i a).val < win9_3.index t a * S5000x32.size a + S5000x32.size a := by
  show i ∈ ((View.whole main_v179).slice (win9_3.rect t)).set ↔ _
  rw [View.set_slice_whole, Rect.mem_set_unit]
  exact Iff.rfl

/-- Every index of the output array lies in some point's block: row r lies in the block of point r / 5000. -/
theorem comb9_cover (i : S100000x32.Idx) :
    ∃ t : Fin cfg9.N, (cfg9.win 3).flush t = true ∧ i ∈ ((cfg9.win 3).blk t).view.set := by
  have hi0 : (i 0).val < 100000 := (i 0).isLt
  have hi1 : (i 1).val < 32 := (i 1).isLt
  have hN : (i 0).val / 5000 < cfg9.N := by show (i 0).val / 5000 < 20; omega
  refine ⟨⟨(i 0).val / 5000, hN⟩, flush9_3 _, ?_⟩
  rw [comb9_mem_blk]
  obtain ⟨-, -, -, -, -, -, e6, e7⟩ := comb9_idx ⟨(i 0).val / 5000, hN⟩
  have e6' : win9_3.index ⟨(i 0).val / 5000, hN⟩ (0 : Fin 2) = (i 0).val / 5000 := e6
  intro a
  match a with
  | ⟨0, _⟩ =>
    show win9_3.index ⟨(i 0).val / 5000, hN⟩ (0 : Fin 2) * 5000 ≤ (i 0).val
      ∧ (i 0).val < win9_3.index ⟨(i 0).val / 5000, hN⟩ (0 : Fin 2) * 5000 + 5000
    rw [e6']; omega
  | ⟨1, _⟩ =>
    show win9_3.index ⟨(i 0).val / 5000, hN⟩ (1 : Fin 2) * 32 ≤ (i 1).val
      ∧ (i 1).val < win9_3.index ⟨(i 0).val / 5000, hN⟩ (1 : Fin 2) * 32 + 32
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb9_flushed_eq (c : Dev nD) (t : Fin cfg9.N) :
    (dat9 (F := Ideal) V c).flushed 3 t
      = ((cfg9.win 3).blk t).view.read (Elt Ideal) (comb9_fn (V c main_v177) (V c main_v149_1) (V c main_v178)) := by
  show (cfg9.win 3).cut (grid9.coords t) ((dat9 (F := Ideal) V c).after 3 t) = _
  rw [after9_3]
  unfold out9_3
  rw [View.canon_unit_zero comb9_zeros]
  simp only [View.ld_unit_zero (S := S5000x32) comb9_zeros, View.ld_unit_zero (S := S1x32) comb9_zeros]
  obtain ⟨e0, e1, e2, e3, e4, e5, e6, e7⟩ := comb9_idx t
  funext j
  refine comb9_point (V c main_v177) (V c main_v149_1) (V c main_v178) (iblk9 V c 0 t) (iblk9 V c 1 t) (iblk9 V c 2 t)
    (((cfg9.win 3).blk t).view.emb) ?_ ?_ ?_ ?_ j
  · intro y
    show V c main_v177 (((cfg9.win 0).blk t).view.emb y) = V c main_v177 (((cfg9.win 3).blk t).view.emb y)
    refine congrArg (V c main_v177) (funext fun a => Fin.ext ?_)
    match a with
    | ⟨0, _⟩ =>
      show win9_0.index t (0 : Fin 2) * 5000 + 1 * (y 0).val = win9_3.index t (0 : Fin 2) * 5000 + 1 * (y 0).val
      rw [e0]
    | ⟨1, _⟩ =>
      show win9_0.index t (1 : Fin 2) * 32 + 1 * (y 1).val = win9_3.index t (1 : Fin 2) * 32 + 1 * (y 1).val
      rw [e1]
  · intro y
    show V c main_v149_1 (((cfg9.win 1).blk t).view.emb y) = V c main_v149_1 (((cfg9.win 3).blk t).view.emb y)
    refine congrArg (V c main_v149_1) (funext fun a => Fin.ext ?_)
    match a with
    | ⟨0, _⟩ =>
      show win9_1.index t (0 : Fin 2) * 5000 + 1 * (y 0).val = win9_3.index t (0 : Fin 2) * 5000 + 1 * (y 0).val
      rw [e2]
    | ⟨1, _⟩ =>
      show win9_1.index t (1 : Fin 2) * 32 + 1 * (y 1).val = win9_3.index t (1 : Fin 2) * 32 + 1 * (y 1).val
      rw [e3]
  · intro q
    show V c main_v178 (((cfg9.win 2).blk t).view.emb (ix2 0 q)) = V c main_v178 (ix2 0 q)
    refine congrArg (V c main_v178) (funext fun a => Fin.ext ?_)
    match a with
    | ⟨0, _⟩ =>
      show win9_2.index t (0 : Fin 2) * 1 + 1 * 0 = 0
      rw [e4]
    | ⟨1, _⟩ =>
      show win9_2.index t (1 : Fin 2) * 32 + 1 * q.val = q.val
      rw [e5]; omega
  · intro y
    show win9_3.index t (1 : Fin 2) * 32 + 1 * (y 1).val = (y 1).val
    rw [e7]; omega

/-- THE ARRAY region 9 leaves in its output window: max((agg + hs) + bias, 0) of the arrays it reads, the bias row
    repeated down the rows. -/
theorem combine9 (c : Dev nD) :
    (dat9 (F := Ideal) V c).arrAt 3 cfg9.N =
      maximumf (addf (addf (V c main_v177 : (⟨Cert.ReferenceIdeal.S100000x32, .f32⟩ : BufTy).Contents (Elt Ideal)) (V c main_v149_1))
          (broadcastInDim Cert.ReferenceIdeal.S100000x32 ![0, 1] Cert.ReferenceIdeal.Gen.bcast_S1x32_S100000x32_0_1 (V c main_v178)))
        (broadcastInDim Cert.ReferenceIdeal.S100000x32 ![] Cert.ReferenceIdeal.Gen.bcast_S_S100000x32 (constant (F := Ideal) Cert.ReferenceIdeal.S_ .f32 0x00000000#32)) :=
  (dat9 (F := Ideal) V c).arrAt_eq_of_cover 3 (comb9_fn (V c main_v177) (V c main_v149_1) (V c main_v178))
    (fun t _ => comb9_flushed_eq V c t) comb9_cover

end Cert.KernelIdeal.Bridge

end
-- ==== Proof.Lin6.lean ====
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-!
  A dense projection region: on each block of 5000 rows the body multiplies the [5000, 64] block of the input by the whole
  [64, 16] weight (both rounded to a narrower format first, which is the identity over the extended reals) into a zero
  accumulator, stores the product, and stores a second copy scaled row by row by the [5000, 1] block of a column. The twenty
  row blocks tile the [100000, 16] outputs, so after the region the first output is the whole matrix product and the
  second the product scaled by the column broadcast along the rows.
-/

theorem zero_offsets6 : (![0, 0] : Fin 2 → Nat) = fun _ => 0 := funext fun a => by fin_cases a <;> rfl

/-- The block index of every window at grid point `t`: the row-blocked windows sit at row block `t`, the weight at the origin. -/
theorem block_index6 : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- The host's matrix product at an entry is the inner product of a row with a column. -/
theorem host_product_at6 (l : FVec Ideal Cert.ReferenceIdeal.S100000x64 .f32) (r : FVec Ideal Cert.ReferenceIdeal.S64x16 .f32)
    (p : Fin 100000) (q : Fin 16) :
    Host.dotGeneral Cert.ReferenceIdeal.dot_S100000x64_S64x16_S100000x16_1_0_0_1_n_n none l r (ix2 p q)
      = ∑ k : Fin 64, l (ix2 p k) * r (ix2 k q) := by
  simp only [Host.dotGeneral]
  exact Cert.DotNN.dotGeneral_apply _ rfl _ _ l r p q

/-- The stored product at entry (p, q) of the block. -/
theorem product_at6 (x0 : Vec Ideal S5000x64 .f32) (x1 : Vec Ideal S64x16 .f32) (p : Fin 5000) (q : Fin 16) :
    k6_pay1 (F := Ideal) x0 x1 (ix2 p q) = ∑ k : Fin 64, x0 (ix2 p k) * x1 (ix2 k q) := by
  unfold k6_pay1
  exact Cert.MatmulNN.matmul_zero_apply _ rfl none _ _ p q

/-- The scaled copy at entry (p, q): the product times the column's entry of row p. -/
theorem scaled_at6 (x0 : Vec Ideal S5000x64 .f32) (x1 : Vec Ideal S64x16 .f32) (x2 : Vec Ideal S5000x1 .f32)
    (p : Fin 5000) (q : Fin 16) :
    k6_pay2 (F := Ideal) x0 x1 x2 (ix2 p q) = (∑ k : Fin 64, x0 (ix2 p k) * x1 (ix2 k q)) * x2 (ix2 p 0) := by
  unfold k6_pay2
  rw [mulf_apply, product_at6, shapeCast_self]
  congr 1
  exact broadcastTo_apply x2 _ (ix2 p q) (ix2 p 0) (fun a => by match a with | ⟨0, _⟩ => rfl | ⟨1, _⟩ => rfl)

/-- Where block entry (p, k) of the row-blocked input sits in its array: row 5000·t + p. -/
theorem input_entry6 (t : Fin cfg6.N) (p : Fin 5000) (k : Fin 64) :
    ((cfg6.win 0).blk t).view.emb (ix2 p k)
      = ix2 (⟨t.val * 5000 + p.val, by have ht : t.val < 20 := t.isLt; have := p.isLt; omega⟩ : Fin 100000) k := by
  obtain ⟨e00, e01, -⟩ := block_index6 t
  funext a; apply Fin.ext
  match a with
  | ⟨0, _⟩ => show win6_0.index t (0 : Fin 2) * 5000 + 1 * p.val = t.val * 5000 + p.val; omega
  | ⟨1, _⟩ => show win6_0.index t (1 : Fin 2) * 64 + 1 * k.val = k.val; omega

/-- The weight's block is the whole weight. -/
theorem weight_entry6 (t : Fin cfg6.N) (k : Fin 64) (q : Fin 16) :
    ((cfg6.win 1).blk t).view.emb (ix2 k q) = ix2 k q := by
  obtain ⟨-, -, e10, e11, -⟩ := block_index6 t
  funext a; apply Fin.ext
  match a with
  | ⟨0, _⟩ => show win6_1.index t (0 : Fin 2) * 64 + 1 * k.val = k.val; omega
  | ⟨1, _⟩ => show win6_1.index t (1 : Fin 2) * 16 + 1 * q.val = q.val; omega

/-- Where block entry (p, 0) of the column sits in its array. -/
theorem column_entry6 (t : Fin cfg6.N) (p : Fin 5000) :
    ((cfg6.win 2).blk t).view.emb (ix2 p (0 : Fin 1))
      = ix2 (⟨t.val * 5000 + p.val, by have ht : t.val < 20 := t.isLt; have := p.isLt; omega⟩ : Fin 100000) (0 : Fin 1) := by
  obtain ⟨-, -, -, -, e20, e21, -⟩ := block_index6 t
  funext a; apply Fin.ext
  match a with
  | ⟨0, _⟩ => show win6_2.index t (0 : Fin 2) * 5000 + 1 * p.val = t.val * 5000 + p.val; omega
  | ⟨1, _⟩ => show win6_2.index t (1 : Fin 2) * 1 + 1 * 0 = 0; omega

/-- Where block entry (p, q) of the first output sits in its array. -/
theorem product_entry6 (t : Fin cfg6.N) (p : Fin 5000) (q : Fin 16) :
    ((cfg6.win 3).blk t).view.emb (ix2 p q)
      = ix2 (⟨t.val * 5000 + p.val, by have ht : t.val < 20 := t.isLt; have := p.isLt; omega⟩ : Fin 100000) q := by
  obtain ⟨-, -, -, -, -, -, e30, e31, -⟩ := block_index6 t
  funext a; apply Fin.ext
  match a with
  | ⟨0, _⟩ => show win6_3.index t (0 : Fin 2) * 5000 + 1 * p.val = t.val * 5000 + p.val; omega
  | ⟨1, _⟩ => show win6_3.index t (1 : Fin 2) * 16 + 1 * q.val = q.val; omega

/-- Where block entry (p, q) of the second output sits in its array. -/
theorem scaled_entry6 (t : Fin cfg6.N) (p : Fin 5000) (q : Fin 16) :
    ((cfg6.win 4).blk t).view.emb (ix2 p q)
      = ix2 (⟨t.val * 5000 + p.val, by have ht : t.val < 20 := t.isLt; have := p.isLt; omega⟩ : Fin 100000) q := by
  obtain ⟨-, -, -, -, -, -, -, -, e40, e41⟩ := block_index6 t
  funext a; apply Fin.ext
  match a with
  | ⟨0, _⟩ => show win6_4.index t (0 : Fin 2) * 5000 + 1 * p.val = t.val * 5000 + p.val; omega
  | ⟨1, _⟩ => show win6_4.index t (1 : Fin 2) * 16 + 1 * q.val = q.val; omega

/-- The whole matrix product, spelt as the host's operation on the arrays the region finds. -/
abbrev product6 (c : Dev nD) : FVec Ideal Cert.ReferenceIdeal.S100000x16 .f32 :=
  Host.dotGeneral (F := Ideal) (φ₁ := .f32) (φ₂ := .f32) Cert.ReferenceIdeal.dot_S100000x64_S64x16_S100000x16_1_0_0_1_n_n none (V c main_arg0) (V c main_arg9)

/-- The product scaled row by row by the column, spelt as the host's operations. -/
abbrev scaled6 (c : Dev nD) : FVec Ideal Cert.ReferenceIdeal.S100000x16 .f32 :=
  mulf (product6 V c) (broadcastInDim Cert.ReferenceIdeal.S100000x16 ![0, 1] Cert.ReferenceIdeal.Gen.bcast_S100000x1_S100000x16_0_1 (V c main_v12))

/-- What point `t` writes back to the first output is block `t` of the whole product. -/
theorem product_flushed6 (c : Dev nD) (t : Fin cfg6.N) :
    (dat6 (F := Ideal) V c).flushed 3 t = ((cfg6.win 3).blk t).view.read (Elt Ideal) (product6 V c) := by
  show (cfg6.win 3).cut (grid6.coords t) ((dat6 V c).after 3 t) = _
  rw [after6_3]
  unfold out6_3
  rw [View.canon_unit_zero zero_offsets6]
  simp only [View.ld_unit_zero (S := S5000x64) zero_offsets6, View.ld_unit_zero (S := S64x16) zero_offsets6]
  funext j
  obtain ⟨p, q, rfl⟩ : ∃ (p : Fin 5000) (q : Fin 16), j = ix2 p q := ⟨j 0, j 1, eq_ix2 j⟩
  show k6_pay1 (F := Ideal) (iblk6 V c 0 t) (iblk6 V c 1 t) (ix2 p q)
    = product6 V c (((cfg6.win 3).blk t).view.emb (ix2 p q))
  rw [product_at6, product_entry6]
  unfold product6
  rw [host_product_at6]
  refine Finset.sum_congr rfl fun k _ => ?_
  refine congrArg₂ (· * ·) ?_ ?_
  · show V c main_arg0 (((cfg6.win 0).blk t).view.emb (ix2 p k)) = _
    rw [input_entry6]
  · show V c main_arg9 (((cfg6.win 1).blk t).view.emb (ix2 k q)) = _
    rw [weight_entry6]

/-- What point `t` writes back to the second output is block `t` of the scaled product. -/
theorem scaled_flushed6 (c : Dev nD) (t : Fin cfg6.N) :
    (dat6 (F := Ideal) V c).flushed 4 t = ((cfg6.win 4).blk t).view.read (Elt Ideal) (scaled6 V c) := by
  show (cfg6.win 4).cut (grid6.coords t) ((dat6 V c).after 4 t) = _
  rw [after6_4]
  unfold out6_4
  rw [View.canon_unit_zero zero_offsets6]
  simp only [View.ld_unit_zero (S := S5000x64) zero_offsets6, View.ld_unit_zero (S := S64x16) zero_offsets6,
    View.ld_unit_zero (S := S5000x1) zero_offsets6]
  funext j
  obtain ⟨p, q, rfl⟩ : ∃ (p : Fin 5000) (q : Fin 16), j = ix2 p q := ⟨j 0, j 1, eq_ix2 j⟩
  show k6_pay2 (F := Ideal) (iblk6 V c 0 t) (iblk6 V c 1 t) (iblk6 V c 2 t) (ix2 p q)
    = scaled6 V c (((cfg6.win 4).blk t).view.emb (ix2 p q))
  rw [scaled_at6, scaled_entry6]
  unfold scaled6 product6
  rw [mulf_apply, host_product_at6]
  congr 1
  · refine Finset.sum_congr rfl fun k _ => ?_
    refine congrArg₂ (· * ·) ?_ ?_
    · show V c main_arg0 (((cfg6.win 0).blk t).view.emb (ix2 p k)) = _
      rw [input_entry6]
    · show V c main_arg9 (((cfg6.win 1).blk t).view.emb (ix2 k q)) = _
      rw [weight_entry6]
  · show V c main_v12 (((cfg6.win 2).blk t).view.emb (ix2 p (0 : Fin 1))) = _
    rw [column_entry6]
    exact (broadcastInDim_apply _ _ _ _ _ (fun a => by match a with | ⟨0, _⟩ => rfl | ⟨1, _⟩ => rfl)).symm

/-- An index of the first output's array is in point `t`'s block iff each coordinate is in the block's range. -/
theorem mem_product_block6 (t : Fin cfg6.N) (i : S100000x16.Idx) :
    i ∈ ((cfg6.win 3).blk t).view.set ↔ ∀ a : Fin 2, win6_3.index t a * S5000x16.size a ≤ (i a).val ∧ (i a).val < win6_3.index t a * S5000x16.size a + S5000x16.size a := by
  show i ∈ ((View.whole main_v118_0).slice (win6_3.rect t)).set ↔ _
  rw [View.set_slice_whole, Rect.mem_set_unit]
  exact Iff.rfl

theorem mem_scaled_block6 (t : Fin cfg6.N) (i : S100000x16.Idx) :
    i ∈ ((cfg6.win 4).blk t).view.set ↔ ∀ a : Fin 2, win6_4.index t a * S5000x16.size a ≤ (i a).val ∧ (i a).val < win6_4.index t a * S5000x16.size a + S5000x16.size a := by
  show i ∈ ((View.whole main_v118_1).slice (win6_4.rect t)).set ↔ _
  rw [View.set_slice_whole, Rect.mem_set_unit]
  exact Iff.rfl

/-- Row r lies in row block r / 5000: the twenty blocks tile each output. -/
theorem product_cover6 (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  have hb : (i 0).val / 5000 < 20 := by omega
  obtain ⟨-, -, -, -, -, -, e30, e31, -⟩ := block_index6 ⟨(i 0).val / 5000, hb⟩
  refine ⟨⟨(i 0).val / 5000, hb⟩, flush6_3 _, ?_⟩
  rw [mem_product_block6]
  intro a
  match a with
  | ⟨0, _⟩ =>
    show win6_3.index ⟨(i 0).val / 5000, hb⟩ (0 : Fin 2) * 5000 ≤ (i 0).val ∧ (i 0).val < win6_3.index ⟨(i 0).val / 5000, hb⟩ (0 : Fin 2) * 5000 + 5000
    rw [e30]; show (i 0).val / 5000 * 5000 ≤ (i 0).val ∧ (i 0).val < (i 0).val / 5000 * 5000 + 5000; omega
  | ⟨1, _⟩ =>
    show win6_3.index ⟨(i 0).val / 5000, hb⟩ (1 : Fin 2) * 16 ≤ (i 1).val ∧ (i 1).val < win6_3.index ⟨(i 0).val / 5000, hb⟩ (1 : Fin 2) * 16 + 16
    rw [e31]; omega

theorem scaled_cover6 (i : S100000x16.Idx) :
    ∃ t : Fin cfg6.N, (cfg6.win 4).flush t = true ∧ i ∈ ((cfg6.win 4).blk t).view.set := by
  have hi0 : (i 0).val < 100000 := (i 0).isLt
  have hi1 : (i 1).val < 16 := (i 1).isLt
  have hb : (i 0).val / 5000 < 20 := by omega
  obtain ⟨-, -, -, -, -, -, -, -, e40, e41⟩ := block_index6 ⟨(i 0).val / 5000, hb⟩
  refine ⟨⟨(i 0).val / 5000, hb⟩, flush6_4 _, ?_⟩
  rw [mem_scaled_block6]
  intro a
  match a with
  | ⟨0, _⟩ =>
    show win6_4.index ⟨(i 0).val / 5000, hb⟩ (0 : Fin 2) * 5000 ≤ (i 0).val ∧ (i 0).val < win6_4.index ⟨(i 0).val / 5000, hb⟩ (0 : Fin 2) * 5000 + 5000
    rw [e40]; show (i 0).val / 5000 * 5000 ≤ (i 0).val ∧ (i 0).val < (i 0).val / 5000 * 5000 + 5000; omega
  | ⟨1, _⟩ =>
    show win6_4.index ⟨(i 0).val / 5000, hb⟩ (1 : Fin 2) * 16 ≤ (i 1).val ∧ (i 1).val < win6_4.index ⟨(i 0).val / 5000, hb⟩ (1 : Fin 2) * 16 + 16
    rw [e41]; omega

/-- After the region the first output is the whole matrix product of the arrays the region found. -/
theorem linear6_product (c : Dev nD) : (dat6 (F := Ideal) V c).arrAt 3 cfg6.N = product6 V c :=
  (dat6 (F := Ideal) V c).arrAt_eq_of_cover 3 (product6 V c) (fun t _ => product_flushed6 V c t) (product_cover6)

/-- After the region the second output is that product scaled row by row by the column. -/
theorem linear6_scaled (c : Dev nD) : (dat6 (F := Ideal) V c).arrAt 4 cfg6.N = scaled6 V c :=
  (dat6 (F := Ideal) V c).arrAt_eq_of_cover 4 (scaled6 V c) (fun t _ => scaled_flushed6 V c t) (scaled_cover6)

end Cert.KernelIdeal.Bridge

end
-- ==== Proof.Comb7.lean ====
/- Region 7 of the kernel program (the combine step at width 16): the array its output window leaves is
   max((agg + hs) + bias, 0), index by index, of the three arrays the region reads, the [1, 16] bias row repeated down
   the 100000 rows. The output's 20 row blocks of 5000 rows tile the array; block t of the result is the payload of
   block t of agg and of hs and of the whole bias row. -/
import proofs.«152908_j39247411151511_1_alg».proof.Proof.Gen.KernelIdeal.Frame
import proofs.«152908_j39247411151511_1_alg».proof.Proof.Gen.ReferenceIdeal
import Idealize.ShloMosaic.Lib.Pipeline.Value
import Idealize.ShloMosaic.Lib.ValueIdx
import Idealize.ShloMosaic.Lib.ValueLayout

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-- The offsets of a whole-buffer load or store are zero on both axes. -/
theorem comb7_zeros : (![0, 0] : Fin 2 → Nat) = fun _ => 0 := funext fun a => by fin_cases a <;> rfl

/-- The block index maps over the 20 grid points: the two row-blocked inputs move with the output, the bias block
    stays at the origin, and the output's block at point t is row block t, column block 0. -/
theorem comb7_idx : ∀ t : Fin cfg7.N, win7_0.index t (0 : Fin 2) = win7_3.index t (0 : Fin 2)
    ∧ win7_0.index t (1 : Fin 2) = win7_3.index t (1 : Fin 2)
    ∧ win7_1.index t (0 : Fin 2) = win7_3.index t (0 : Fin 2)
    ∧ win7_1.index t (1 : Fin 2) = win7_3.index t (1 : Fin 2)
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- The body's payload at an index: max((x0(p,q) + x1(p,q)) + x2(0,q), 0). The shape casts are to the same shape, the
    [1, 16] block is repeated down the rows, the zero is a splat. -/
theorem comb7_pay_apply (x0 x1 : Vec Ideal S5000x16 .f32) (x2 : Vec Ideal S1x16 .f32) (p : Fin 5000) (q : Fin 16) :
    k7_pay1 (F := Ideal) x0 x1 x2 (ix2 p q)
      = max ((x0 (ix2 p q) + x1 (ix2 p q)) + x2 (ix2 0 q)) (Scalar.ofBits (F := Ideal) .f32 0x00000000#32) := by
  unfold k7_pay1
  rw [maximumf_apply, addf_apply, addf_apply, broadcast_apply, shapeCast_self, shapeCast_self, shapeCast_self,
    broadcastTo_1b_ab_apply]

/-- The array the region leaves, as one function of the three arrays it reads: max((A + H) + B, 0), the row B repeated
    down the rows and the zero repeated everywhere. -/
abbrev comb7_fn (A H : (⟨Cert.ReferenceIdeal.S100000x16, .f32⟩ : BufTy).Contents (Elt Ideal))
    (B : (⟨Cert.ReferenceIdeal.S1x16, .f32⟩ : BufTy).Contents (Elt Ideal)) :
    (⟨Cert.ReferenceIdeal.S100000x16, .f32⟩ : BufTy).Contents (Elt Ideal) :=
  maximumf (addf (addf A H) (broadcastInDim Cert.ReferenceIdeal.S100000x16 ![0, 1] Cert.ReferenceIdeal.Gen.bcast_S1x16_S100000x16_0_1 B))
    (broadcastInDim Cert.ReferenceIdeal.S100000x16 ![] Cert.ReferenceIdeal.Gen.bcast_S_S100000x16 (constant (F := Ideal) Cert.ReferenceIdeal.S_ .f32 0x00000000#32))

/-- The row B repeated down the rows, at (p, q), is B(0, q). -/
theorem comb7_rows_apply (B : (⟨Cert.ReferenceIdeal.S1x16, .f32⟩ : BufTy).Contents (Elt Ideal)) (p : Fin 100000) (q : Fin 16) :
    broadcastInDim Cert.ReferenceIdeal.S100000x16 ![0, 1] Cert.ReferenceIdeal.Gen.bcast_S1x16_S100000x16_0_1 B (ix2 p q) = B (ix2 0 q) :=
  broadcastInDim_apply _ Cert.ReferenceIdeal.Gen.bcast_S1x16_S100000x16_0_1 B (ix2 p q) (ix2 0 q) (fun a => match a with
    | ⟨0, _⟩ => by show 0 = if (1 : Nat) = 1 then 0 else p.val; rw [if_pos rfl]
    | ⟨1, _⟩ => by show q.val = if (16 : Nat) = 1 then 0 else q.val; rw [if_neg (by decide)])

/-- The zero repeated everywhere, at any index, is zero. -/
theorem comb7_zero_apply (i : Cert.ReferenceIdeal.S100000x16.Idx) :
    broadcastInDim Cert.ReferenceIdeal.S100000x16 ![] Cert.ReferenceIdeal.Gen.bcast_S_S100000x16 (constant (F := Ideal) Cert.ReferenceIdeal.S_ .f32 0x00000000#32) i
      = Scalar.ofBits (F := Ideal) .f32 0x00000000#32 :=
  (broadcastInDim_apply _ Cert.ReferenceIdeal.Gen.bcast_S_S100000x16 (constant (F := Ideal) Cert.ReferenceIdeal.S_ .f32 0x00000000#32) i
    (fun a => a.elim0) (fun a => a.elim0)).trans rfl

/-- That function at an index: max((A(p,q) + H(p,q)) + B(0,q), 0). -/
theorem comb7_fn_apply (A H : (⟨Cert.ReferenceIdeal.S100000x16, .f32⟩ : BufTy).Contents (Elt Ideal))
    (B : (⟨Cert.ReferenceIdeal.S1x16, .f32⟩ : BufTy).Contents (Elt Ideal)) (p : Fin 100000) (q : Fin 16) :
    comb7_fn A H B (ix2 p q)
      = max ((A (ix2 p q) + H (ix2 p q)) + B (ix2 0 q)) (Scalar.ofBits (F := Ideal) .f32 0x00000000#32) := by
  show max ((A (ix2 p q) + H (ix2 p q)) + broadcastInDim Cert.ReferenceIdeal.S100000x16 ![0, 1] Cert.ReferenceIdeal.Gen.bcast_S1x16_S100000x16_0_1 B (ix2 p q))
      (broadcastInDim Cert.ReferenceIdeal.S100000x16 ![] Cert.ReferenceIdeal.Gen.bcast_S_S100000x16 (constant (F := Ideal) Cert.ReferenceIdeal.S_ .f32 0x00000000#32) (ix2 p q)) = _
  rw [comb7_rows_apply, comb7_zero_apply]

/-- ONE POINT, over plain vectors: when the two row-blocked input blocks are the arrays A and H read along an
    embedding e of block indices that keeps the column, and the bias block is the row B, the payload at j is the
    whole-array function at e j. -/
theorem comb7_point (A H : (⟨Cert.ReferenceIdeal.S100000x16, .f32⟩ : BufTy).Contents (Elt Ideal))
    (B : (⟨Cert.ReferenceIdeal.S1x16, .f32⟩ : BufTy).Contents (Elt Ideal))
    (x0 x1 : Vec Ideal S5000x16 .f32) (x2 : Vec Ideal S1x16 .f32) (e : S5000x16.Idx → Cert.ReferenceIdeal.S100000x16.Idx)
    (h0 : ∀ y, x0 y = A (e y)) (h1 : ∀ y, x1 y = H (e y)) (h2 : ∀ q : Fin 16, x2 (ix2 0 q) = B (ix2 0 q))
    (he : ∀ y, (e y 1).val = (y 1).val) (j : S5000x16.Idx) :
    k7_pay1 (F := Ideal) x0 x1 x2 j = comb7_fn A H B (e j) := by
  obtain ⟨p, q, rfl⟩ : ∃ (p : Fin 5000) (q : Fin 16), j = ix2 p q := ⟨j 0, j 1, eq_ix2 j⟩
  have hi : (e (ix2 p q) 1).val = q.val := he (ix2 p q)
  rw [comb7_pay_apply, h0, h1, h2]
  generalize e (ix2 p q) = i at hi ⊢
  obtain ⟨p', q', rfl⟩ : ∃ (p' : Fin 100000) (q' : Fin 16), i = ix2 p' q' := ⟨i 0, i 1, eq_ix2 i⟩
  have hq : q' = q := Fin.ext hi
  subst hq
  rw [comb7_fn_apply]

/-- An index of the output array is in point t's block iff each coordinate is in the block's range on its axis. -/
theorem comb7_mem_blk (t : Fin cfg7.N) (i : S100000x16.Idx) :
    i ∈ ((cfg7.win 3).blk t).view.set ↔ ∀ a : Fin 2, win7_3.index t a * S5000x16.size a ≤ (i a).val
      ∧ (i a).val < win7_3.index t a * S5000x16.size a + S5000x16.size a := by
  show i ∈ ((View.whole main_v148).slice (win7_3.rect t)).set ↔ _
  rw [View.set_slice_whole, Rect.mem_set_unit]
  exact Iff.rfl

/-- Every index of the output array lies in some point's block: row r lies in the block of point r / 5000. -/
theorem comb7_cover (i : S100000x16.Idx) :
    ∃ t : Fin cfg7.N, (cfg7.win 3).flush t = true ∧ i ∈ ((cfg7.win 3).blk t).view.set := by
  have hi0 : (i 0).val < 100000 := (i 0).isLt
  have hi1 : (i 1).val < 16 := (i 1).isLt
  have hN : (i 0).val / 5000 < cfg7.N := by show (i 0).val / 5000 < 20; omega
  refine ⟨⟨(i 0).val / 5000, hN⟩, flush7_3 _, ?_⟩
  rw [comb7_mem_blk]
  obtain ⟨-, -, -, -, -, -, e6, e7⟩ := comb7_idx ⟨(i 0).val / 5000, hN⟩
  have e6' : win7_3.index ⟨(i 0).val / 5000, hN⟩ (0 : Fin 2) = (i 0).val / 5000 := e6
  intro a
  match a with
  | ⟨0, _⟩ =>
    show win7_3.index ⟨(i 0).val / 5000, hN⟩ (0 : Fin 2) * 5000 ≤ (i 0).val
      ∧ (i 0).val < win7_3.index ⟨(i 0).val / 5000, hN⟩ (0 : Fin 2) * 5000 + 5000
    rw [e6']; omega
  | ⟨1, _⟩ =>
    show win7_3.index ⟨(i 0).val / 5000, hN⟩ (1 : Fin 2) * 16 ≤ (i 1).val
      ∧ (i 1).val < win7_3.index ⟨(i 0).val / 5000, hN⟩ (1 : Fin 2) * 16 + 16
    rw [e7]; omega

variable (V : (c : Dev nD) → (b : Ref sig .tc) → Buf (Elt Ideal) ((c : Thread nD τ).loc b))

/-- WHAT POINT t WRITES BACK is block t of the whole-array function of the three arrays as the region finds them: the
    body's one store covers its buffer, its loads read whole blocks, the two row-blocked inputs' blocks sit where the
    output's block sits, and the bias block is the whole row. -/
theorem comb7_flushed_eq (c : Dev nD) (t : Fin cfg7.N) :
    (dat7 (F := Ideal) V c).flushed 3 t
      = ((cfg7.win 3).blk t).view.read (Elt Ideal) (comb7_fn (V c main_v146) (V c main_v118_1) (V c main_v147)) := by
  show (cfg7.win 3).cut (grid7.coords t) ((dat7 (F := Ideal) V c).after 3 t) = _
  rw [after7_3]
  unfold out7_3
  rw [View.canon_unit_zero comb7_zeros]
  simp only [View.ld_unit_zero (S := S5000x16) comb7_zeros, View.ld_unit_zero (S := S1x16) comb7_zeros]
  obtain ⟨e0, e1, e2, e3, e4, e5, e6, e7⟩ := comb7_idx t
  funext j
  refine comb7_point (V c main_v146) (V c main_v118_1) (V c main_v147) (iblk7 V c 0 t) (iblk7 V c 1 t) (iblk7 V c 2 t)
    (((cfg7.win 3).blk t).view.emb) ?_ ?_ ?_ ?_ j
  · intro y
    show V c main_v146 (((cfg7.win 0).blk t).view.emb y) = V c main_v146 (((cfg7.win 3).blk t).view.emb y)
    refine congrArg (V c main_v146) (funext fun a => Fin.ext ?_)
    match a with
    | ⟨0, _⟩ =>
      show win7_0.index t (0 : Fin 2) * 5000 + 1 * (y 0).val = win7_3.index t (0 : Fin 2) * 5000 + 1 * (y 0).val
      rw [e0]
    | ⟨1, _⟩ =>
      show win7_0.index t (1 : Fin 2) * 16 + 1 * (y 1).val = win7_3.index t (1 : Fin 2) * 16 + 1 * (y 1).val
      rw [e1]
  · intro y
    show V c main_v118_1 (((cfg7.win 1).blk t).view.emb y) = V c main_v118_1 (((cfg7.win 3).blk t).view.emb y)
    refine congrArg (V c main_v118_1) (funext fun a => Fin.ext ?_)
    match a with
    | ⟨0, _⟩ =>
      show win7_1.index t (0 : Fin 2) * 5000 + 1 * (y 0).val = win7_3.index t (0 : Fin 2) * 5000 + 1 * (y 0).val
      rw [e2]
    | ⟨1, _⟩ =>
      show win7_1.index t (1 : Fin 2) * 16 + 1 * (y 1).val = win7_3.index t (1 : Fin 2) * 16 + 1 * (y 1).val
      rw [e3]
  · intro q
    show V c main_v147 (((cfg7.win 2).blk t).view.emb (ix2 0 q)) = V c main_v147 (ix2 0 q)
    refine congrArg (V c main_v147) (funext fun a => Fin.ext ?_)
    match a with
    | ⟨0, _⟩ =>
      show win7_2.index t (0 : Fin 2) * 1 + 1 * 0 = 0
      rw [e4]
    | ⟨1, _⟩ =>
      show win7_2.index t (1 : Fin 2) * 16 + 1 * q.val = q.val
      rw [e5]; omega
  · intro y
    show win7_3.index t (1 : Fin 2) * 16 + 1 * (y 1).val = (y 1).val
    rw [e7]; omega

/-- THE ARRAY region 7 leaves in its output window: max((agg + hs) + bias, 0) of the arrays it reads, the bias row
    repeated down the rows. -/
theorem combine7 (c : Dev nD) :
    (dat7 (F := Ideal) V c).arrAt 3 cfg7.N =
      maximumf (addf (addf (V c main_v146 : (⟨Cert.ReferenceIdeal.S100000x16, .f32⟩ : BufTy).Contents (Elt Ideal)) (V c main_v118_1))
          (broadcastInDim Cert.ReferenceIdeal.S100000x16 ![0, 1] Cert.ReferenceIdeal.Gen.bcast_S1x16_S100000x16_0_1 (V c main_v147)))
        (broadcastInDim Cert.ReferenceIdeal.S100000x16 ![] Cert.ReferenceIdeal.Gen.bcast_S_S100000x16 (constant (F := Ideal) Cert.ReferenceIdeal.S_ .f32 0x00000000#32)) :=
  (dat7 (F := Ideal) V c).arrAt_eq_of_cover 3 (comb7_fn (V c main_v146) (V c main_v118_1) (V c main_v147))
    (fun t _ => comb7_flushed_eq V c t) comb7_cover

end Cert.KernelIdeal.Bridge

end
-- ==== Proof.Layer4.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin6
import proofs.«152908_j39247411151511_1_alg».proof.Proof.Comb7
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer4_product : W12 m ρ c (Proc.devRef .tc main_v118_0) = (Cert.ReferenceIdeal.ReadP.val_main_v137 (F := Ideal) (m ((c : Thread nD τ).loc main_arg0)) (m ((c : Thread nD τ).loc main_arg9))) := by
  refine (W12_arr m ρ c 3).trans ((linear6_product (V11 m ρ) c).trans ?_)
  dsimp only [product6, V11]
  rw [((carried_at11 m ρ c).arg0.trans (arg0_at1 m ρ c)), ((carried_at11 m ρ c).arg9.trans (arg9_at1 m ρ c))]
  rfl

/-- The projection scaled by the squared inverse root degree of each row. -/
theorem layer4_scaled : W12 m ρ c (Proc.devRef .tc main_v118_1) = (Cert.ReferenceIdeal.ReadP.val_main_v169 (F := Ideal) (m ((c : Thread nD τ).loc main_arg0)) (m ((c : Thread nD τ).loc main_arg1)) (m ((c : Thread nD τ).loc main_arg9))) := by
  refine (W12_arr m ρ c 4).trans ((linear6_scaled (V11 m ρ) c).trans ?_)
  dsimp only [scaled6, product6, V11]
  rw [((carried_at11 m ρ c).arg0.trans (arg0_at1 m ρ c)), ((carried_at11 m ρ c).arg9.trans (arg9_at1 m ρ c)), ((carried_at11 m ρ c).column.trans (column_at1 m ρ c))]
  rfl

set_option maxHeartbeats 1000000 in
/-- The aggregate over incoming edges: the same host operations as the reference's, on the same operands. -/
theorem layer4_aggregate : W13 m ρ c (Proc.devRef .tc main_v146) = (Cert.ReferenceIdeal.ReadP.val_main_v165 (F := Ideal) (m ((c : Thread nD τ).loc main_arg0)) (m ((c : Thread nD τ).loc main_arg1)) (m ((c : Thread nD τ).loc main_arg9))) := by
  show StableHlo.after hostOps7 (W12 m ρ c) (Proc.devRef .tc main_v146) = _
  dsimp only [hostOps7]
  after_results_simp
  rw [layer4_product m ρ c, ((carried_at12 m ρ c).src.trans (sources_at1 m ρ c)), ((carried_at12 m ρ c).dst.trans (targets_at1 m ρ c)),
    ((carried_at12 m ρ c).invroot.trans (invroot_at1 m ρ c))]
  rfl

/-- The bias as a row: reshaped here, broadcast along a leading axis in the reference. -/
theorem layer4_bias : W13 m ρ c (Proc.devRef .tc main_v147) = (Cert.ReferenceIdeal.ReadP.val_main_v171 (F := Ideal) (m ((c : Thread nD τ).loc main_arg10))) := by
  show StableHlo.after hostOps7 (W12 m ρ c) (Proc.devRef .tc main_v147) = _
  dsimp only [hostOps7]
  after_results
  rw [((carried_at12 m ρ c).arg10.trans (arg10_at1 m ρ c))]
  exact Cert.Layout.row_reshape_eq_broadcast _ _ _

/-- The host stretch writes none of the projection region's outputs. -/
theorem layer4_scaled_kept : W13 m ρ c (Proc.devRef .tc main_v118_1) = (Cert.ReferenceIdeal.ReadP.val_main_v169 (F := Ideal) (m ((c : Thread nD τ).loc main_arg0)) (m ((c : Thread nD τ).loc main_arg1)) (m ((c : Thread nD τ).loc main_arg9))) :=
  (by host_keeps : W13 m ρ c (Proc.devRef .tc main_v118_1) = W12 m ρ c (Proc.devRef .tc main_v118_1)).trans (layer4_scaled m ρ c)

/-- The layer's output: aggregate plus scaled projection plus bias, clamped at zero. -/
theorem layer4_out : W14 m ρ c (Proc.devRef .tc main_v148) = (Cert.ReferenceIdeal.ReadP.val_main_v174 (F := Ideal) (m ((c : Thread nD τ).loc main_arg0)) (m ((c : Thread nD τ).loc main_arg1)) (m ((c : Thread nD τ).loc main_arg9)) (m ((c : Thread nD τ).loc main_arg10))) := by
  refine (W14_arr m ρ c 3).trans ((combine7 (V13 m ρ) c).trans ?_)
  dsimp only [V13]
  rw [layer4_aggregate m ρ c, layer4_scaled_kept m ρ c, layer4_bias m ρ c]
  rfl

end Cert.KernelIdeal.Bridge

end
-- ==== Proof.Layer5.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin8
import proofs.«152908_j39247411151511_1_alg».proof.Proof.Comb9
import proofs.«152908_j39247411151511_1_alg».proof.Proof.Layer4
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer5_product : W15 m ρ c (Proc.devRef .tc main_v149_0) = (Cert.ReferenceIdeal.ReadP.val_main_v175 (F := Ideal) (m ((c : Thread nD τ).loc main_arg0)) (m ((c : Thread nD τ).loc main_arg1)) (m ((c : Thread nD τ).loc main_arg9)) (m ((c : Thread nD τ).loc main_arg10)) (m ((c : Thread nD τ).loc main_arg11))) := by
  refine (W15_arr m ρ c 3).trans ((linear8_product (V14 m ρ) c).trans ?_)
  dsimp only [product8, V14]
  rw [(layer4_out m ρ c), ((carried_at14 m ρ c).arg11.trans (arg11_at1 m ρ c))]
  rfl

/-- The projection scaled by the squared inverse root degree of each row. -/
theorem layer5_scaled : W15 m ρ c (Proc.devRef .tc main_v149_1) = (Cert.ReferenceIdeal.ReadP.val_main_v207 (F := Ideal) (m ((c : Thread nD τ).loc main_arg0)) (m ((c : Thread nD τ).loc main_arg1)) (m ((c : Thread nD τ).loc main_arg9)) (m ((c : Thread nD τ).loc main_arg10)) (m ((c : Thread nD τ).loc main_arg11))) := by
  refine (W15_arr m ρ c 4).trans ((linear8_scaled (V14 m ρ) c).trans ?_)
  dsimp only [scaled8, product8, V14]
  rw [(layer4_out m ρ c), ((carried_at14 m ρ c).arg11.trans (arg11_at1 m ρ c)), ((carried_at14 m ρ c).column.trans (column_at1 m ρ c))]
  rfl

set_option maxHeartbeats 1000000 in
/-- The aggregate over incoming edges: the same host operations as the reference's, on the same operands. -/
theorem layer5_aggregate : W16 m ρ c (Proc.devRef .tc main_v177) = (Cert.ReferenceIdeal.ReadP.val_main_v203 (F := Ideal) (m ((c : Thread nD τ).loc main_arg0)) (m ((c : Thread nD τ).loc main_arg1)) (m ((c : Thread nD τ).loc main_arg9)) (m ((c : Thread nD τ).loc main_arg10)) (m ((c : Thread nD τ).loc main_arg11))) := by
  show StableHlo.after hostOps9 (W15 m ρ c) (Proc.devRef .tc main_v177) = _
  dsimp only [hostOps9]
  after_results_simp
  rw [layer5_product m ρ c, ((carried_at15 m ρ c).src.trans (sources_at1 m ρ c)), ((carried_at15 m ρ c).dst.trans (targets_at1 m ρ c)),
    ((carried_at15 m ρ c).invroot.trans (invroot_at1 m ρ c))]
  rfl

/-- The bias as a row: reshaped here, broadcast along a leading axis in the reference. -/
theorem layer5_bias : W16 m ρ c (Proc.devRef .tc main_v178) = (Cert.ReferenceIdeal.ReadP.val_main_v209 (F := Ideal) (m ((c : Thread nD τ).loc main_arg12))) := by
  show StableHlo.after hostOps9 (W15 m ρ c) (Proc.devRef .tc main_v178) = _
  dsimp only [hostOps9]
  after_results
  rw [((carried_at15 m ρ c).arg12.trans (arg12_at1 m ρ c))]
  exact Cert.Layout.row_reshape_eq_broadcast _ _ _

/-- The host stretch writes none of the projection region's outputs. -/
theorem layer5_scaled_kept : W16 m ρ c (Proc.devRef .tc main_v149_1) = (Cert.ReferenceIdeal.ReadP.val_main_v207 (F := Ideal) (m ((c : Thread nD τ).loc main_arg0)) (m ((c : Thread nD τ).loc main_arg1)) (m ((c : Thread nD τ).loc main_arg9)) (m ((c : Thread nD τ).loc main_arg10)) (m ((c : Thread nD τ).loc main_arg11))) :=
  (by host_keeps : W16 m ρ c (Proc.devRef .tc main_v149_1) = W15 m ρ c (Proc.devRef .tc main_v149_1)).trans (layer5_scaled m ρ c)

/-- The layer's output: aggregate plus scaled projection plus bias, clamped at zero. -/
theorem layer5_out : W17 m ρ c (Proc.devRef .tc main_v179) = (Cert.ReferenceIdeal.ReadP.val_main_v212 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12))) := by
  refine (W17_arr m ρ c 3).trans ((combine9 (V16 m ρ) c).trans ?_)
  dsimp only [V16]
  rw [layer5_aggregate m ρ c, layer5_scaled_kept m ρ c, layer5_bias m ρ c]
  rfl

end Cert.KernelIdeal.Bridge

end
-- ==== Proof.Layer6.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Lin10
import proofs.«152908_j39247411151511_1_alg».proof.Proof.Comb11
import proofs.«152908_j39247411151511_1_alg».proof.Proof.Layer5
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  One graph-convolution layer of the kernel program, read against the reference's stages of the same arguments. The
  dense projection region leaves the matrix product of the layer's input with its weight, and that product scaled row by
  row by the squared inverse root degree; the host stretch between the two regions gathers the product's rows at the
  edges' sources, scales them by the two endpoints' inverse root degrees and sums them into the edges' targets — the same
  host operations, on the same operands, as the reference's — and reshapes the bias to a row; the combining region adds
  the aggregate, the scaled product and the bias row and clamps at zero. So the layer's output is the reference's stage
  after its rectifier.
-/

/-- The projection: the reference's matrix product of the same operands. -/
theorem layer6_product : W18 m ρ c (Proc.devRef .tc main_v180_0) = (Cert.ReferenceIdeal.ReadP.val_main_v213 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W18_arr m ρ c 3).trans ((linear10_product (V17 m ρ) c).trans ?_)
  dsimp only [product10, V17]
  rw [(layer5_out m ρ c), ((carried_at17 m ρ c).arg13.trans (arg13_at1 m ρ c))]
  rfl

/-- The projection scaled by the squared inverse root degree of each row. -/
theorem layer6_scaled : W18 m ρ c (Proc.devRef .tc main_v180_1) = (Cert.ReferenceIdeal.ReadP.val_main_v245 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13))) := by
  refine (W18_arr m ρ c 4).trans ((linear10_scaled (V17 m ρ) c).trans ?_)
  dsimp only [scaled10, product10, V17]
  rw [(layer5_out m ρ c), ((carried_at17 m ρ c).arg13.trans (arg13_at1 m ρ c)), ((carried_at17 m ρ c).column.trans (column_at1 m ρ c))]
  rfl

set_option maxHeartbeats 1000000 in
/-- The aggregate over incoming edges: the same host operations as the reference's, on the same operands. -/
theorem layer6_aggregate : W19 m ρ c (Proc.devRef .tc main_v208) = (Cert.ReferenceIdeal.ReadP.val_main_v241 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13))) := by
  show StableHlo.after hostOps11 (W18 m ρ c) (Proc.devRef .tc main_v208) = _
  dsimp only [hostOps11]
  after_results_simp
  rw [layer6_product m ρ c, ((carried_at18 m ρ c).src.trans (sources_at1 m ρ c)), ((carried_at18 m ρ c).dst.trans (targets_at1 m ρ c)),
    ((carried_at18 m ρ c).invroot.trans (invroot_at1 m ρ c))]
  rfl

/-- The bias as a row: reshaped here, broadcast along a leading axis in the reference. -/
theorem layer6_bias : W19 m ρ c (Proc.devRef .tc main_v209) = (Cert.ReferenceIdeal.ReadP.val_main_v247 (F := Ideal) (m ((c : Thread nD τ).loc main_arg14))) := by
  show StableHlo.after hostOps11 (W18 m ρ c) (Proc.devRef .tc main_v209) = _
  dsimp only [hostOps11]
  after_results
  rw [((carried_at18 m ρ c).arg14.trans (arg14_at1 m ρ c))]
  exact Cert.Layout.row_reshape_eq_broadcast _ _ _

/-- The host stretch writes none of the projection region's outputs. -/
theorem layer6_scaled_kept : W19 m ρ c (Proc.devRef .tc main_v180_1) = (Cert.ReferenceIdeal.ReadP.val_main_v245 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13))) :=
  (by host_keeps : W19 m ρ c (Proc.devRef .tc main_v180_1) = W18 m ρ c (Proc.devRef .tc main_v180_1)).trans (layer6_scaled m ρ c)

/-- The layer's output: aggregate plus scaled projection plus bias, clamped at zero. -/
theorem layer6_out : W20 m ρ c (Proc.devRef .tc main_v210) = (Cert.ReferenceIdeal.ReadP.val_main_v250 (F := Ideal) (m ((c : Thread nD τ).loc main_arg0)) (m ((c : Thread nD τ).loc main_arg1)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  refine (W20_arr m ρ c 3).trans ((combine11 (V19 m ρ) c).trans ?_)
  dsimp only [V19]
  rw [layer6_aggregate m ρ c, layer6_scaled_kept m ρ c, layer6_bias m ρ c]
  rfl

end Cert.KernelIdeal.Bridge

end
-- ==== Proof.Decode.lean ====
/- The decode region's output array, whole: a [64, 160000] array computed in ten column blocks of 16000, each block the
   sigmoid of (left operand [64, 64]) · (weight block [64, 16000]) + (bias block [1, 16000], broadcast over the rows).
   Over the extended reals every block entry is 1 / (1 + exp(−(Σ_k z(p,k)·W(k,q) + b(0,q)))), which is the entry of the
   reference's own expression — a quotient of ones by one plus the exponential of the negated affine map — at the same
   index; the ten blocks tile the array, so the array after the region IS that expression of the three arrays the region
   reads. -/
import proofs.«152908_j39247411151511_1_alg».proof.Proof.Gen.KernelIdeal.Frame
import proofs.«152908_j39247411151511_1_alg».proof.Proof.Gen.ReferenceIdeal
import proofs.«152908_j39247411151511_1_alg».proof.Proof.LibMatmulNN
import proofs.«152908_j39247411151511_1_alg».proof.Proof.LibDotNN
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen Idealize.ShloMosaic Idealize.ShloMosaic.TcCoe Idealize.ShloMosaic.ValueIdx Idealize.SL.Sem
open Idealize.ShloMosaic.Pipeline (Dat)

/-! ## The sigmoid of an affine map, entry by entry -/

/-- The word of the float constant one denotes the extended real one. -/
theorem ofBits_one_f32 : Ideal.ofBits .f32 0x3F800000#32 = 1 := by
  simp [Ideal.ofBits, Ideal.ieee, -EReal.coe_mul]; norm_num

/-- One block of the kernel's output at an entry (p, q): the sigmoid of row p of the left block times column q of the
    weight block, plus the bias block's entry in column q. The narrowing of both operands to the short format is the
    identity over the extended reals, the product into zeros is the inner product, the row broadcast reads row 0. -/
theorem decode_block_apply (x0 : Vec Ideal S64x64 .f32) (x1 : Vec Ideal S64x16000 .f32) (x2 : Vec Ideal S1x16000 .f32)
    (p : Fin 64) (q : Fin 16000) :
    k12_pay1 (F := Ideal) x0 x1 x2 (ix2 p q)
      = Ideal.logistic ((∑ k : Fin 64, x0 (ix2 p k) * x1 (ix2 k q)) + x2 (ix2 0 q)) := by
  have hm : matmul (F := Ideal) dot_S64x64_S64x16000_S64x16000_1_0_0_1_n_n none
        (truncf .bf16 (shapeCast S64x64 x0 shapeCasts_S64x64_S64x64) bitsLt_bf16_f32) (truncf .bf16 x1 bitsLt_bf16_f32)
        (constant (F := Ideal) S64x16000 .f32 0x00000000#32) (ix2 p q)
      = ∑ k : Fin 64, x0 (ix2 p k) * x1 (ix2 k q) := by
    refine (Cert.MatmulNN.matmul_zero_apply (M := 64) (K := 64) (N := 16000) dot_S64x64_S64x16000_S64x16000_1_0_0_1_n_n rfl none _ _ p q).trans ?_
    rw [shapeCast_self]
    rfl
  have hb : broadcastTo S64x16000 (shapeCast S1x16000 x2 shapeCasts_S1x16000_S1x16000) broadcasts_S1x16000_S64x16000 (ix2 p q)
      = x2 (ix2 0 q) := by
    rw [shapeCast_self]
    exact broadcastTo_apply x2 broadcasts_S1x16000_S64x16000 (ix2 p q) (ix2 0 q) (fun a => match a with
      | ⟨0, _⟩ => by show 0 = if (1 : Nat) = 1 then 0 else p.val; rw [if_pos rfl]
      | ⟨1, _⟩ => by show q.val = if (16000 : Nat) = 1 then 0 else q.val; rw [if_neg (by decide)])
  unfold k12_pay1
  show Ideal.logistic (_ + _) = _
  exact congrArg Ideal.logistic (congrArg₂ (· + ·) hm hb)

/-- The reference's spelling of the same map over the whole arrays: one over one plus the exponential of minus the
    affine map, the ones being broadcasts of the scalar constant one. -/
def decodeRef (z : FVec Ideal Cert.ReferenceIdeal.S64x64 .f32) (W : FVec Ideal Cert.ReferenceIdeal.S64x160000 .f32)
    (b : FVec Ideal Cert.ReferenceIdeal.S1x160000 .f32) : FVec Ideal Cert.ReferenceIdeal.S64x160000 .f32 :=
  Host.divf (F := Ideal) (broadcastInDim Cert.ReferenceIdeal.S64x160000 ![] Cert.ReferenceIdeal.Gen.bcast_S_S64x160000 (constant (F := Ideal) Cert.ReferenceIdeal.S_ .f32 0x3F800000#32))
    (addf (broadcastInDim Cert.ReferenceIdeal.S64x160000 ![] Cert.ReferenceIdeal.Gen.bcast_S_S64x160000 (constant (F := Ideal) Cert.ReferenceIdeal.S_ .f32 0x3F800000#32))
      (Host.exp (F := Ideal) (Host.negf (F := Ideal) (addf (Host.dotGeneral (F := Ideal) Cert.ReferenceIdeal.dot_S64x64_S64x160000_S64x160000_1_0_0_1_n_n none z W)
        (broadcastInDim Cert.ReferenceIdeal.S64x160000 ![0, 1] Cert.ReferenceIdeal.Gen.bcast_S1x160000_S64x160000_0_1 b)))))

/-- The reference's expression at an entry (p, q) is the sigmoid of the same affine map: a quotient by one plus an
    exponential IS the sigmoid over the extended reals, by definition. -/
theorem decodeRef_apply (z : FVec Ideal Cert.ReferenceIdeal.S64x64 .f32) (W : FVec Ideal Cert.ReferenceIdeal.S64x160000 .f32)
    (b : FVec Ideal Cert.ReferenceIdeal.S1x160000 .f32) (p : Fin 64) (q : Fin 160000) :
    decodeRef z W b (ix2 p q) = Ideal.logistic ((∑ k : Fin 64, z (ix2 p k) * W (ix2 k q)) + b (ix2 0 q)) := by
  have h1 : broadcastInDim Cert.ReferenceIdeal.S64x160000 ![] Cert.ReferenceIdeal.Gen.bcast_S_S64x160000
      (constant (F := Ideal) Cert.ReferenceIdeal.S_ .f32 0x3F800000#32) (ix2 p q) = (1 : EReal) :=
    (broadcastInDim_apply _ Cert.ReferenceIdeal.Gen.bcast_S_S64x160000 _ (ix2 p q) ix0 (fun a => a.elim0)).trans ofBits_one_f32
  have hd : Host.dotGeneral (F := Ideal) Cert.ReferenceIdeal.dot_S64x64_S64x160000_S64x160000_1_0_0_1_n_n none z W (ix2 p q)
      = ∑ k : Fin 64, z (ix2 p k) * W (ix2 k q) :=
    Cert.DotNN.dotGeneral_apply (M := 64) (K := 64) (N := 160000) Cert.ReferenceIdeal.dot_S64x64_S64x160000_S64x160000_1_0_0_1_n_n rfl none .single z W p q
  have hb : broadcastInDim Cert.ReferenceIdeal.S64x160000 ![0, 1] Cert.ReferenceIdeal.Gen.bcast_S1x160000_S64x160000_0_1 b (ix2 p q)
      = b (ix2 0 q) :=
    broadcastInDim_apply _ Cert.ReferenceIdeal.Gen.bcast_S1x160000_S64x160000_0_1 b (ix2 p q) (ix2 0 q) (fun a => match a with
      | ⟨0, _⟩ => by show 0 = if (1 : Nat) = 1 then 0 else p.val; rw [if_pos rfl]
      | ⟨1, _⟩ => by show q.val = if (160000 : Nat) = 1 then 0 else q.val; rw [if_neg (by decide)])
  unfold decodeRef
  show Ideal.div _ (_ + Ideal.exp (-(_ + _))) = _
  rw [h1, hd, hb]
  rfl

/-! ## From blocks to the array -/

/-- The zero offset, as the constant function. -/
theorem off_zero : (![0, 0] : Fin 2 → Nat) = fun _ => 0 := funext fun a => by fin_cases a <;> rfl

/-- The grid has ten points. -/
theorem point_lt (t : Fin cfg12.N) : t.val < 10 := lt_of_lt_of_eq t.isLt N_12

/-- The printed index maps over the grid's ten points: the left operand's block never moves; the weight's, the bias's
    and the output's blocks are column block t, all in row block 0. -/
theorem block_index : ∀ t : Fin cfg12.N,
    win12_0.index t (0 : Fin 2) = 0 ∧ win12_0.index t (1 : Fin 2) = 0
    ∧ win12_1.index t (0 : Fin 2) = 0 ∧ win12_1.index t (1 : Fin 2) = t.val
    ∧ win12_2.index t (0 : Fin 2) = 0 ∧ win12_2.index t (1 : Fin 2) = t.val
    ∧ win12_3.index t (0 : Fin 2) = 0 ∧ win12_3.index t (1 : Fin 2) = t.val :=
  (by decide +kernel : ∀ t : Fin grid12.N, _)

variable (V : (c : Dev nD) → (b : Ref sig .tc) → Buf (Elt Ideal) ((c : Thread nD τ).loc b))

/-- The left operand's block at any point is the whole [64, 64] array. -/
theorem left_block (c : Dev nD) (t : Fin cfg12.N) (p k : Fin 64) :
    iblk12 (F := Ideal) V c 0 t (ix2 p k) = V c main_v227 (ix2 p k) := by
  obtain ⟨e0, e1, -⟩ := block_index t
  show V c main_v227 (((cfg12.win 0).blk t).view.emb (ix2 p k)) = V c main_v227 (ix2 p k)
  refine congrArg (V c main_v227) (funext fun a => Fin.ext ?_)
  match a with
  | ⟨0, _⟩ => show win12_0.index t (0 : Fin 2) * 64 + 1 * p.val = p.val; omega
  | ⟨1, _⟩ => show win12_0.index t (1 : Fin 2) * 64 + 1 * k.val = k.val; omega

/-- The weight's block at point t is columns 16000 t … 16000 t + 15999 of the [64, 160000] array. -/
theorem weight_block (c : Dev nD) (t : Fin cfg12.N) (k : Fin 64) (q : Fin 16000) (hq : t.val * 16000 + q.val < 160000) :
    iblk12 (F := Ideal) V c 1 t (ix2 k q) = V c main_arg15 (ix2 k ⟨t.val * 16000 + q.val, hq⟩) := by
  obtain ⟨-, -, e2, e3, -⟩ := block_index t
  show V c main_arg15 (((cfg12.win 1).blk t).view.emb (ix2 k q)) = V c main_arg15 (ix2 k ⟨t.val * 16000 + q.val, hq⟩)
  refine congrArg (V c main_arg15) (funext fun a => Fin.ext ?_)
  match a with
  | ⟨0, _⟩ => show win12_1.index t (0 : Fin 2) * 64 + 1 * k.val = k.val; omega
  | ⟨1, _⟩ => show win12_1.index t (1 : Fin 2) * 16000 + 1 * q.val = t.val * 16000 + q.val; omega

/-- The bias's block at point t is the same columns of the [1, 160000] array. -/
theorem bias_block (c : Dev nD) (t : Fin cfg12.N) (q : Fin 16000) (hq : t.val * 16000 + q.val < 160000) :
    iblk12 (F := Ideal) V c 2 t (ix2 0 q) = V c main_v228 (ix2 0 ⟨t.val * 16000 + q.val, hq⟩) := by
  obtain ⟨-, -, -, -, e4, e5, -⟩ := block_index t
  show V c main_v228 (((cfg12.win 2).blk t).view.emb (ix2 0 q)) = V c main_v228 (ix2 0 ⟨t.val * 16000 + q.val, hq⟩)
  refine congrArg (V c main_v228) (funext fun a => Fin.ext ?_)
  match a with
  | ⟨0, _⟩ => show win12_2.index t (0 : Fin 2) * 1 + 1 * 0 = 0; omega
  | ⟨1, _⟩ => show win12_2.index t (1 : Fin 2) * 16000 + 1 * q.val = t.val * 16000 + q.val; omega

/-- An entry (p, q) of the output's block at point t sits in the array at (p, 16000 t + q). -/
theorem out_block_emb (t : Fin cfg12.N) (p : Fin 64) (q : Fin 16000) (hq : t.val * 16000 + q.val < 160000) :
    ((cfg12.win 3).blk t).view.emb (ix2 p q) = (ix2 p ⟨t.val * 16000 + q.val, hq⟩ : S64x160000.Idx) := by
  obtain ⟨-, -, -, -, -, -, e6, e7⟩ := block_index t
  funext a; apply Fin.ext
  match a with
  | ⟨0, _⟩ => show win12_3.index t (0 : Fin 2) * 64 + 1 * p.val = p.val; omega
  | ⟨1, _⟩ => show win12_3.index t (1 : Fin 2) * 16000 + 1 * q.val = t.val * 16000 + q.val; omega

/-- WHAT POINT t WRITES BACK is block t of the reference's expression of the arrays as the region finds them. -/
theorem flushed12_eq (c : Dev nD) (t : Fin cfg12.N) :
    (dat12 (F := Ideal) V c).flushed 3 t
      = ((cfg12.win 3).blk t).view.read (Elt Ideal) (decodeRef (V c main_v227) (V c main_arg15) (V c main_v228)) := by
  show (cfg12.win 3).cut (grid12.coords t) ((dat12 V c).after 3 t) = _
  rw [after12_3]
  unfold out12_3
  rw [View.canon_unit_zero off_zero]
  simp only [View.ld_unit_zero (S := S64x64) off_zero, View.ld_unit_zero (S := S64x16000) off_zero, View.ld_unit_zero (S := S1x16000) off_zero]
  funext j
  obtain ⟨p, q, rfl⟩ : ∃ (p : Fin 64) (q : Fin 16000), j = ix2 p q := ⟨j 0, j 1, eq_ix2 j⟩
  have hq : t.val * 16000 + q.val < 160000 := by have := point_lt t; have := q.isLt; omega
  show k12_pay1 (iblk12 V c 0 t) (iblk12 V c 1 t) (iblk12 V c 2 t) (ix2 p q)
    = decodeRef (V c main_v227) (V c main_arg15) (V c main_v228) (((cfg12.win 3).blk t).view.emb (ix2 p q))
  rw [out_block_emb t p q hq, decodeRef_apply]
  refine (decode_block_apply _ _ _ p q).trans ?_
  exact congrArg Ideal.logistic (congrArg₂ (· + ·)
    (Finset.sum_congr rfl fun k _ => congrArg₂ (· * ·) (left_block V c t p k) (weight_block V c t k q hq))
    (bias_block V c t q hq))

/-- An index of the array is in point t's block iff each coordinate is in the block's range on its axis. -/
theorem mem_block12 (t : Fin cfg12.N) (i : S64x160000.Idx) :
    i ∈ ((cfg12.win 3).blk t).view.set ↔ ∀ a : Fin 2, win12_3.index t a * S64x16000.size a ≤ (i a).val ∧ (i a).val < win12_3.index t a * S64x16000.size a + S64x16000.size a := by
  show i ∈ ((View.whole main_v229).slice (win12_3.rect t)).set ↔ _
  rw [View.set_slice_whole, Rect.mem_set_unit]
  exact Iff.rfl

/-- Every index of the array is in some point's block: column q is in column block q / 16000. -/
theorem cover12 (i : S64x160000.Idx) :
    ∃ t : Fin cfg12.N, (cfg12.win 3).flush t = true ∧ i ∈ ((cfg12.win 3).blk t).view.set := by
  have hi0 : (i 0).val < 64 := (i 0).isLt
  have hi1 : (i 1).val < 160000 := (i 1).isLt
  obtain ⟨t, ht⟩ : ∃ t : Fin cfg12.N, t.val = (i 1).val / 16000 :=
    ⟨⟨(i 1).val / 16000, lt_of_lt_of_eq (by omega : (i 1).val / 16000 < 10) N_12.symm⟩, rfl⟩
  obtain ⟨-, -, -, -, -, -, e6, e7⟩ := block_index t
  refine ⟨t, flush12_3 t, ?_⟩
  rw [mem_block12]
  intro a
  match a with
  | ⟨0, _⟩ => show win12_3.index t (0 : Fin 2) * 64 ≤ (i 0).val ∧ (i 0).val < win12_3.index t (0 : Fin 2) * 64 + 64; omega
  | ⟨1, _⟩ => show win12_3.index t (1 : Fin 2) * 16000 ≤ (i 1).val ∧ (i 1).val < win12_3.index t (1 : Fin 2) * 16000 + 16000; omega

/-- THE OUTPUT ARRAY after the region: the reference's sigmoid expression of the three arrays the region reads, as it
    finds them. -/
theorem decode12 (c : Dev nD) : (dat12 (F := Ideal) V c).arrAt 3 cfg12.N =
    Host.divf (F := Ideal) (broadcastInDim Cert.ReferenceIdeal.S64x160000 ![] Cert.ReferenceIdeal.Gen.bcast_S_S64x160000 (constant (F := Ideal) Cert.ReferenceIdeal.S_ .f32 0x3F800000#32))
      (addf (broadcastInDim Cert.ReferenceIdeal.S64x160000 ![] Cert.ReferenceIdeal.Gen.bcast_S_S64x160000 (constant (F := Ideal) Cert.ReferenceIdeal.S_ .f32 0x3F800000#32))
        (Host.exp (F := Ideal) (Host.negf (F := Ideal) (addf (Host.dotGeneral (F := Ideal) (φ₁ := .f32) (φ₂ := .f32) Cert.ReferenceIdeal.dot_S64x64_S64x160000_S64x160000_1_0_0_1_n_n none (V c main_v227) (V c main_arg15))
          (broadcastInDim Cert.ReferenceIdeal.S64x160000 ![0, 1] Cert.ReferenceIdeal.Gen.bcast_S1x160000_S64x160000_0_1 (V c main_v228)))))) := by
  show _ = decodeRef (V c main_v227) (V c main_arg15) (V c main_v228)
  exact (dat12 V c).arrAt_eq_of_cover 3 _ (fun t _ => flushed12_eq V c t) cover12

end Cert.KernelIdeal.Bridge

end
-- ==== Proof.Tail.lean ====
import proofs.«152908_j39247411151511_1_alg».proof.Proof.Keep
import proofs.«152908_j39247411151511_1_alg».proof.Proof.ReadP
import proofs.«152908_j39247411151511_1_alg».proof.Proof.LibLayout
import proofs.«152908_j39247411151511_1_alg».proof.Proof.Stage0
import proofs.«152908_j39247411151511_1_alg».proof.Proof.Layer6
import proofs.«152908_j39247411151511_1_alg».proof.Proof.PoolMean
import proofs.«152908_j39247411151511_1_alg».proof.Proof.Decode
import Idealize.ShloMosaic.Lib.StableHlo.Run

set_option maxRecDepth 16384

noncomputable section

namespace Cert.KernelIdeal.Bridge

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg) (c : Dev nD)

/-!
  The end of the run. The host operations after the second branch's third layer pool it like the first, form the latent
  sample — the first pool plus the noise times the exponential of half the second pool — and reshape the decoder's bias
  to a row; the decoding region leaves the sigmoid of the sample times the decoder's weight plus the bias; a last reshape
  views it as a stack of square images. Each step is the reference's own on the same operands.
-/

set_option maxHeartbeats 1000000 in
/-- The pooled mean of the second branch. -/
theorem pool_logvar_at21 : W21 m ρ c (Proc.devRef .tc main_v222) = (Cert.ReferenceIdeal.ReadP.val_main_v262 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) := by
  show StableHlo.after hostOps12 (W20 m ρ c) (Proc.devRef .tc main_v222) = _
  dsimp only [hostOps12]
  after_results_simp
  rw [layer6_out m ρ c, ((carried_at20 m ρ c).arg2.trans (arg2_at1 m ρ c))]
  rfl

set_option maxHeartbeats 1000000 in
/-- The latent sample. -/
theorem latent_at21 : W21 m ρ c (Proc.devRef .tc main_v227) = (Cert.ReferenceIdeal.ReadP.val_main_v267 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg17))) := by
  show StableHlo.after hostOps12 (W20 m ρ c) (Proc.devRef .tc main_v227) = _
  dsimp only [hostOps12]
  after_results_simp
  rw [layer6_out m ρ c, ((carried_at20 m ρ c).arg2.trans (arg2_at1 m ρ c)), ((carried_at20 m ρ c).arg17.trans (arg17_at1 m ρ c)), pool_mean_at20 m ρ c]
  rfl

/-- The decoder's bias as a row: reshaped here, broadcast along a leading axis in the reference. -/
theorem decoder_bias_at21 : W21 m ρ c (Proc.devRef .tc main_v228) = (Cert.ReferenceIdeal.ReadP.val_main_v269 (F := Ideal) (m ((c : Thread nD τ).loc main_arg16))) := by
  show StableHlo.after hostOps12 (W20 m ρ c) (Proc.devRef .tc main_v228) = _
  dsimp only [hostOps12]
  after_results
  rw [((carried_at20 m ρ c).arg16.trans (arg16_at1 m ρ c))]
  exact Cert.Layout.row_reshape_eq_broadcast _ _ _

/-- The decoder's weight, unchanged at the decoding region's entry. -/
theorem decoder_weight_at21 : W21 m ρ c (Proc.devRef .tc main_arg15) = m ((c : Thread nD τ).loc main_arg15) :=
  ((carried_at21 m ρ c).arg15.trans (arg15_at1 m ρ c))

/-- The decoded array: the sigmoid of the sample times the weight plus the bias. -/
theorem decoded_at22 : W22 m ρ c (Proc.devRef .tc main_v229) = (Cert.ReferenceIdeal.ReadP.val_main_v277 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  refine (W22_arr m ρ c 3).trans ((decode12 (V21 m ρ) c).trans ?_)
  dsimp only [V21]
  rw [latent_at21 m ρ c, decoder_weight_at21 m ρ c, decoder_bias_at21 m ρ c]
  rfl

/-- The first result: the decoded array viewed as a stack of square images. -/
theorem images_final : W23 m ρ c (Proc.devRef .tc main_v230) = (Cert.ReferenceIdeal.ReadP.val_main_v278 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))) := by
  show StableHlo.after hostOps13 (W22 m ρ c) (Proc.devRef .tc main_v230) = _
  dsimp only [hostOps13]
  after_results
  rw [decoded_at22 m ρ c]
  rfl

/-- The third result: the second pool, which the decoder and the last reshape do not write. -/
theorem pool_logvar_final : W23 m ρ c (Proc.devRef .tc main_v222) = (Cert.ReferenceIdeal.ReadP.val_main_v262 (F := Ideal) (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14))) :=
  (by host_keeps : W23 m ρ c (Proc.devRef .tc main_v222) = W22 m ρ c (Proc.devRef .tc main_v222)).trans <|
  (W22_of_ne m ρ c main_v222 (by decide)).trans (pool_logvar_at21 m ρ c)

end Cert.KernelIdeal.Bridge

end
-- ==== Proof.lean ====
/-
  The kernel program computes a variational graph auto-encoder's forward pass in thirteen device regions among stretches of
  host operations: two branches of three graph-convolution layers each (a dense projection region, a host stretch that
  gathers, scales and scatter-adds over the edges, and a region that adds the self-loop term and the bias and clamps at
  zero), a mean pool per branch, the latent sample, and a decoding region (matrix product, bias, sigmoid). The reference
  computes the same function with host operations only.

  Over the extended reals the two agree operation by operation: a change of float format is the identity, a matrix
  product into a zero accumulator and the host's dot_general are the same sums, the sigmoid is 1 / (1 + exp(-x)) on both
  sides, and every other operation is literally the same host operation on the same operands. So the proof reads each
  region's output array as the reference's corresponding host operations applied to the arrays the region found
  (modules Lin*, Comb*, Decode), walks the program's segments in order identifying each value that a later segment reads
  with the reference's stage of the arguments (Stage0, Layer1 … Layer6, PoolMean, Tail; Keep says which buffers a segment
  leaves alone), and re-states the program's run with its three results named (RunValues). No finiteness is used.
-/
import proofs.«152908_j39247411151511_1_alg».proof.Defs
import proofs.«152908_j39247411151511_1_alg».proof.Proof.Gen.Kernel
import proofs.«152908_j39247411151511_1_alg».proof.Proof.Gen.Kernel.Skeleton
import proofs.«152908_j39247411151511_1_alg».proof.Proof.Gen.Kernel.Launch
import proofs.«152908_j39247411151511_1_alg».proof.Proof.Gen.Kernel.Points
import proofs.«152908_j39247411151511_1_alg».proof.Proof.Gen.Kernel.Frame
import proofs.«152908_j39247411151511_1_alg».proof.Proof.Gen.KernelIdeal
import proofs.«152908_j39247411151511_1_alg».proof.Proof.Gen.KernelIdeal.Skeleton
import proofs.«152908_j39247411151511_1_alg».proof.Proof.Gen.KernelIdeal.Launch
import proofs.«152908_j39247411151511_1_alg».proof.Proof.Gen.KernelIdeal.Points
import proofs.«152908_j39247411151511_1_alg».proof.Proof.Gen.KernelIdeal.Frame
import proofs.«152908_j39247411151511_1_alg».proof.Proof.Gen.ReferenceIdeal
import proofs.«152908_j39247411151511_1_alg».proof.Proof.RunP
import proofs.«152908_j39247411151511_1_alg».proof.Proof.ReadP
import proofs.«152908_j39247411151511_1_alg».proof.Proof.ResultEq
import proofs.«152908_j39247411151511_1_alg».proof.Proof.Gen.Pre_finite_inputs
import proofs.«152908_j39247411151511_1_alg».proof.Proof.RunValues
import proofs.«152908_j39247411151511_1_alg».proof.Proof.PoolMean
import proofs.«152908_j39247411151511_1_alg».proof.Proof.Tail
import Idealize.ShloMosaic.Adequacy
import Idealize.ShloMosaic.Init

set_option maxRecDepth 16384

noncomputable section

namespace Cert.Proof

open Idealize.ShloMosaic Idealize.SL.Sem Cert.Kernel

theorem frame_kernel : Cert.frame_Kernel := fun m ρ _ => Cert.Kernel.Gen.frame m ρ

theorem frame_kernel_ideal : Cert.frame_KernelIdeal := fun m ρ _ => Cert.KernelIdeal.Gen.frame m ρ

/-- The reference's run with its results dropped. -/
theorem frame_reference_ideal : Cert.frame_ReferenceIdeal := fun m ρ _ =>
  (θ_run Cert.ReferenceIdeal.defs _ _).mono (fun _ h c => (h c).2.2.2) (Cert.ReferenceIdeal.ValueP.run (F := Ideal) m ρ)

/-- Both programs end with each result at the reference's stage of the (agreeing) arguments. -/
theorem algebraic : Cert.algebraic_KernelIdeal_ReferenceIdeal := by
  intro m ρ m' ρ' _ hagree
  refine ⟨fun c => (Cert.ReferenceIdeal.ReadP.val_main_v278 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))),
    fun c => (Cert.ReferenceIdeal.ReadP.val_main_v136 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => (Cert.ReferenceIdeal.ReadP.val_main_v262 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))), ?_, ?_⟩
  · exact (θ_run Cert.KernelIdeal.defs _ _).mono (fun r h c =>
      ⟨(h c).1.trans (Cert.KernelIdeal.Bridge.images_final m ρ c),
       (h c).2.1.trans (Cert.KernelIdeal.Bridge.pool_mean_final m ρ c),
       (h c).2.2.1.trans (Cert.KernelIdeal.Bridge.pool_logvar_final m ρ c),
       (h c).2.2.2⟩) (Cert.KernelIdeal.Bridge.run_values m ρ)
  · refine (θ_run Cert.ReferenceIdeal.defs _ _).mono (fun r h c => ?_) (Cert.ReferenceIdeal.ValueP.run (F := Ideal) m' ρ')
    obtain ⟨e0, e1, e2, e3, e4, e5, e6, e7, e8, e9, e10, e11, e12, e13, e14, e15, e16, e17⟩ := hagree c
    refine ⟨?_, ?_, ?_, (h c).2.2.2⟩
    · rw [(h c).1, Cert.ReferenceIdeal.ResultEq.result_v278_eq, e0, e1, e2, e3, e4, e5, e6, e7, e8, e9, e10, e11, e12, e13, e14, e15, e16, e17]
    · rw [(h c).2.1, Cert.ReferenceIdeal.ResultEq.result_v136_eq, e0, e1, e2, e3, e4, e5, e6, e7, e8]
    · rw [(h c).2.2.1, Cert.ReferenceIdeal.ResultEq.result_v262_eq, e0, e1, e2, e9, e10, e11, e12, e13, e14]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
